-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v118) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S40x128 : Shape := ⟨2, ![40, 128]⟩
abbrev S40 : Shape := ⟨1, ![40]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  bcast_S_S128 : S_.BroadcastsInDim S128 (![] : Fin 0 → Fin S128.rank)
  reducesTo_S128_S_d0 : S128.ReducesTo [0] S_

variable [Facts]

def fn_part3 {F : FTy → Type} [FloatOps F] (main_arg13 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg13
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg9 : FVec F S40x128 .f32) (main_arg10 : FVec F S128 .f32) (main_arg11 : FVec F S128 .f32) (main_arg12 : FVec F S128 .f32) (main_arg13 : FVec F S128 .f32) (main_v33 : IVec S_ 1) : IVec S_ 1 :=
  let main_v34 : FVec F S40x128 .f32 := Host.absf main_arg9
  let main_cst_12 : FVec F S_ .f32 := constant S_ .f32 0x7F800000#32
  let main_v35 : FVec F S40x128 .f32 := broadcastInDim S40x128 ![] bcast_S_S40x128 main_cst_12
  let main_v36 : IVec S40x128 1 := cmpf .olt main_v34 main_v35
  let main_c_13 : IVec S_ 1 := constantI S_ 1 1#1
  let main_v37 : IVec S_ 1 := (fun x v => Host.reduce IntOp.andi x v reducesTo_S40x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg11
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_arg13 main_v48 main_v49 main_v50

def fn_part1 {F : FTy → Type} [FloatOps F] (main_arg6 : FVec F S40 .f32) (main_arg7 : FVec F S128x128 .f32) (main_arg8 : FVec F S128x128 .f32) (main_arg9 : FVec F S40x128 .f32) (main_arg10 : FVec F S128 .f32) (main_arg11 : FVec F S128 .f32) (main_arg12 : FVec F S128 .f32) (main_arg13 : FVec F S128 .f32) (main_v13 : IVec S_ 1) (main_v16 : IVec S40x128 1) : IVec S_ 1 :=
  let main_c_5 : IVec S_ 1 := constantI S_ 1 1#1
  let main_v17 : IVec S_ 1 := (fun x v => Host.reduce IntOp.andi x v reducesTo_S40x128_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_arg12 main_arg13 main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S40x128 .f32) (main_arg6 : FVec F S40 .f32) (main_arg7 : FVec F S128x128 .f32) (main_arg8 : FVec F S128x128 .f32) (main_arg9 : FVec F S40x128 .f32) (main_arg10 : FVec F S128 .f32) (main_arg11 : FVec F S128 .f32) (main_arg12 : FVec F S128 .f32) (main_arg13 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S40x128 .f32 := Host.absf main_arg5
  let main_cst_4 : FVec F S_ .f32 := constant S_ .f32 0x7F800000#32
  let main_v15 : FVec F S40x128 .f32 := broadcastInDim S40x128 ![] bcast_S_S40x128 main_cst_4
  let main_v16 : IVec S40x128 1 := cmpf .olt main_v14 main_v15
  fn_part1 (F := F) main_arg6 main_arg7 main_arg8 main_arg9 main_arg10 main_arg11 main_arg12 main_arg13 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S40x128 : Shape := ⟨2, ![40, 128]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S128x40 : Shape := ⟨2, ![128, 40]⟩
abbrev S1600000x128 : Shape := ⟨2, ![1600000, 128]⟩
abbrev S5000x128 : Shape := ⟨2, ![5000, 128]⟩
abbrev S5000x1 : Shape := ⟨2, ![5000, 1]⟩
abbrev S1x128 : Shape := ⟨2, ![1, 128]⟩
abbrev S100000x40 : Shape := ⟨2, ![100000, 40]⟩
abbrev S5000x40 : Shape := ⟨2, ![5000, 40]⟩
abbrev S1600000x40 : Shape := ⟨2, ![1600000, 40]⟩
abbrev S1x40 : Shape := ⟨2, ![1, 40]⟩

abbrev nBuf : Space → Nat
  | .hbm => 160
  | .vmem => 53
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S40x128, .f32⟩
  | 6 => ⟨S40, .f32⟩
  | 7 => ⟨S128x128, .f32⟩
  | 8 => ⟨S128x128, .f32⟩
  | 9 => ⟨S40x128, .f32⟩
  | 10 => ⟨S128, .f32⟩
  | 11 => ⟨S128, .f32⟩
  | 12 => ⟨S128, .f32⟩
  | 13 => ⟨S128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S100000x1, .f32⟩
  | 36 => ⟨S_, .f32⟩
  | 37 => ⟨S100000, .f32⟩
  | 38 => ⟨S100000, .f32⟩
  | 39 => ⟨S100000x1, .f32⟩
  | 40 => ⟨S128x128, .f32⟩
  | 41 => ⟨S128x128, .f32⟩
  | 42 => ⟨S128x128, .f32⟩
  | 43 => ⟨S128x128, .f32⟩
  | 44 => ⟨S128x40, .f32⟩
  | 45 => ⟨S128x40, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S100000x128, .f32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S_, .i32⟩
  | 69 => ⟨S_, .f32⟩
  | 70 => ⟨S128, .f32⟩
  | 71 => ⟨S1x128, .f32⟩
  | 72 => ⟨S_, .f32⟩
  | 73 => ⟨S1x128, .f32⟩
  | 74 => ⟨S1x128, .f32⟩
  | 75 => ⟨S100000x128, .f32⟩
  | 76 => ⟨S100000x128, .f32⟩
  | 77 => ⟨S100000x128, .f32⟩
  | 78 => ⟨S_, .f32⟩
  | 79 => ⟨S_, .f32⟩
  | 80 => ⟨S_, .f32⟩
  | 81 => ⟨S_, .f32⟩
  | 82 => ⟨S128, .f32⟩
  | 83 => ⟨S1x128, .f32⟩
  | 84 => ⟨S1x128, .f32⟩
  | 85 => ⟨S1x128, .f32⟩
  | 86 => ⟨S_, .f32⟩
  | 87 => ⟨S_, .i1⟩
  | 88 => ⟨S_, .f32⟩
  | 89 => ⟨S_, .f32⟩
  | 90 => ⟨S1x128, .f32⟩
  | 91 => ⟨S1x128, .f32⟩
  | 92 => ⟨S1x128, .f32⟩
  | 93 => ⟨S1x128, .f32⟩
  | 94 => ⟨S100000x128, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S_, .i32⟩
  | 118 => ⟨S_, .f32⟩
  | 119 => ⟨S128, .f32⟩
  | 120 => ⟨S1x128, .f32⟩
  | 121 => ⟨S_, .f32⟩
  | 122 => ⟨S1x128, .f32⟩
  | 123 => ⟨S1x128, .f32⟩
  | 124 => ⟨S100000x128, .f32⟩
  | 125 => ⟨S100000x128, .f32⟩
  | 126 => ⟨S100000x128, .f32⟩
  | 127 => ⟨S_, .f32⟩
  | _ => ⟨S100000x128, .f32⟩

abbrev hbmTy0_1 (i : Nat) : BufTy := match i % 128 with
  | 0 => ⟨S_, .f32⟩
  | 1 => ⟨S_, .f32⟩
  | 2 => ⟨S_, .f32⟩
  | 3 => ⟨S128, .f32⟩
  | 4 => ⟨S1x128, .f32⟩
  | 5 => ⟨S1x128, .f32⟩
  | 6 => ⟨S1x128, .f32⟩
  | 7 => ⟨S_, .f32⟩
  | 8 => ⟨S_, .i1⟩
  | 9 => ⟨S_, .f32⟩
  | 10 => ⟨S_, .f32⟩
  | 11 => ⟨S1x128, .f32⟩
  | 12 => ⟨S1x128, .f32⟩
  | 13 => ⟨S1x128, .f32⟩
  | 14 => ⟨S1x128, .f32⟩
  | 15 => ⟨S100000x128, .f32⟩
  | 16 => ⟨S100000x40, .f32⟩
  | 17 => ⟨S_, .i32⟩
  | 18 => ⟨S1600000, .i32⟩
  | 19 => ⟨S1600000, .i1⟩
  | 20 => ⟨S_, .i32⟩
  | 21 => ⟨S1600000, .i32⟩
  | 22 => ⟨S1600000, .i32⟩
  | 23 => ⟨S1600000, .i32⟩
  | 24 => ⟨S1600000x1, .i32⟩
  | 25 => ⟨S1600000x40, .f32⟩
  | 26 => ⟨S_, .f32⟩
  | 27 => ⟨S100000x40, .f32⟩
  | 28 => ⟨S1600000x1, .i32⟩
  | 29 => ⟨S100000x40, .f32⟩
  | 30 => ⟨S1x40, .f32⟩
  | 31 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S128x128, .f32⟩
  | .local _ .vmem, ⟨5, _⟩ => ⟨S5000x128, .f32⟩
  | .local _ .vmem, ⟨6, _⟩ => ⟨S5000x128, .f32⟩
  | .local _ .vmem, ⟨7, _⟩ => ⟨S128x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S5000x1, .f32⟩
  | .local _ .vmem, ⟨21, _⟩ => ⟨S5000x1, .f32⟩
  | .local _ .vmem, ⟨22, _⟩ => ⟨S128x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x1, .f32⟩
  | .local _ .vmem, ⟨39, _⟩ => ⟨S5000x1, .f32⟩
  | .local _ .vmem, ⟨40, _⟩ => ⟨S128x40, .f32⟩
  | .local _ .vmem, ⟨41, _⟩ => ⟨S5000x40, .f32⟩
  | .local _ .vmem, ⟨42, _⟩ => ⟨S5000x40, .f32⟩
  | .local _ .vmem, ⟨43, _⟩ => ⟨S5000x40, .f32⟩
  | .local _ .vmem, ⟨44, _⟩ => ⟨S5000x40, .f32⟩
  | .local _ .vmem, ⟨45, _⟩ => ⟨S5000x1, .f32⟩
  | .local _ .vmem, ⟨46, _⟩ => ⟨S5000x1, .f32⟩
  | .local _ .vmem, ⟨47, _⟩ => ⟨S1x40, .f32⟩
  | .local _ .vmem, ⟨48, _⟩ => ⟨S5000x128, .f32⟩
  | .local _ .vmem, ⟨49, _⟩ => ⟨S5000x128, .f32⟩
  | .local _ .vmem, ⟨50, _⟩ => ⟨S128x40, .f32⟩
  | .local _ .vmem, ⟨51, _⟩ => ⟨S5000x40, .f32⟩
  | .local _ .vmem, ⟨52, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | _, _ => false

abbrev semScoped : Fin 0 → Bool
  | ⟨_, h⟩ => absurd h (Nat.not_lt_zero _)

abbrev dmaSemScoped : Fin 53 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | _ => false

abbrev sig : RefSig :=
  ofTc nBuf bufTy 0 53 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_cst_5 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_c : Ref sig .tc := ⟨.hbm, 48, rfl⟩
abbrev main_v23 : Ref sig .tc := ⟨.hbm, 49, rfl⟩
abbrev main_v24 : Ref sig .tc := ⟨.hbm, 50, rfl⟩
abbrev main_c_6 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_cst_7 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_v35 : Ref sig .tc := ⟨.hbm, 64, rfl⟩
abbrev main_cst_9 : Ref sig .tc := ⟨.hbm, 65, rfl⟩
abbrev main_v36 : Ref sig .tc := ⟨.hbm, 66, rfl⟩
abbrev main_v37 : Ref sig .tc := ⟨.hbm, 67, rfl⟩
abbrev main_c_10 : Ref sig .tc := ⟨.hbm, 68, rfl⟩
abbrev main_call2_cst : Ref sig .tc := ⟨.hbm, 69, rfl⟩
abbrev main_call2_v0 : Ref sig .tc := ⟨.hbm, 70, rfl⟩
abbrev main_call2_v1 : Ref sig .tc := ⟨.hbm, 71, rfl⟩
abbrev main_call2_cst_0 : Ref sig .tc := ⟨.hbm, 72, rfl⟩
abbrev main_call2_v2 : Ref sig .tc := ⟨.hbm, 73, rfl⟩
abbrev main_call2_v3 : Ref sig .tc := ⟨.hbm, 74, rfl⟩
abbrev main_call2_v4 : Ref sig .tc := ⟨.hbm, 75, rfl⟩
abbrev main_call2_v5 : Ref sig .tc := ⟨.hbm, 76, rfl⟩
abbrev main_call2_v6 : Ref sig .tc := ⟨.hbm, 77, rfl⟩
abbrev main_call2_v7 : Ref sig .tc := ⟨.hbm, 78, rfl⟩
abbrev main_call2_cst_1 : Ref sig .tc := ⟨.hbm, 79, rfl⟩
abbrev main_call2_v8 : Ref sig .tc := ⟨.hbm, 80, rfl⟩
abbrev main_call2_cst_2 : Ref sig .tc := ⟨.hbm, 81, rfl⟩
abbrev main_call2_v9 : Ref sig .tc := ⟨.hbm, 82, rfl⟩
abbrev main_call2_v10 : Ref sig .tc := ⟨.hbm, 83, rfl⟩
abbrev main_call2_v11 : Ref sig .tc := ⟨.hbm, 84, rfl⟩
abbrev main_call2_v12 : Ref sig .tc := ⟨.hbm, 85, rfl⟩
abbrev main_call2_cst_3 : Ref sig .tc := ⟨.hbm, 86, rfl⟩
abbrev main_call2_v13 : Ref sig .tc := ⟨.hbm, 87, rfl⟩
abbrev main_call2_cst_4 : Ref sig .tc := ⟨.hbm, 88, rfl⟩
abbrev main_call2_call0_v0 : Ref sig .tc := ⟨.hbm, 89, rfl⟩
abbrev main_call2_call0_v1 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_c_11 : Ref sig .tc := ⟨.hbm, 97, rfl⟩
abbrev main_v44 : Ref sig .tc := ⟨.hbm, 98, rfl⟩
abbrev main_v45 : Ref sig .tc := ⟨.hbm, 99, rfl⟩
abbrev main_c_12 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_cst_13 : Ref sig .tc := ⟨.hbm, 106, rfl⟩
abbrev main_v51 : Ref sig .tc := ⟨.hbm, 107, rfl⟩
abbrev main_v52 : Ref sig .tc := ⟨.hbm, 108, rfl⟩
abbrev main_v53 : Ref sig .tc := ⟨.hbm, 109, rfl⟩
abbrev main_v54 : Ref sig .tc := ⟨.hbm, 110, rfl⟩
abbrev main_cst_14 : Ref sig .tc := ⟨.hbm, 111, rfl⟩
abbrev main_v55 : Ref sig .tc := ⟨.hbm, 112, rfl⟩
abbrev main_v56 : Ref sig .tc := ⟨.hbm, 113, rfl⟩
abbrev main_cst_15 : Ref sig .tc := ⟨.hbm, 114, rfl⟩
abbrev main_v57 : Ref sig .tc := ⟨.hbm, 115, rfl⟩
abbrev main_v58 : Ref sig .tc := ⟨.hbm, 116, rfl⟩
abbrev main_c_16 : Ref sig .tc := ⟨.hbm, 117, rfl⟩
abbrev main_call3_cst : Ref sig .tc := ⟨.hbm, 118, rfl⟩
abbrev main_call3_v0 : Ref sig .tc := ⟨.hbm, 119, rfl⟩
abbrev main_call3_v1 : Ref sig .tc := ⟨.hbm, 120, rfl⟩
abbrev main_call3_cst_0 : Ref sig .tc := ⟨.hbm, 121, rfl⟩
abbrev main_call3_v2 : Ref sig .tc := ⟨.hbm, 122, rfl⟩
abbrev main_call3_v3 : Ref sig .tc := ⟨.hbm, 123, rfl⟩
abbrev main_call3_v4 : Ref sig .tc := ⟨.hbm, 124, rfl⟩
abbrev main_call3_v5 : Ref sig .tc := ⟨.hbm, 125, rfl⟩
abbrev main_call3_v6 : Ref sig .tc := ⟨.hbm, 126, rfl⟩
abbrev main_call3_v7 : Ref sig .tc := ⟨.hbm, 127, rfl⟩
abbrev main_call3_cst_1 : Ref sig .tc := ⟨.hbm, 128, rfl⟩
abbrev main_call3_v8 : Ref sig .tc := ⟨.hbm, 129, rfl⟩
abbrev main_call3_cst_2 : Ref sig .tc := ⟨.hbm, 130, rfl⟩
abbrev main_call3_v9 : Ref sig .tc := ⟨.hbm, 131, rfl⟩
abbrev main_call3_v10 : Ref sig .tc := ⟨.hbm, 132, rfl⟩
abbrev main_call3_v11 : Ref sig .tc := ⟨.hbm, 133, rfl⟩
abbrev main_call3_v12 : Ref sig .tc := ⟨.hbm, 134, rfl⟩
abbrev main_call3_cst_3 : Ref sig .tc := ⟨.hbm, 135, rfl⟩
abbrev main_call3_v13 : Ref sig .tc := ⟨.hbm, 136, rfl⟩
abbrev main_call3_cst_4 : Ref sig .tc := ⟨.hbm, 137, rfl⟩
abbrev main_call3_call0_v0 : Ref sig .tc := ⟨.hbm, 138, rfl⟩
abbrev main_call3_call0_v1 : Ref sig .tc := ⟨.hbm, 139, rfl⟩
abbrev main_v59 : Ref sig .tc := ⟨.hbm, 140, rfl⟩
abbrev main_v60 : Ref sig .tc := ⟨.hbm, 141, rfl⟩
abbrev main_v61 : Ref sig .tc := ⟨.hbm, 142, rfl⟩
abbrev main_v62 : Ref sig .tc := ⟨.hbm, 143, rfl⟩
abbrev main_v63 : Ref sig .tc := ⟨.hbm, 144, rfl⟩
abbrev main_c_17 : Ref sig .tc := ⟨.hbm, 145, rfl⟩
abbrev main_v64 : Ref sig .tc := ⟨.hbm, 146, rfl⟩
abbrev main_v65 : Ref sig .tc := ⟨.hbm, 147, rfl⟩
abbrev main_c_18 : Ref sig .tc := ⟨.hbm, 148, rfl⟩
abbrev main_v66 : Ref sig .tc := ⟨.hbm, 149, rfl⟩
abbrev main_v67 : Ref sig .tc := ⟨.hbm, 150, rfl⟩
abbrev main_v68 : Ref sig .tc := ⟨.hbm, 151, rfl⟩
abbrev main_v69 : Ref sig .tc := ⟨.hbm, 152, rfl⟩
abbrev main_v70 : Ref sig .tc := ⟨.hbm, 153, rfl⟩
abbrev main_cst_19 : Ref sig .tc := ⟨.hbm, 154, rfl⟩
abbrev main_v71 : Ref sig .tc := ⟨.hbm, 155, rfl⟩
abbrev main_v72 : Ref sig .tc := ⟨.hbm, 156, rfl⟩
abbrev main_v73 : Ref sig .tc := ⟨.hbm, 157, rfl⟩
abbrev main_v74 : Ref sig .tc := ⟨.hbm, 158, rfl⟩
abbrev main_v75 : Ref sig .tc := ⟨.hbm, 159, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg5_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg3_1 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg1_1 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg3_1 : Ref sig .tc := ⟨.vmem, 49, rfl⟩
abbrev cc5_stg4_0 : Ref sig .tc := ⟨.vmem, 50, rfl⟩
abbrev cc5_stg5_0 : Ref sig .tc := ⟨.vmem, 51, rfl⟩
abbrev cc5_stg5_1 : Ref sig .tc := ⟨.vmem, 52, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem3_1 : DmaSem sig := 24
abbrev cc2_sem4_0 : DmaSem sig := 25
abbrev cc2_sem5_0 : DmaSem sig := 26
abbrev cc2_sem5_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem3_1 : DmaSem sig := 42
abbrev cc5_sem0_0 : DmaSem sig := 43
abbrev cc5_sem0_1 : DmaSem sig := 44
abbrev cc5_sem1_0 : DmaSem sig := 45
abbrev cc5_sem1_1 : DmaSem sig := 46
abbrev cc5_sem2_0 : DmaSem sig := 47
abbrev cc5_sem3_0 : DmaSem sig := 48
abbrev cc5_sem3_1 : DmaSem sig := 49
abbrev cc5_sem4_0 : DmaSem sig := 50
abbrev cc5_sem5_0 : DmaSem sig := 51
abbrev cc5_sem5_1 : DmaSem sig := 52

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x40 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 1 → Memref sig .tc .vmem S128x40 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x40 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  transposes_S128x128_S128x128_1_0 : S128x128.Transposes [1, 0] S128x128
  transposes_S40x128_S128x40_1_0 : S40x128.Transposes [1, 0] S128x40
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  reducesTo_S100000x128_S128_d0 : S100000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S5000x40_S5000x40_0_0 : ∀ a, (![0, 0] : Fin 2 → Nat) a + S5000x40.size a ≤ S5000x40.size a
  h_S5000x40 : 0 < S5000x40.numel
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  broadcasts_S5000x1_S5000x40 : S5000x1.Broadcasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S100000x1.size a
  hwx0_1 : ∀ i : grid0.Coords, EltTy.bits .f32 = 32 ∨ (Rect.block (s := S100000x1) S5000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S100000x1.size a
  hwx2_1 : ∀ i : grid2.Coords, EltTy.bits .f32 = 32 ∨ (Rect.block (s := S100000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x1.size a ≤ S100000x1.size a
  hwx4_1 : ∀ i : grid4.Coords, EltTy.bits .f32 = 32 ∨ (Rect.block (s := S100000x1) S5000x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x40.size a ≤ S128x40.size a
  hwx4_2 : ∀ i : grid4.Coords, EltTy.bits .f32 = 32 ∨ (Rect.block (s := S128x40) S128x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x40.size a ≤ S100000x40.size a
  hwx4_3 : ∀ i : grid4.Coords, EltTy.bits .f32 = 32 ∨ (Rect.block (s := S100000x40) S5000x40.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S100000x40.size a
  hwx5_0 : ∀ i : grid5.Coords, EltTy.bits .f32 = 32 ∨ (Rect.block (s := S100000x40) S5000x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S100000x1.size a
  hwx5_1 : ∀ i : grid5.Coords, EltTy.bits .f32 = 32 ∨ (Rect.block (s := S100000x1) S5000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x40.size a ≤ S1x40.size a
  hwx5_2 : ∀ i : grid5.Coords, EltTy.bits .f32 = 32 ∨ (Rect.block (s := S1x40) S1x40.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S128x40.size a ≤ S128x40.size a
  hwx5_4 : ∀ i : grid5.Coords, EltTy.bits .f32 = 32 ∨ (Rect.block (s := S128x40) S128x40.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x40.size a ≤ S100000x40.size a
  hwx5_5 : ∀ i : grid5.Coords, EltTy.bits .f32 = 32 ∨ (Rect.block (s := S100000x40) S5000x40.size (cc5_transform_5 i) (hinb5_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_v32) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S5000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v16) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v33) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v53) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v14) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v17) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S5000x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v18) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v54) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v54) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v58) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v59) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v60) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v11) S5000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v19) S128x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S5000x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v73) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v74) S1x40.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x128.size cc5_transform_3 reads5_3 false false 2 stage5_3 sem5_3
    hrank5 hreads5_3 hinb5_3 nbuf5_3 (Memref.isWhole_whole _) hwx5_3 hstage5_3

abbrev win5_4 : Pipeline.Window sig grid5 :=
  Pipeline.Window.ofSpec (Memref.whole main_v20) S128x40.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v75) S5000x40.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S40x128 : Shape := ⟨2, ![40, 128]⟩
abbrev S40 : Shape := ⟨1, ![40]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S128x40 : Shape := ⟨2, ![128, 40]⟩
abbrev S100000x40 : Shape := ⟨2, ![100000, 40]⟩
abbrev S1600000x40 : Shape := ⟨2, ![1600000, 40]⟩
abbrev S1x40 : Shape := ⟨2, ![1, 40]⟩

abbrev nBuf : Space → Nat
  | .hbm => 207
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S128x128, .f32⟩
  | 4 => ⟨S128x128, .f32⟩
  | 5 => ⟨S40x128, .f32⟩
  | 6 => ⟨S40, .f32⟩
  | 7 => ⟨S128x128, .f32⟩
  | 8 => ⟨S128x128, .f32⟩
  | 9 => ⟨S40x128, .f32⟩
  | 10 => ⟨S128, .f32⟩
  | 11 => ⟨S128, .f32⟩
  | 12 => ⟨S128, .f32⟩
  | 13 => ⟨S128, .f32⟩
  | 14 => ⟨S_, .f32⟩
  | 15 => ⟨S1600000, .f32⟩
  | 16 => ⟨S_, .f32⟩
  | 17 => ⟨S100000, .f32⟩
  | 18 => ⟨S1600000x1, .i32⟩
  | 19 => ⟨S100000, .f32⟩
  | 20 => ⟨S_, .f32⟩
  | 21 => ⟨S_, .f32⟩
  | 22 => ⟨S100000, .f32⟩
  | 23 => ⟨S100000, .f32⟩
  | 24 => ⟨S_, .f32⟩
  | 25 => ⟨S100000, .f32⟩
  | 26 => ⟨S1600000x1, .i32⟩
  | 27 => ⟨S100000, .f32⟩
  | 28 => ⟨S_, .f32⟩
  | 29 => ⟨S_, .f32⟩
  | 30 => ⟨S100000, .f32⟩
  | 31 => ⟨S100000, .f32⟩
  | 32 => ⟨S_, .f32⟩
  | 33 => ⟨S100000, .f32⟩
  | 34 => ⟨S100000, .f32⟩
  | 35 => ⟨S_, .f32⟩
  | 36 => ⟨S100000, .f32⟩
  | 37 => ⟨S100000, .f32⟩
  | 38 => ⟨S100000x1, .f32⟩
  | 39 => ⟨S100000x128, .f32⟩
  | 40 => ⟨S100000x128, .f32⟩
  | 41 => ⟨S_, .i32⟩
  | 42 => ⟨S1600000, .i32⟩
  | 43 => ⟨S1600000, .i1⟩
  | 44 => ⟨S_, .i32⟩
  | 45 => ⟨S1600000, .i32⟩
  | 46 => ⟨S1600000, .i32⟩
  | 47 => ⟨S1600000, .i32⟩
  | 48 => ⟨S1600000x1, .i32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S128x128, .f32⟩
  | 55 => ⟨S100000x128, .f32⟩
  | 56 => ⟨S100000x1, .f32⟩
  | 57 => ⟨S100000x128, .f32⟩
  | 58 => ⟨S100000x128, .f32⟩
  | 59 => ⟨S128x128, .f32⟩
  | 60 => ⟨S100000x128, .f32⟩
  | 61 => ⟨S100000x128, .f32⟩
  | 62 => ⟨S_, .f32⟩
  | 63 => ⟨S128, .f32⟩
  | 64 => ⟨S_, .f32⟩
  | 65 => ⟨S128, .f32⟩
  | 66 => ⟨S128, .f32⟩
  | 67 => ⟨S_, .i32⟩
  | 68 => ⟨S_, .f32⟩
  | 69 => ⟨S128, .f32⟩
  | 70 => ⟨S1x128, .f32⟩
  | 71 => ⟨S_, .f32⟩
  | 72 => ⟨S1x128, .f32⟩
  | 73 => ⟨S1x128, .f32⟩
  | 74 => ⟨S100000x128, .f32⟩
  | 75 => ⟨S100000x128, .f32⟩
  | 76 => ⟨S100000x128, .f32⟩
  | 77 => ⟨S_, .f32⟩
  | 78 => ⟨S_, .f32⟩
  | 79 => ⟨S_, .f32⟩
  | 80 => ⟨S_, .f32⟩
  | 81 => ⟨S128, .f32⟩
  | 82 => ⟨S128, .f32⟩
  | 83 => ⟨S128, .f32⟩
  | 84 => ⟨S_, .f32⟩
  | 85 => ⟨S_, .i1⟩
  | 86 => ⟨S_, .f32⟩
  | 87 => ⟨S_, .f32⟩
  | 88 => ⟨S128, .f32⟩
  | 89 => ⟨S128, .f32⟩
  | 90 => ⟨S1x128, .f32⟩
  | 91 => ⟨S100000x128, .f32⟩
  | 92 => ⟨S100000x128, .f32⟩
  | 93 => ⟨S_, .f32⟩
  | 94 => ⟨S128, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S1x128, .f32⟩
  | 101 => ⟨S100000x128, .f32⟩
  | 102 => ⟨S100000x128, .f32⟩
  | 103 => ⟨S1x128, .f32⟩
  | 104 => ⟨S100000x128, .f32⟩
  | 105 => ⟨S100000x128, .f32⟩
  | 106 => ⟨S_, .f32⟩
  | 107 => ⟨S100000x128, .f32⟩
  | 108 => ⟨S100000x128, .f32⟩
  | 109 => ⟨S100000x1, .f32⟩
  | 110 => ⟨S100000x128, .f32⟩
  | 111 => ⟨S100000x128, .f32⟩
  | 112 => ⟨S_, .i32⟩
  | 113 => ⟨S1600000, .i32⟩
  | 114 => ⟨S1600000, .i1⟩
  | 115 => ⟨S_, .i32⟩
  | 116 => ⟨S1600000, .i32⟩
  | 117 => ⟨S1600000, .i32⟩
  | 118 => ⟨S1600000, .i32⟩
  | 119 => ⟨S1600000x1, .i32⟩
  | 120 => ⟨S1600000x128, .f32⟩
  | 121 => ⟨S_, .f32⟩
  | 122 => ⟨S100000x128, .f32⟩
  | 123 => ⟨S1600000x1, .i32⟩
  | 124 => ⟨S100000x128, .f32⟩
  | 125 => ⟨S128x128, .f32⟩
  | 126 => ⟨S100000x128, .f32⟩
  | 127 => ⟨S100000x1, .f32⟩
  | _ => ⟨S100000x128, .f32⟩

abbrev hbmTy0_1 (i : Nat) : BufTy := match i % 128 with
  | 0 => ⟨S100000x128, .f32⟩
  | 1 => ⟨S100000x128, .f32⟩
  | 2 => ⟨S128x128, .f32⟩
  | 3 => ⟨S100000x128, .f32⟩
  | 4 => ⟨S100000x128, .f32⟩
  | 5 => ⟨S_, .f32⟩
  | 6 => ⟨S128, .f32⟩
  | 7 => ⟨S_, .f32⟩
  | 8 => ⟨S128, .f32⟩
  | 9 => ⟨S128, .f32⟩
  | 10 => ⟨S_, .i32⟩
  | 11 => ⟨S_, .f32⟩
  | 12 => ⟨S128, .f32⟩
  | 13 => ⟨S1x128, .f32⟩
  | 14 => ⟨S_, .f32⟩
  | 15 => ⟨S1x128, .f32⟩
  | 16 => ⟨S1x128, .f32⟩
  | 17 => ⟨S100000x128, .f32⟩
  | 18 => ⟨S100000x128, .f32⟩
  | 19 => ⟨S100000x128, .f32⟩
  | 20 => ⟨S_, .f32⟩
  | 21 => ⟨S_, .f32⟩
  | 22 => ⟨S_, .f32⟩
  | 23 => ⟨S_, .f32⟩
  | 24 => ⟨S128, .f32⟩
  | 25 => ⟨S128, .f32⟩
  | 26 => ⟨S128, .f32⟩
  | 27 => ⟨S_, .f32⟩
  | 28 => ⟨S_, .i1⟩
  | 29 => ⟨S_, .f32⟩
  | 30 => ⟨S_, .f32⟩
  | 31 => ⟨S128, .f32⟩
  | 32 => ⟨S128, .f32⟩
  | 33 => ⟨S1x128, .f32⟩
  | 34 => ⟨S100000x128, .f32⟩
  | 35 => ⟨S100000x128, .f32⟩
  | 36 => ⟨S_, .f32⟩
  | 37 => ⟨S128, .f32⟩
  | 38 => ⟨S128, .f32⟩
  | 39 => ⟨S128, .f32⟩
  | 40 => ⟨S1x128, .f32⟩
  | 41 => ⟨S100000x128, .f32⟩
  | 42 => ⟨S100000x128, .f32⟩
  | 43 => ⟨S1x128, .f32⟩
  | 44 => ⟨S100000x128, .f32⟩
  | 45 => ⟨S100000x128, .f32⟩
  | 46 => ⟨S1x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S100000x1, .f32⟩
  | 53 => ⟨S100000x128, .f32⟩
  | 54 => ⟨S100000x128, .f32⟩
  | 55 => ⟨S128x40, .f32⟩
  | 56 => ⟨S100000x40, .f32⟩
  | 57 => ⟨S_, .i32⟩
  | 58 => ⟨S1600000, .i32⟩
  | 59 => ⟨S1600000, .i1⟩
  | 60 => ⟨S_, .i32⟩
  | 61 => ⟨S1600000, .i32⟩
  | 62 => ⟨S1600000, .i32⟩
  | 63 => ⟨S1600000, .i32⟩
  | 64 => ⟨S1600000x1, .i32⟩
  | 65 => ⟨S1600000x40, .f32⟩
  | 66 => ⟨S_, .f32⟩
  | 67 => ⟨S100000x40, .f32⟩
  | 68 => ⟨S1600000x1, .i32⟩
  | 69 => ⟨S100000x40, .f32⟩
  | 70 => ⟨S100000x1, .f32⟩
  | 71 => ⟨S100000x40, .f32⟩
  | 72 => ⟨S100000x40, .f32⟩
  | 73 => ⟨S1x40, .f32⟩
  | 74 => ⟨S100000x40, .f32⟩
  | 75 => ⟨S100000x40, .f32⟩
  | 76 => ⟨S128x40, .f32⟩
  | 77 => ⟨S100000x40, .f32⟩
  | 78 => ⟨S100000x40, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_cst_0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_cst_1 : Ref sig .tc := ⟨.hbm, 20, rfl⟩
abbrev main_call0_v0 : Ref sig .tc := ⟨.hbm, 21, rfl⟩
abbrev main_call0_v1 : Ref sig .tc := ⟨.hbm, 22, rfl⟩
abbrev main_v4 : Ref sig .tc := ⟨.hbm, 23, rfl⟩
abbrev main_cst_2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst_3 : Ref sig .tc := ⟨.hbm, 28, rfl⟩
abbrev main_call1_v0 : Ref sig .tc := ⟨.hbm, 29, rfl⟩
abbrev main_call1_v1 : Ref sig .tc := ⟨.hbm, 30, rfl⟩
abbrev main_v8 : Ref sig .tc := ⟨.hbm, 31, rfl⟩
abbrev main_cst_4 : Ref sig .tc := ⟨.hbm, 32, rfl⟩
abbrev main_v9 : Ref sig .tc := ⟨.hbm, 33, rfl⟩
abbrev main_v10 : Ref sig .tc := ⟨.hbm, 34, rfl⟩
abbrev main_cst_5 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_c : Ref sig .tc := ⟨.hbm, 41, rfl⟩
abbrev main_v16 : Ref sig .tc := ⟨.hbm, 42, rfl⟩
abbrev main_v17 : Ref sig .tc := ⟨.hbm, 43, rfl⟩
abbrev main_c_6 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_cst_7 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_cst_8 : Ref sig .tc := ⟨.hbm, 62, rfl⟩
abbrev main_v34 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_c_10 : Ref sig .tc := ⟨.hbm, 67, rfl⟩
abbrev main_call2_cst : Ref sig .tc := ⟨.hbm, 68, rfl⟩
abbrev main_call2_v0 : Ref sig .tc := ⟨.hbm, 69, rfl⟩
abbrev main_call2_v1 : Ref sig .tc := ⟨.hbm, 70, rfl⟩
abbrev main_call2_cst_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_v6 : Ref sig .tc := ⟨.hbm, 76, rfl⟩
abbrev main_call2_v7 : Ref sig .tc := ⟨.hbm, 77, rfl⟩
abbrev main_call2_cst_1 : Ref sig .tc := ⟨.hbm, 78, rfl⟩
abbrev main_call2_v8 : Ref sig .tc := ⟨.hbm, 79, rfl⟩
abbrev main_call2_cst_2 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_cst_3 : Ref sig .tc := ⟨.hbm, 84, rfl⟩
abbrev main_call2_v12 : Ref sig .tc := ⟨.hbm, 85, rfl⟩
abbrev main_call2_cst_4 : Ref sig .tc := ⟨.hbm, 86, rfl⟩
abbrev main_call2_call0_v0 : Ref sig .tc := ⟨.hbm, 87, rfl⟩
abbrev main_call2_call0_v1 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_cst_11 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_call3_cst : Ref sig .tc := ⟨.hbm, 106, rfl⟩
abbrev main_call3_v0 : Ref sig .tc := ⟨.hbm, 107, rfl⟩
abbrev main_v53 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_c_12 : Ref sig .tc := ⟨.hbm, 112, rfl⟩
abbrev main_v57 : Ref sig .tc := ⟨.hbm, 113, rfl⟩
abbrev main_v58 : Ref sig .tc := ⟨.hbm, 114, rfl⟩
abbrev main_c_13 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_cst_14 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev main_v70 : Ref sig .tc := ⟨.hbm, 128, rfl⟩
abbrev main_v71 : Ref sig .tc := ⟨.hbm, 129, rfl⟩
abbrev main_v72 : Ref sig .tc := ⟨.hbm, 130, rfl⟩
abbrev main_v73 : Ref sig .tc := ⟨.hbm, 131, rfl⟩
abbrev main_v74 : Ref sig .tc := ⟨.hbm, 132, rfl⟩
abbrev main_cst_15 : Ref sig .tc := ⟨.hbm, 133, rfl⟩
abbrev main_v75 : Ref sig .tc := ⟨.hbm, 134, rfl⟩
abbrev main_cst_16 : Ref sig .tc := ⟨.hbm, 135, rfl⟩
abbrev main_v76 : Ref sig .tc := ⟨.hbm, 136, rfl⟩
abbrev main_v77 : Ref sig .tc := ⟨.hbm, 137, rfl⟩
abbrev main_c_17 : Ref sig .tc := ⟨.hbm, 138, rfl⟩
abbrev main_call4_cst : Ref sig .tc := ⟨.hbm, 139, rfl⟩
abbrev main_call4_v0 : Ref sig .tc := ⟨.hbm, 140, rfl⟩
abbrev main_call4_v1 : Ref sig .tc := ⟨.hbm, 141, rfl⟩
abbrev main_call4_cst_0 : Ref sig .tc := ⟨.hbm, 142, rfl⟩
abbrev main_call4_v2 : Ref sig .tc := ⟨.hbm, 143, rfl⟩
abbrev main_call4_v3 : Ref sig .tc := ⟨.hbm, 144, rfl⟩
abbrev main_call4_v4 : Ref sig .tc := ⟨.hbm, 145, rfl⟩
abbrev main_call4_v5 : Ref sig .tc := ⟨.hbm, 146, rfl⟩
abbrev main_call4_v6 : Ref sig .tc := ⟨.hbm, 147, rfl⟩
abbrev main_call4_v7 : Ref sig .tc := ⟨.hbm, 148, rfl⟩
abbrev main_call4_cst_1 : Ref sig .tc := ⟨.hbm, 149, rfl⟩
abbrev main_call4_v8 : Ref sig .tc := ⟨.hbm, 150, rfl⟩
abbrev main_call4_cst_2 : Ref sig .tc := ⟨.hbm, 151, rfl⟩
abbrev main_call4_v9 : Ref sig .tc := ⟨.hbm, 152, rfl⟩
abbrev main_call4_v10 : Ref sig .tc := ⟨.hbm, 153, rfl⟩
abbrev main_call4_v11 : Ref sig .tc := ⟨.hbm, 154, rfl⟩
abbrev main_call4_cst_3 : Ref sig .tc := ⟨.hbm, 155, rfl⟩
abbrev main_call4_v12 : Ref sig .tc := ⟨.hbm, 156, rfl⟩
abbrev main_call4_cst_4 : Ref sig .tc := ⟨.hbm, 157, rfl⟩
abbrev main_call4_call0_v0 : Ref sig .tc := ⟨.hbm, 158, rfl⟩
abbrev main_call4_call0_v1 : Ref sig .tc := ⟨.hbm, 159, rfl⟩
abbrev main_v78 : Ref sig .tc := ⟨.hbm, 160, rfl⟩
abbrev main_v79 : Ref sig .tc := ⟨.hbm, 161, rfl⟩
abbrev main_v80 : Ref sig .tc := ⟨.hbm, 162, rfl⟩
abbrev main_v81 : Ref sig .tc := ⟨.hbm, 163, rfl⟩
abbrev main_cst_18 : Ref sig .tc := ⟨.hbm, 164, rfl⟩
abbrev main_v82 : Ref sig .tc := ⟨.hbm, 165, rfl⟩
abbrev main_v83 : Ref sig .tc := ⟨.hbm, 166, rfl⟩
abbrev main_v84 : Ref sig .tc := ⟨.hbm, 167, rfl⟩
abbrev main_v85 : Ref sig .tc := ⟨.hbm, 168, rfl⟩
abbrev main_v86 : Ref sig .tc := ⟨.hbm, 169, rfl⟩
abbrev main_v87 : Ref sig .tc := ⟨.hbm, 170, rfl⟩
abbrev main_v88 : Ref sig .tc := ⟨.hbm, 171, rfl⟩
abbrev main_v89 : Ref sig .tc := ⟨.hbm, 172, rfl⟩
abbrev main_v90 : Ref sig .tc := ⟨.hbm, 173, rfl⟩
abbrev main_v91 : Ref sig .tc := ⟨.hbm, 174, rfl⟩
abbrev main_v92 : Ref sig .tc := ⟨.hbm, 175, rfl⟩
abbrev main_v93 : Ref sig .tc := ⟨.hbm, 176, rfl⟩
abbrev main_call5_cst : Ref sig .tc := ⟨.hbm, 177, rfl⟩
abbrev main_call5_v0 : Ref sig .tc := ⟨.hbm, 178, rfl⟩
abbrev main_v94 : Ref sig .tc := ⟨.hbm, 179, rfl⟩
abbrev main_v95 : Ref sig .tc := ⟨.hbm, 180, rfl⟩
abbrev main_v96 : Ref sig .tc := ⟨.hbm, 181, rfl⟩
abbrev main_v97 : Ref sig .tc := ⟨.hbm, 182, rfl⟩
abbrev main_v98 : Ref sig .tc := ⟨.hbm, 183, rfl⟩
abbrev main_v99 : Ref sig .tc := ⟨.hbm, 184, rfl⟩
abbrev main_c_19 : Ref sig .tc := ⟨.hbm, 185, rfl⟩
abbrev main_v100 : Ref sig .tc := ⟨.hbm, 186, rfl⟩
abbrev main_v101 : Ref sig .tc := ⟨.hbm, 187, rfl⟩
abbrev main_c_20 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_cst_21 : Ref sig .tc := ⟨.hbm, 194, rfl⟩
abbrev main_v107 : Ref sig .tc := ⟨.hbm, 195, rfl⟩
abbrev main_v108 : Ref sig .tc := ⟨.hbm, 196, rfl⟩
abbrev main_v109 : Ref sig .tc := ⟨.hbm, 197, rfl⟩
abbrev main_v110 : Ref sig .tc := ⟨.hbm, 198, rfl⟩
abbrev main_v111 : Ref sig .tc := ⟨.hbm, 199, rfl⟩
abbrev main_v112 : Ref sig .tc := ⟨.hbm, 200, rfl⟩
abbrev main_v113 : Ref sig .tc := ⟨.hbm, 201, rfl⟩
abbrev main_v114 : Ref sig .tc := ⟨.hbm, 202, rfl⟩
abbrev main_v115 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  transposes_S128x128_S128x128_1_0 : S128x128.Transposes [1, 0] S128x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S_S100000x40 : S_.BroadcastsInDim S100000x40 (![] : Fin 0 → Fin S100000x40.rank)
  bcast_S100000x1_S100000x40_0_1 : S100000x1.BroadcastsInDim S100000x40 (![0, 1] : Fin 2 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.Spec.lean ====
/-
  The two programs as whole-array functions of their fourteen arguments, over the extended reals.

  A three-layer graph convolution on N = 100000 nodes and E = 1600000 edges. With s(e) and d(e) the end points of edge e,
  out(v) = max(#{e : s(e) = v}, 1)^(-1/2) and in(v) = max(#{e : d(e) = v}, 1)^(-1/2), a layer sends H to
      agg(H · out)(v) = Σ_{e : d(e) = v} H(s(e)) · out(s(e)),
  multiplies by the weights and by in(v), and adds the skip product H·Lᵀ; the first two layers are followed by a
  batch normalisation over the nodes (mean and biased variance down each column) and a rectifier, the last one adds a bias.
  The reference multiplies by in(v) AFTER the weight product, (agg · Wᵀ) · in; the kernel program multiplies the rows
  of agg by in(v) BEFORE it, (agg · in) · Wᵀ, keeps mean and variance as rows [1,128] instead of vectors [128], and
  reshapes where the reference broadcasts. Both are written here with one vocabulary of host operations, so that
  what differs between them is visible and everything else is shared text.
-/
import proofs.«124566_j44289702756373_1_alg».proof.KernelIdeal
import proofs.«124566_j44289702756373_1_alg».proof.ReferenceIdeal
import proofs.«124566_j44289702756373_1_alg».proof.Proof.Gen.KernelIdeal
import proofs.«124566_j44289702756373_1_alg».proof.Proof.Gen.ReferenceIdeal
import Idealize.ShloMosaic.PureOps.Ideal

noncomputable section

namespace Cert.Spec

open Idealize.ShloMosaic Cert.ReferenceIdeal Cert.ReferenceIdeal.Facts₀

/-- A float array of shape `S` over the extended reals. -/
abbrev FV (S : Shape) := FVec Ideal S .f32
/-- A 32-bit integer array of shape `S`. -/
abbrev IV (S : Shape) := IVec S 32

/-! ## The shared host vocabulary -/

/-- One 1 per edge. -/
def ones : FV S1600000 := broadcastInDim S1600000 ![] bcast_S_S1600000 (constant S_ .f32 0x3F800000#32)

/-- The number of edges with a given end point, per node: ones scattered onto zeros. -/
def deg (e : IV S1600000) : FV S100000 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 e) ones

/-- max(1, x), entry by entry. -/
def clip1 (x : FV S100000) : FV S100000 :=
  maximumf (broadcastInDim S100000 ![] bcast_S_S100000 (id (constant S_ .f32 0x3F800000#32))) x

/-- max(degree, 1)^(-1/2), per node. -/
def norm (e : IV S1600000) : FV S100000 :=
  Host.powf (clip1 (deg e)) (broadcastInDim S100000 ![] bcast_S_S100000 (constant S_ .f32 0xBF000000#32))

/-- A per-node vector as a column, by broadcast (the reference's spelling). -/
def col (x : FV S100000) : FV S100000x1 := broadcastInDim S100000x1 ![0] bcast_S100000_S100000x1_0 x
/-- A per-node vector as a column, by reshape (the kernel program's spelling). -/
def colK (x : FV S100000) : FV S100000x1 :=
  shapeCast S100000x1 x Cert.KernelIdeal.Facts₀.shapeCasts_S100000_S100000x1
/-- A column laid along 128 / 40 columns. -/
def bcol128 (s : FV S100000x1) : FV S100000x128 := broadcastInDim S100000x128 ![0, 1] bcast_S100000x1_S100000x128_0_1 s
def bcol40 (s : FV S100000x1) : FV S100000x40 := broadcastInDim S100000x40 ![0, 1] bcast_S100000x1_S100000x40_0_1 s

/-- A vector as one row, by broadcast (the reference's spelling) and by reshape (the kernel program's). -/
def row (v : FV S128) : FV S1x128 := broadcastInDim S1x128 ![1] bcast_S128_S1x128_1 v
def rowK (v : FV S128) : FV S1x128 := shapeCast S1x128 v Cert.KernelIdeal.Facts₀.shapeCasts_S128_S1x128
def row40 (v : FV S40) : FV S1x40 := broadcastInDim S1x40 ![1] bcast_S40_S1x40_1 v
def rowK40 (v : FV S40) : FV S1x40 := shapeCast S1x40 v Cert.KernelIdeal.Facts₀.shapeCasts_S40_S1x40
/-- One row laid down all the nodes. -/
def brow128 (r : FV S1x128) : FV S100000x128 := broadcastInDim S100000x128 ![0, 1] bcast_S1x128_S100000x128_0_1 r
def brow40 (r : FV S1x40) : FV S100000x40 := broadcastInDim S100000x40 ![0, 1] bcast_S1x40_S100000x40_0_1 r

/-- The source index of every edge, a negative one wrapped by N, as a column of indices. -/
def wrap (src : IV S1600000) : IV S1600000x1 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Σ over the edges into a node of the source node's row: gather the rows at `src`, scatter-add them at `dst`. -/
def agg128 (X : FV S100000x128) (src dst : IV S1600000) : FV S100000x128 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (Host.gather gather_S100000x128_S1600000x1_S1600000x128_1_0_n_n_0_1_1128 X (wrap src))
def agg40 (X : FV S100000x40) (src dst : IV S1600000) : FV S100000x40 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 dst)
    (Host.gather gather_S100000x40_S1600000x1_S1600000x40_1_0_n_n_0_1_140 X (wrap src))

/-- Weights stored (out, in), transposed to (in, out). -/
def tr128 (W : FV S128x128) : FV S128x128 := transpose S128x128 [1, 0] W transposes_S128x128_S128x128_1_0
def tr40 (W : FV S40x128) : FV S128x40 := transpose S128x40 [1, 0] W transposes_S40x128_S128x40_1_0

/-- X · W over the whole node axis. -/
def dot128 (X : FV S100000x128) (W : FV S128x128) : FV S100000x128 :=
  Host.dotGeneral dot_S100000x128_S128x128_S100000x128_1_0_0_1_n_n none X W
def dot40 (X : FV S100000x128) (W : FV S128x40) : FV S100000x40 :=
  Host.dotGeneral dot_S100000x128_S128x40_S100000x40_1_0_0_1_n_n none X W

/-- The sum down each column. -/
def colsum (Y : FV S100000x128) : FV S128 :=
  Host.reduceAdd Y (constant S_ .f32 0x00000000#32) reducesTo_S100000x128_S128_d0 h_S_

/-- max(x, 0). -/
def relu (X : FV S100000x128) : FV S100000x128 :=
  maximumf X (broadcastInDim S100000x128 ![] bcast_S_S100000x128 (constant S_ .f32 0x00000000#32))

/-- The number of nodes less the degrees of freedom removed (none): 100000 - 0. -/
def cnt : FV S_ := subf (constant S_ .f32 0x47C35000#32) (sitofp .f32 (constantI S_ 32 0#32))

/-- The column means as one row [1,128]: the column sums over 100000. -/
def meanK (Y : FV S100000x128) : FV S1x128 :=
  Host.divf (row (colsum Y)) (broadcastInDim S1x128 ![] bcast_S_S1x128 (constant S_ .f32 0x47C35000#32))
/-- The column means as a vector [128] (the reference's). -/
def meanR (Y : FV S100000x128) : FV S128 :=
  Host.divf (colsum Y) (broadcastInDim S128 ![] bcast_S_S128 (constant S_ .f32 0x47C35000#32))

/-- The squared deviations from the column means. -/
def sqdev (Y : FV S100000x128) : FV S100000x128 :=
  mulf (subf Y (brow128 (meanK Y))) (subf Y (brow128 (meanK Y)))

/-- The biased column variances as a vector [128] (the reference's): Σ (y - mean)² / (100000 - 0), guarded by
    "the divisor is positive, else not-a-number". -/
def varR (Y : FV S100000x128) : FV S128 :=
  select (broadcastInDim S128 ![] bcast_S_S128 (cmpf .ogt cnt (constant S_ .f32 0x00000000#32)))
    (Host.divf (colsum (sqdev Y)) (broadcastInDim S128 ![] bcast_S_S128 cnt))
    (broadcastInDim S128 ![] bcast_S_S128 (id (constant S_ .f32 0x7FC00000#32)))
/-- The same as one row [1,128] (the kernel program's). -/
def varK (Y : FV S100000x128) : FV S1x128 :=
  select (broadcastInDim S1x128 ![] bcast_S_S1x128 (cmpf .ogt cnt (constant S_ .f32 0x00000000#32)))
    (Host.divf (row (colsum (sqdev Y))) (broadcastInDim S1x128 ![] bcast_S_S1x128 cnt))
    (broadcastInDim S1x128 ![] bcast_S_S1x128 (id (constant S_ .f32 0x7FC00000#32)))

/-! ## What each of the six kernels computes, as a whole-array function in the host's spelling -/

/-- (u · s) · W + h · L: the rows of u scaled by the column s before the product. -/
def combineH (u : FV S100000x128) (s : FV S100000x1) (W : FV S128x128) (h : FV S100000x128) (L : FV S128x128) :
    FV S100000x128 :=
  addf (dot128 (mulf u (bcol128 s)) W) (dot128 h L)

/-- max((y - mean) · rsqrt(var + ε) · γ + β, 0), the four parameters rows [1,128]. -/
def bnreluH (y : FV S100000x128) (mean var g b : FV S1x128) : FV S100000x128 :=
  maximumf
    (addf (mulf (mulf (subf y (brow128 mean))
        (brow128 (Host.rsqrt (addf var (broadcastInDim S1x128 ![] bcast_S_S1x128 (constant S_ .f32 0x3727C5AC#32))))))
      (brow128 g)) (brow128 b))
    (broadcastInDim S100000x128 ![] bcast_S_S100000x128 (constant S_ .f32 0x00000000#32))

/-- (h · s) · W into 40 columns. -/
def prescaleH (h : FV S100000x128) (s : FV S100000x1) (W : FV S128x40) : FV S100000x40 :=
  dot40 (mulf h (bcol128 s)) W

/-- u · s + b + h · L. -/
def finalH (u : FV S100000x40) (s : FV S100000x1) (b : FV S1x40) (h : FV S100000x128) (L : FV S128x40) : FV S100000x40 :=
  addf (addf (mulf u (bcol40 s)) (brow40 b)) (dot40 h L)

/-! ## The kernel program -/

def convK (h : FV S100000x128) (W L : FV S128x128) (src dst : IV S1600000) : FV S100000x128 :=
  combineH (agg128 (mulf h (bcol128 (colK (norm src)))) src dst) (colK (norm dst)) (tr128 W) h (tr128 L)
def bnK (y : FV S100000x128) (g b : FV S128) : FV S100000x128 :=
  bnreluH y (meanK y) (varK y) (rowK g) (rowK b)
def lastK (h : FV S100000x128) (W L : FV S40x128) (bias : FV S40) (src dst : IV S1600000) : FV S100000x40 :=
  finalH (agg40 (prescaleH h (colK (norm src)) (tr40 W)) src dst) (colK (norm dst)) (rowK40 bias) h (tr40 L)

/-- The kernel program's result. -/
def kerOut (a0 : FV S100000x128) (a1 a2 : IV S1600000) (a3 a4 : FV S128x128) (a5 : FV S40x128) (a6 : FV S40)
    (a7 a8 : FV S128x128) (a9 : FV S40x128) (a10 a11 a12 a13 : FV S128) : FV S100000x40 :=
  lastK (bnK (convK (bnK (convK a0 a3 a7 a1 a2) a10 a11) a4 a8 a1 a2) a12 a13) a5 a9 a6 a1 a2

/-! ## The reference -/

def convR (h : FV S100000x128) (W L : FV S128x128) (src dst : IV S1600000) : FV S100000x128 :=
  addf (mulf (dot128 (agg128 (mulf h (bcol128 (col (norm src)))) src dst) (tr128 W)) (bcol128 (col (norm dst))))
    (dot128 h (tr128 L))
def bnR (y : FV S100000x128) (g b : FV S128) : FV S100000x128 :=
  relu (addf (mulf (mulf (subf y (brow128 (row (meanR y))))
      (brow128 (row (Host.rsqrt (addf (varR y) (broadcastInDim S128 ![] bcast_S_S128 (constant S_ .f32 0x3727C5AC#32)))))))
    (brow128 (row g))) (brow128 (row b)))
def lastR (h : FV S100000x128) (W L : FV S40x128) (bias : FV S40) (src dst : IV S1600000) : FV S100000x40 :=
  addf (addf (mulf (agg40 (dot40 (mulf h (bcol128 (col (norm src)))) (tr40 W)) src dst) (bcol40 (col (norm dst))))
    (brow40 (row40 bias))) (dot40 h (tr40 L))

/-- The reference's result. -/
def refOut (a0 : FV S100000x128) (a1 a2 : IV S1600000) (a3 a4 : FV S128x128) (a5 : FV S40x128) (a6 : FV S40)
    (a7 a8 : FV S128x128) (a9 : FV S40x128) (a10 a11 a12 a13 : FV S128) : FV S100000x40 :=
  lastR (bnR (convR (bnR (convR a0 a3 a7 a1 a2) a10 a11) a4 a8 a1 a2) a12 a13) a5 a9 a6 a1 a2

end Cert.Spec

end
-- ==== Proof.KerRunNames.lean ====
/-
  The kernel program's buffers by name.

  The fourteen arguments as launched on a core, and the five arrays the first five kernels leave behind them (each
  kernel's output array once its twenty row tiles are written back), named so that the statements about the run can be
  read: Y0 is the first layer's combined rows, H1 its normalised and rectified rows, Y1 and H2 the same for the second
  layer, P the third layer's rows scaled and multiplied by its weights before the edges are summed.
-/
import proofs.«124566_j44289702756373_1_alg».proof.Proof.Spec
import proofs.«124566_j44289702756373_1_alg».proof.Proof.Gen.KernelIdeal.Frame

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- Argument 0 as launched on core `c`. -/
abbrev a0 : Spec.FV S100000x128 := m ((c.tc : Thread nD τ).loc main_arg0)
/-- Argument 1 as launched on core `c`. -/
abbrev a1 : Spec.IV S1600000 := m ((c.tc : Thread nD τ).loc main_arg1)
/-- Argument 2 as launched on core `c`. -/
abbrev a2 : Spec.IV S1600000 := m ((c.tc : Thread nD τ).loc main_arg2)
/-- Argument 3 as launched on core `c`. -/
abbrev a3 : Spec.FV S128x128 := m ((c.tc : Thread nD τ).loc main_arg3)
/-- Argument 4 as launched on core `c`. -/
abbrev a4 : Spec.FV S128x128 := m ((c.tc : Thread nD τ).loc main_arg4)
/-- Argument 5 as launched on core `c`. -/
abbrev a5 : Spec.FV S40x128 := m ((c.tc : Thread nD τ).loc main_arg5)
/-- Argument 6 as launched on core `c`. -/
abbrev a6 : Spec.FV S40 := m ((c.tc : Thread nD τ).loc main_arg6)
/-- Argument 7 as launched on core `c`. -/
abbrev a7 : Spec.FV S128x128 := m ((c.tc : Thread nD τ).loc main_arg7)
/-- Argument 8 as launched on core `c`. -/
abbrev a8 : Spec.FV S128x128 := m ((c.tc : Thread nD τ).loc main_arg8)
/-- Argument 9 as launched on core `c`. -/
abbrev a9 : Spec.FV S40x128 := m ((c.tc : Thread nD τ).loc main_arg9)
/-- Argument 10 as launched on core `c`. -/
abbrev a10 : Spec.FV S128 := m ((c.tc : Thread nD τ).loc main_arg10)
/-- Argument 11 as launched on core `c`. -/
abbrev a11 : Spec.FV S128 := m ((c.tc : Thread nD τ).loc main_arg11)
/-- Argument 12 as launched on core `c`. -/
abbrev a12 : Spec.FV S128 := m ((c.tc : Thread nD τ).loc main_arg12)
/-- Argument 13 as launched on core `c`. -/
abbrev a13 : Spec.FV S128 := m ((c.tc : Thread nD τ).loc main_arg13)

/-- What the first kernel leaves in its output array: the first layer's combined rows. -/
abbrev Y0 : Spec.FV S100000x128 := (dat0 (V5 m ρ) c).arrAt 5 cfg0.N
/-- What the second kernel leaves: the first layer normalised and rectified. -/
abbrev H1 : Spec.FV S100000x128 := (dat1 (V9 m ρ) c).arrAt 5 cfg1.N
/-- What the third kernel leaves: the second layer's combined rows. -/
abbrev Y1 : Spec.FV S100000x128 := (dat2 (V11 m ρ) c).arrAt 5 cfg2.N
/-- What the fourth kernel leaves: the second layer normalised and rectified. -/
abbrev H2 : Spec.FV S100000x128 := (dat3 (V15 m ρ) c).arrAt 5 cfg3.N
/-- What the fifth kernel leaves: the rows scaled by the out-degree factor and multiplied into 40 columns. -/
abbrev P : Spec.FV S100000x40 := (dat4 (V16 m ρ) c).arrAt 3 cfg4.N

end Cert.KernelIdeal.KerRun

end
-- ==== Proof.KerRunMain.lean ====
/-
  The kernel program's run with its result named.

  The program is nineteen segments, thirteen stretches of host operations and six kernels, and the contents of a
  core's buffers after each segment are a chain W0, W1, …, W19 from the launch memory. The run terminates without
  fault, the final memory agrees with W19 on every buffer that outlives the kernels, and so the result buffer holds
  W19 at the result, which is the output array of the last kernel.
-/
import proofs.«124566_j44289702756373_1_alg».proof.Proof.KerRunNames

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg)

local notation "𝕄" => MT nD τ sig Unit (Elt Ideal) ℕ (UR sig nD τ) ℕ

-- the launch theorem's implicit arguments are found by unifying its conclusion with this one, which takes unfolding
-- plain definitions in a metavariable's type
set_option backward.isDefEq.respectTransparency.types false in
/-- Every weakly fair execution of the kernel program on the cores terminates, nothing faulting, and in every final
    state each core's result buffer holds what the chain of boundary contents ends with, `W19` at the result, while the
    fourteen arguments are as launched: the last thread state, every unscoped buffer at `W19`, read against the final
    memory at the result buffer and at the arguments. -/
theorem run_named : θ_run defs (onTc (τ := τ) (main (F := Ideal))) ⟨m, fun _ => 0, ρ⟩ (fun r => ∀ c : Dev nD,
      r.2.mem ((c.tc : Thread nD τ).loc main_v75) = W19 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m ρ c b)
    (hfin := fun c s' => by
      iintro ⟨⟨Hh, -⟩, HSI⟩
      unfold StableHlo.held
      imodintro
      iapply (pointsTo_read_all (Pipeline.ucRefs τ sig) (fun b => (((c : Thread nD τ)).1, b)) (W19 m ρ c) s')
      isplitl [Hh] <;> iassumption)
    (hQ := fun s h c =>
      ⟨h c _ (mem_uc main_v75 (by decide)),
       (h c _ (mem_uc main_arg0 (by decide))).trans (W19_main_arg0 m ρ c),
       (h c _ (mem_uc main_arg1 (by decide))).trans (W19_main_arg1 m ρ c),
       (h c _ (mem_uc main_arg2 (by decide))).trans (W19_main_arg2 m ρ c),
       (h c _ (mem_uc main_arg3 (by decide))).trans (W19_main_arg3 m ρ c),
       (h c _ (mem_uc main_arg4 (by decide))).trans (W19_main_arg4 m ρ c),
       (h c _ (mem_uc main_arg5 (by decide))).trans (W19_main_arg5 m ρ c),
       (h c _ (mem_uc main_arg6 (by decide))).trans (W19_main_arg6 m ρ c),
       (h c _ (mem_uc main_arg7 (by decide))).trans (W19_main_arg7 m ρ c),
       (h c _ (mem_uc main_arg8 (by decide))).trans (W19_main_arg8 m ρ c),
       (h c _ (mem_uc main_arg9 (by decide))).trans (W19_main_arg9 m ρ c),
       (h c _ (mem_uc main_arg10 (by decide))).trans (W19_main_arg10 m ρ c),
       (h c _ (mem_uc main_arg11 (by decide))).trans (W19_main_arg11 m ρ c),
       (h c _ (mem_uc main_arg12 (by decide))).trans (W19_main_arg12 m ρ c),
       (h c _ (mem_uc main_arg13 (by decide))).trans (W19_main_arg13 m ρ c)⟩)

/-- The result buffer is the last kernel's output array: what its twenty row tiles leave once written back. -/
theorem out_eq (c : Dev nD) : W19 m ρ c (Proc.devRef .tc main_v75) = (dat5 (V18 m ρ) c).arrAt 5 cfg5.N :=
  W19_arr m ρ c 5

end Cert.KernelIdeal.KerRun

end
-- ==== Proof.KerRunHost.lean ====
/-
  What the host operations between the kernels leave in the buffers the kernels read.

  The contents of a core's buffers after each of the program's nineteen segments form a chain W0, …, W19. A stretch
  of host operations changes only the buffers its operations write, and a kernel changes only its output array, so
  every buffer a kernel reads is followed back along the chain to the stretch that computed it (or to the launch
  memory, for an argument), and that stretch is read as the composition of its operations: the degree factors
  max(degree, 1)^(-1/2) as columns, the transposed weights, the three edge aggregations, and the column means and
  biased variances of the first and third kernels' outputs. The operations of an outlined function carry their
  values through identity moves between a value's type and its buffer's type; these are stripped first.
-/
import proofs.«124566_j44289702756373_1_alg».proof.Proof.KerRunNames

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- A stretch of host operations leaves a buffer that none of them writes as it was. -/
macro "unwritten" ops:ident : term => `(StableHlo.after_of_forall_not_mem _ _ (List.forall_iff_forall_mem.mp (by
  simp only [$ops:ident, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals exact StableHlo.devRef_ne_of_ne (by decide))))

/-- Moving contents to a typed reference's own buffer type and back is the identity. -/
theorem ofBuf_toBuf {Val : EltTy → Type} {T : BufTy} (x : StableHlo.TRef sig T) (v : T.Contents Val) :
    x.ofBuf (x.toBuf v) = v := by
  obtain ⟨r, h, _, _⟩ := x; subst h; rfl
/-- At a reference whose buffer type is the carried type itself, the move is the identity. -/
theorem toBuf_self {Val : EltTy → Type} (r : Ref sig .tc) (h₁ : r.ty = r.ty) (h₂ : r.space ≠ .host)
    (h₃ : r.isScoped = false) (v : r.ty.Contents Val) : (StableHlo.TRef.of r h₁ h₂ h₃).toBuf v = v := rfl
theorem ofBuf_self {Val : EltTy → Type} (r : Ref sig .tc) (h₁ : r.ty = r.ty) (h₂ : r.space ≠ .host)
    (h₃ : r.isScoped = false) (v : r.ty.Contents Val) : (StableHlo.TRef.of r h₁ h₂ h₃).ofBuf v = v := rfl

/-- Strips the identity moves between a typed reference's carried type and its buffer's own type. -/
macro "strip_moves" : tactic => `(tactic| (
  try simp only [ofBuf_toBuf]
  repeat erw [toBuf_self]
  repeat erw [ofBuf_self]))

/-! ## Before the first kernel: the two degree factors, the transposed weights, the first aggregation -/

theorem W5_v11 : W5 m ρ c (Proc.devRef .tc main_v11) = Spec.colK (Spec.norm (a1 m c)) := by
  dsimp only [W5, hostOps0_4]; after_results_simp; strip_moves; rfl

theorem W5_v14 : W5 m ρ c (Proc.devRef .tc main_v14) = Spec.colK (Spec.norm (a2 m c)) := by
  dsimp only [W5, hostOps0_4]; after_results_simp; strip_moves; rfl

theorem W5_v15 : W5 m ρ c (Proc.devRef .tc main_v15) = Spec.tr128 (a3 m c) := by
  dsimp only [W5, hostOps0_4]; after_results_simp; strip_moves; rfl

theorem W5_v16 : W5 m ρ c (Proc.devRef .tc main_v16) = Spec.tr128 (a7 m c) := by
  dsimp only [W5, hostOps0_4]; after_results_simp; strip_moves; rfl

theorem W5_v17 : W5 m ρ c (Proc.devRef .tc main_v17) = Spec.tr128 (a4 m c) := by
  dsimp only [W5, hostOps0_4]; after_results_simp; strip_moves; rfl

theorem W5_v18 : W5 m ρ c (Proc.devRef .tc main_v18) = Spec.tr128 (a8 m c) := by
  dsimp only [W5, hostOps0_4]; after_results_simp; strip_moves; rfl

theorem W5_v19 : W5 m ρ c (Proc.devRef .tc main_v19) = Spec.tr40 (a5 m c) := by
  dsimp only [W5, hostOps0_4]; after_results_simp; strip_moves; rfl

theorem W5_v20 : W5 m ρ c (Proc.devRef .tc main_v20) = Spec.tr40 (a9 m c) := by
  dsimp only [W5, hostOps0_4]; after_results_simp; strip_moves; rfl

theorem W5_v32 : W5 m ρ c (Proc.devRef .tc main_v32) = Spec.agg128 (mulf (a0 m c) (Spec.bcol128 (Spec.colK (Spec.norm (a1 m c))))) (a1 m c) (a2 m c) := by
  dsimp only [W5, hostOps0_4]; after_results_simp; strip_moves; rfl

theorem W5_arg0 : W5 m ρ c (Proc.devRef .tc main_arg0) = m ((c.tc : Thread nD τ).loc main_arg0) :=
  calc W5 m ρ c (Proc.devRef .tc main_arg0)
    _ = W4 m ρ c (Proc.devRef .tc main_arg0) := (unwritten hostOps0_4)
    _ = W3 m ρ c (Proc.devRef .tc main_arg0) := (unwritten hostOps0_3)
    _ = W2 m ρ c (Proc.devRef .tc main_arg0) := (unwritten hostOps0_2)
    _ = W1 m ρ c (Proc.devRef .tc main_arg0) := (unwritten hostOps0_1)
    _ = W0 m ρ c (Proc.devRef .tc main_arg0) := (unwritten hostOps0)
    _ = m ((c.tc : Thread nD τ).loc main_arg0) := rfl

/-! ## Between the first and the second kernel: the column means and variances of the first kernel's output -/

theorem W6_v33 : W6 m ρ c (Proc.devRef .tc main_v33) = Y0 m ρ c := W6_arr m ρ c 5
theorem W6_arg10 : W6 m ρ c (Proc.devRef .tc main_arg10) = m ((c.tc : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := (unwritten hostOps0_4)
    _ = W3 m ρ c (Proc.devRef .tc main_arg10) := (unwritten hostOps0_3)
    _ = W2 m ρ c (Proc.devRef .tc main_arg10) := (unwritten hostOps0_2)
    _ = W1 m ρ c (Proc.devRef .tc main_arg10) := (unwritten hostOps0_1)
    _ = W0 m ρ c (Proc.devRef .tc main_arg10) := (unwritten hostOps0)
    _ = m ((c.tc : Thread nD τ).loc main_arg10) := rfl

theorem W6_arg11 : W6 m ρ c (Proc.devRef .tc main_arg11) = m ((c.tc : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := (unwritten hostOps0_4)
    _ = W3 m ρ c (Proc.devRef .tc main_arg11) := (unwritten hostOps0_3)
    _ = W2 m ρ c (Proc.devRef .tc main_arg11) := (unwritten hostOps0_2)
    _ = W1 m ρ c (Proc.devRef .tc main_arg11) := (unwritten hostOps0_1)
    _ = W0 m ρ c (Proc.devRef .tc main_arg11) := (unwritten hostOps0)
    _ = m ((c.tc : Thread nD τ).loc main_arg11) := rfl

theorem W9_v33_back : W9 m ρ c (Proc.devRef .tc main_v33) = W6 m ρ c (Proc.devRef .tc main_v33) :=
  calc W9 m ρ c (Proc.devRef .tc main_v33)
    _ = W8 m ρ c (Proc.devRef .tc main_v33) := (unwritten hostOps1_2)
    _ = W7 m ρ c (Proc.devRef .tc main_v33) := (unwritten hostOps1_1)
    _ = W6 m ρ c (Proc.devRef .tc main_v33) := (unwritten hostOps1)
theorem W9_v33 : W9 m ρ c (Proc.devRef .tc main_v33) = Y0 m ρ c :=
  (W9_v33_back m ρ c).trans (W6_v33 m ρ c)

theorem W7_v37 : W7 m ρ c (Proc.devRef .tc main_v37) = Spec.meanK (Y0 m ρ c) := by
  dsimp only [W7, hostOps1]; after_results; rw [W6_v33]; rfl

theorem W9_v37_back : W9 m ρ c (Proc.devRef .tc main_v37) = W7 m ρ c (Proc.devRef .tc main_v37) :=
  calc W9 m ρ c (Proc.devRef .tc main_v37)
    _ = W8 m ρ c (Proc.devRef .tc main_v37) := (unwritten hostOps1_2)
    _ = W7 m ρ c (Proc.devRef .tc main_v37) := (unwritten hostOps1_1)
theorem W9_v37 : W9 m ρ c (Proc.devRef .tc main_v37) = Spec.meanK (Y0 m ρ c) :=
  (W9_v37_back m ρ c).trans (W7_v37 m ρ c)

theorem W8_v38 : W8 m ρ c (Proc.devRef .tc main_v38) = Spec.varK (Y0 m ρ c) := by
  dsimp only [W8, hostOps1_1]; after_results_simp; strip_moves; rw [W6_v33]; rfl

theorem W9_v38_back : W9 m ρ c (Proc.devRef .tc main_v38) = W8 m ρ c (Proc.devRef .tc main_v38) :=
  calc W9 m ρ c (Proc.devRef .tc main_v38)
    _ = W8 m ρ c (Proc.devRef .tc main_v38) := (unwritten hostOps1_2)
theorem W9_v38 : W9 m ρ c (Proc.devRef .tc main_v38) = Spec.varK (Y0 m ρ c) :=
  (W9_v38_back m ρ c).trans (W8_v38 m ρ c)

theorem W9_v39 : W9 m ρ c (Proc.devRef .tc main_v39) = Spec.rowK (a10 m c) := by
  dsimp only [W9, hostOps1_2]; after_results; rw [W6_arg10]; rfl

theorem W9_v40 : W9 m ρ c (Proc.devRef .tc main_v40) = Spec.rowK (a11 m c) := by
  dsimp only [W9, hostOps1_2]; after_results; rw [W6_arg11]; rfl

/-! ## Between the second and the third kernel: the second aggregation -/

theorem W10_v41 : W10 m ρ c (Proc.devRef .tc main_v41) = H1 m ρ c := W10_arr m ρ c 5
theorem W10_v11_back : W10 m ρ c (Proc.devRef .tc main_v11) = W5 m ρ c (Proc.devRef .tc main_v11) :=
  calc W10 m ρ c (Proc.devRef .tc main_v11)
    _ = W9 m ρ c (Proc.devRef .tc main_v11) := W10_of_ne m ρ c main_v11 (by decide)
    _ = W8 m ρ c (Proc.devRef .tc main_v11) := (unwritten hostOps1_2)
    _ = W7 m ρ c (Proc.devRef .tc main_v11) := (unwritten hostOps1_1)
    _ = W6 m ρ c (Proc.devRef .tc main_v11) := (unwritten hostOps1)
    _ = W5 m ρ c (Proc.devRef .tc main_v11) := W6_of_ne m ρ c main_v11 (by decide)
theorem W10_v11 : W10 m ρ c (Proc.devRef .tc main_v11) = Spec.colK (Spec.norm (a1 m c)) :=
  (W10_v11_back m ρ c).trans (W5_v11 m ρ c)

theorem W10_arg1 : W10 m ρ c (Proc.devRef .tc main_arg1) = m ((c.tc : Thread nD τ).loc main_arg1) :=
  calc W10 m ρ c (Proc.devRef .tc main_arg1)
    _ = W9 m ρ c (Proc.devRef .tc main_arg1) := W10_of_ne m ρ c main_arg1 (by decide)
    _ = W8 m ρ c (Proc.devRef .tc main_arg1) := (unwritten hostOps1_2)
    _ = W7 m ρ c (Proc.devRef .tc main_arg1) := (unwritten hostOps1_1)
    _ = W6 m ρ c (Proc.devRef .tc main_arg1) := (unwritten hostOps1)
    _ = W5 m ρ c (Proc.devRef .tc main_arg1) := W6_of_ne m ρ c main_arg1 (by decide)
    _ = W4 m ρ c (Proc.devRef .tc main_arg1) := (unwritten hostOps0_4)
    _ = W3 m ρ c (Proc.devRef .tc main_arg1) := (unwritten hostOps0_3)
    _ = W2 m ρ c (Proc.devRef .tc main_arg1) := (unwritten hostOps0_2)
    _ = W1 m ρ c (Proc.devRef .tc main_arg1) := (unwritten hostOps0_1)
    _ = W0 m ρ c (Proc.devRef .tc main_arg1) := (unwritten hostOps0)
    _ = m ((c.tc : Thread nD τ).loc main_arg1) := rfl

theorem W10_arg2 : W10 m ρ c (Proc.devRef .tc main_arg2) = m ((c.tc : Thread nD τ).loc main_arg2) :=
  calc W10 m ρ c (Proc.devRef .tc main_arg2)
    _ = W9 m ρ c (Proc.devRef .tc main_arg2) := W10_of_ne m ρ c main_arg2 (by decide)
    _ = W8 m ρ c (Proc.devRef .tc main_arg2) := (unwritten hostOps1_2)
    _ = W7 m ρ c (Proc.devRef .tc main_arg2) := (unwritten hostOps1_1)
    _ = W6 m ρ c (Proc.devRef .tc main_arg2) := (unwritten hostOps1)
    _ = W5 m ρ c (Proc.devRef .tc main_arg2) := W6_of_ne m ρ c main_arg2 (by decide)
    _ = W4 m ρ c (Proc.devRef .tc main_arg2) := (unwritten hostOps0_4)
    _ = W3 m ρ c (Proc.devRef .tc main_arg2) := (unwritten hostOps0_3)
    _ = W2 m ρ c (Proc.devRef .tc main_arg2) := (unwritten hostOps0_2)
    _ = W1 m ρ c (Proc.devRef .tc main_arg2) := (unwritten hostOps0_1)
    _ = W0 m ρ c (Proc.devRef .tc main_arg2) := (unwritten hostOps0)
    _ = m ((c.tc : Thread nD τ).loc main_arg2) := rfl

theorem W11_v53 : W11 m ρ c (Proc.devRef .tc main_v53) = Spec.agg128 (mulf (H1 m ρ c) (Spec.bcol128 (Spec.colK (Spec.norm (a1 m c))))) (a1 m c) (a2 m c) := by
  dsimp only [W11, hostOps2]; after_results_simp; rw [W10_v41, W10_v11, W10_arg1, W10_arg2]; rfl

theorem W11_v14_back : W11 m ρ c (Proc.devRef .tc main_v14) = W5 m ρ c (Proc.devRef .tc main_v14) :=
  calc W11 m ρ c (Proc.devRef .tc main_v14)
    _ = W10 m ρ c (Proc.devRef .tc main_v14) := (unwritten hostOps2)
    _ = W9 m ρ c (Proc.devRef .tc main_v14) := W10_of_ne m ρ c main_v14 (by decide)
    _ = W8 m ρ c (Proc.devRef .tc main_v14) := (unwritten hostOps1_2)
    _ = W7 m ρ c (Proc.devRef .tc main_v14) := (unwritten hostOps1_1)
    _ = W6 m ρ c (Proc.devRef .tc main_v14) := (unwritten hostOps1)
    _ = W5 m ρ c (Proc.devRef .tc main_v14) := (W6_arr m ρ c 1).trans (((dat0 (V5 m ρ) c).arrAt_in 1 rfl _).trans (A_eq0 (V5 m ρ) c 1))
theorem W11_v14 : W11 m ρ c (Proc.devRef .tc main_v14) = Spec.colK (Spec.norm (a2 m c)) :=
  (W11_v14_back m ρ c).trans (W5_v14 m ρ c)

theorem W11_v17_back : W11 m ρ c (Proc.devRef .tc main_v17) = W5 m ρ c (Proc.devRef .tc main_v17) :=
  calc W11 m ρ c (Proc.devRef .tc main_v17)
    _ = W10 m ρ c (Proc.devRef .tc main_v17) := (unwritten hostOps2)
    _ = W9 m ρ c (Proc.devRef .tc main_v17) := W10_of_ne m ρ c main_v17 (by decide)
    _ = W8 m ρ c (Proc.devRef .tc main_v17) := (unwritten hostOps1_2)
    _ = W7 m ρ c (Proc.devRef .tc main_v17) := (unwritten hostOps1_1)
    _ = W6 m ρ c (Proc.devRef .tc main_v17) := (unwritten hostOps1)
    _ = W5 m ρ c (Proc.devRef .tc main_v17) := W6_of_ne m ρ c main_v17 (by decide)
theorem W11_v17 : W11 m ρ c (Proc.devRef .tc main_v17) = Spec.tr128 (a4 m c) :=
  (W11_v17_back m ρ c).trans (W5_v17 m ρ c)

theorem W11_v18_back : W11 m ρ c (Proc.devRef .tc main_v18) = W5 m ρ c (Proc.devRef .tc main_v18) :=
  calc W11 m ρ c (Proc.devRef .tc main_v18)
    _ = W10 m ρ c (Proc.devRef .tc main_v18) := (unwritten hostOps2)
    _ = W9 m ρ c (Proc.devRef .tc main_v18) := W10_of_ne m ρ c main_v18 (by decide)
    _ = W8 m ρ c (Proc.devRef .tc main_v18) := (unwritten hostOps1_2)
    _ = W7 m ρ c (Proc.devRef .tc main_v18) := (unwritten hostOps1_1)
    _ = W6 m ρ c (Proc.devRef .tc main_v18) := (unwritten hostOps1)
    _ = W5 m ρ c (Proc.devRef .tc main_v18) := W6_of_ne m ρ c main_v18 (by decide)
theorem W11_v18 : W11 m ρ c (Proc.devRef .tc main_v18) = Spec.tr128 (a8 m c) :=
  (W11_v18_back m ρ c).trans (W5_v18 m ρ c)

theorem W11_v41_back : W11 m ρ c (Proc.devRef .tc main_v41) = W10 m ρ c (Proc.devRef .tc main_v41) :=
  calc W11 m ρ c (Proc.devRef .tc main_v41)
    _ = W10 m ρ c (Proc.devRef .tc main_v41) := (unwritten hostOps2)
theorem W11_v41 : W11 m ρ c (Proc.devRef .tc main_v41) = H1 m ρ c :=
  (W11_v41_back m ρ c).trans (W10_v41 m ρ c)

/-! ## Between the third and the fourth kernel: the column means and variances of the third kernel's output -/

theorem W12_v54 : W12 m ρ c (Proc.devRef .tc main_v54) = Y1 m ρ c := W12_arr m ρ c 5
theorem W12_arg12 : W12 m ρ c (Proc.devRef .tc main_arg12) = m ((c.tc : Thread nD τ).loc main_arg12) :=
  calc W12 m ρ c (Proc.devRef .tc main_arg12)
    _ = W11 m ρ c (Proc.devRef .tc main_arg12) := W12_of_ne m ρ c main_arg12 (by decide)
    _ = W10 m ρ c (Proc.devRef .tc main_arg12) := (unwritten hostOps2)
    _ = W9 m ρ c (Proc.devRef .tc main_arg12) := W10_of_ne m ρ c main_arg12 (by decide)
    _ = W8 m ρ c (Proc.devRef .tc main_arg12) := (unwritten hostOps1_2)
    _ = W7 m ρ c (Proc.devRef .tc main_arg12) := (unwritten hostOps1_1)
    _ = W6 m ρ c (Proc.devRef .tc main_arg12) := (unwritten hostOps1)
    _ = W5 m ρ c (Proc.devRef .tc main_arg12) := W6_of_ne m ρ c main_arg12 (by decide)
    _ = W4 m ρ c (Proc.devRef .tc main_arg12) := (unwritten hostOps0_4)
    _ = W3 m ρ c (Proc.devRef .tc main_arg12) := (unwritten hostOps0_3)
    _ = W2 m ρ c (Proc.devRef .tc main_arg12) := (unwritten hostOps0_2)
    _ = W1 m ρ c (Proc.devRef .tc main_arg12) := (unwritten hostOps0_1)
    _ = W0 m ρ c (Proc.devRef .tc main_arg12) := (unwritten hostOps0)
    _ = m ((c.tc : Thread nD τ).loc main_arg12) := rfl

theorem W12_arg13 : W12 m ρ c (Proc.devRef .tc main_arg13) = m ((c.tc : Thread nD τ).loc main_arg13) :=
  calc W12 m ρ c (Proc.devRef .tc main_arg13)
    _ = W11 m ρ c (Proc.devRef .tc main_arg13) := W12_of_ne m ρ c main_arg13 (by decide)
    _ = W10 m ρ c (Proc.devRef .tc main_arg13) := (unwritten hostOps2)
    _ = W9 m ρ c (Proc.devRef .tc main_arg13) := W10_of_ne m ρ c main_arg13 (by decide)
    _ = W8 m ρ c (Proc.devRef .tc main_arg13) := (unwritten hostOps1_2)
    _ = W7 m ρ c (Proc.devRef .tc main_arg13) := (unwritten hostOps1_1)
    _ = W6 m ρ c (Proc.devRef .tc main_arg13) := (unwritten hostOps1)
    _ = W5 m ρ c (Proc.devRef .tc main_arg13) := W6_of_ne m ρ c main_arg13 (by decide)
    _ = W4 m ρ c (Proc.devRef .tc main_arg13) := (unwritten hostOps0_4)
    _ = W3 m ρ c (Proc.devRef .tc main_arg13) := (unwritten hostOps0_3)
    _ = W2 m ρ c (Proc.devRef .tc main_arg13) := (unwritten hostOps0_2)
    _ = W1 m ρ c (Proc.devRef .tc main_arg13) := (unwritten hostOps0_1)
    _ = W0 m ρ c (Proc.devRef .tc main_arg13) := (unwritten hostOps0)
    _ = m ((c.tc : Thread nD τ).loc main_arg13) := rfl

theorem W15_v54_back : W15 m ρ c (Proc.devRef .tc main_v54) = W12 m ρ c (Proc.devRef .tc main_v54) :=
  calc W15 m ρ c (Proc.devRef .tc main_v54)
    _ = W14 m ρ c (Proc.devRef .tc main_v54) := (unwritten hostOps3_2)
    _ = W13 m ρ c (Proc.devRef .tc main_v54) := (unwritten hostOps3_1)
    _ = W12 m ρ c (Proc.devRef .tc main_v54) := (unwritten hostOps3)
theorem W15_v54 : W15 m ρ c (Proc.devRef .tc main_v54) = Y1 m ρ c :=
  (W15_v54_back m ρ c).trans (W12_v54 m ρ c)

theorem W13_v58 : W13 m ρ c (Proc.devRef .tc main_v58) = Spec.meanK (Y1 m ρ c) := by
  dsimp only [W13, hostOps3]; after_results; rw [W12_v54]; rfl

theorem W15_v58_back : W15 m ρ c (Proc.devRef .tc main_v58) = W13 m ρ c (Proc.devRef .tc main_v58) :=
  calc W15 m ρ c (Proc.devRef .tc main_v58)
    _ = W14 m ρ c (Proc.devRef .tc main_v58) := (unwritten hostOps3_2)
    _ = W13 m ρ c (Proc.devRef .tc main_v58) := (unwritten hostOps3_1)
theorem W15_v58 : W15 m ρ c (Proc.devRef .tc main_v58) = Spec.meanK (Y1 m ρ c) :=
  (W15_v58_back m ρ c).trans (W13_v58 m ρ c)

theorem W14_v59 : W14 m ρ c (Proc.devRef .tc main_v59) = Spec.varK (Y1 m ρ c) := by
  dsimp only [W14, hostOps3_1]; after_results_simp; strip_moves; rw [W12_v54]; rfl

theorem W15_v59_back : W15 m ρ c (Proc.devRef .tc main_v59) = W14 m ρ c (Proc.devRef .tc main_v59) :=
  calc W15 m ρ c (Proc.devRef .tc main_v59)
    _ = W14 m ρ c (Proc.devRef .tc main_v59) := (unwritten hostOps3_2)
theorem W15_v59 : W15 m ρ c (Proc.devRef .tc main_v59) = Spec.varK (Y1 m ρ c) :=
  (W15_v59_back m ρ c).trans (W14_v59 m ρ c)

theorem W15_v60 : W15 m ρ c (Proc.devRef .tc main_v60) = Spec.rowK (a12 m c) := by
  dsimp only [W15, hostOps3_2]; after_results; rw [W12_arg12]; rfl

theorem W15_v61 : W15 m ρ c (Proc.devRef .tc main_v61) = Spec.rowK (a13 m c) := by
  dsimp only [W15, hostOps3_2]; after_results; rw [W12_arg13]; rfl

/-! ## The fifth kernel's entry (nothing on the host between the fourth and the fifth) -/

theorem W16_v62 : W16 m ρ c (Proc.devRef .tc main_v62) = H2 m ρ c := W16_arr m ρ c 5
theorem W16_v11_back : W16 m ρ c (Proc.devRef .tc main_v11) = W5 m ρ c (Proc.devRef .tc main_v11) :=
  calc W16 m ρ c (Proc.devRef .tc main_v11)
    _ = W15 m ρ c (Proc.devRef .tc main_v11) := W16_of_ne m ρ c main_v11 (by decide)
    _ = W14 m ρ c (Proc.devRef .tc main_v11) := (unwritten hostOps3_2)
    _ = W13 m ρ c (Proc.devRef .tc main_v11) := (unwritten hostOps3_1)
    _ = W12 m ρ c (Proc.devRef .tc main_v11) := (unwritten hostOps3)
    _ = W11 m ρ c (Proc.devRef .tc main_v11) := W12_of_ne m ρ c main_v11 (by decide)
    _ = W10 m ρ c (Proc.devRef .tc main_v11) := (unwritten hostOps2)
    _ = W9 m ρ c (Proc.devRef .tc main_v11) := W10_of_ne m ρ c main_v11 (by decide)
    _ = W8 m ρ c (Proc.devRef .tc main_v11) := (unwritten hostOps1_2)
    _ = W7 m ρ c (Proc.devRef .tc main_v11) := (unwritten hostOps1_1)
    _ = W6 m ρ c (Proc.devRef .tc main_v11) := (unwritten hostOps1)
    _ = W5 m ρ c (Proc.devRef .tc main_v11) := W6_of_ne m ρ c main_v11 (by decide)
theorem W16_v11 : W16 m ρ c (Proc.devRef .tc main_v11) = Spec.colK (Spec.norm (a1 m c)) :=
  (W16_v11_back m ρ c).trans (W5_v11 m ρ c)

theorem W16_v19_back : W16 m ρ c (Proc.devRef .tc main_v19) = W5 m ρ c (Proc.devRef .tc main_v19) :=
  calc W16 m ρ c (Proc.devRef .tc main_v19)
    _ = W15 m ρ c (Proc.devRef .tc main_v19) := W16_of_ne m ρ c main_v19 (by decide)
    _ = W14 m ρ c (Proc.devRef .tc main_v19) := (unwritten hostOps3_2)
    _ = W13 m ρ c (Proc.devRef .tc main_v19) := (unwritten hostOps3_1)
    _ = W12 m ρ c (Proc.devRef .tc main_v19) := (unwritten hostOps3)
    _ = W11 m ρ c (Proc.devRef .tc main_v19) := W12_of_ne m ρ c main_v19 (by decide)
    _ = W10 m ρ c (Proc.devRef .tc main_v19) := (unwritten hostOps2)
    _ = W9 m ρ c (Proc.devRef .tc main_v19) := W10_of_ne m ρ c main_v19 (by decide)
    _ = W8 m ρ c (Proc.devRef .tc main_v19) := (unwritten hostOps1_2)
    _ = W7 m ρ c (Proc.devRef .tc main_v19) := (unwritten hostOps1_1)
    _ = W6 m ρ c (Proc.devRef .tc main_v19) := (unwritten hostOps1)
    _ = W5 m ρ c (Proc.devRef .tc main_v19) := W6_of_ne m ρ c main_v19 (by decide)
theorem W16_v19 : W16 m ρ c (Proc.devRef .tc main_v19) = Spec.tr40 (a5 m c) :=
  (W16_v19_back m ρ c).trans (W5_v19 m ρ c)

/-! ## Between the fifth and the last kernel: the third aggregation, on 40 columns -/

theorem W17_v63 : W17 m ρ c (Proc.devRef .tc main_v63) = P m ρ c := W17_arr m ρ c 3
theorem W17_arg1 : W17 m ρ c (Proc.devRef .tc main_arg1) = m ((c.tc : Thread nD τ).loc main_arg1) :=
  calc W17 m ρ c (Proc.devRef .tc main_arg1)
    _ = W16 m ρ c (Proc.devRef .tc main_arg1) := W17_of_ne m ρ c main_arg1 (by decide)
    _ = W15 m ρ c (Proc.devRef .tc main_arg1) := W16_of_ne m ρ c main_arg1 (by decide)
    _ = W14 m ρ c (Proc.devRef .tc main_arg1) := (unwritten hostOps3_2)
    _ = W13 m ρ c (Proc.devRef .tc main_arg1) := (unwritten hostOps3_1)
    _ = W12 m ρ c (Proc.devRef .tc main_arg1) := (unwritten hostOps3)
    _ = W11 m ρ c (Proc.devRef .tc main_arg1) := W12_of_ne m ρ c main_arg1 (by decide)
    _ = W10 m ρ c (Proc.devRef .tc main_arg1) := (unwritten hostOps2)
    _ = W9 m ρ c (Proc.devRef .tc main_arg1) := W10_of_ne m ρ c main_arg1 (by decide)
    _ = W8 m ρ c (Proc.devRef .tc main_arg1) := (unwritten hostOps1_2)
    _ = W7 m ρ c (Proc.devRef .tc main_arg1) := (unwritten hostOps1_1)
    _ = W6 m ρ c (Proc.devRef .tc main_arg1) := (unwritten hostOps1)
    _ = W5 m ρ c (Proc.devRef .tc main_arg1) := W6_of_ne m ρ c main_arg1 (by decide)
    _ = W4 m ρ c (Proc.devRef .tc main_arg1) := (unwritten hostOps0_4)
    _ = W3 m ρ c (Proc.devRef .tc main_arg1) := (unwritten hostOps0_3)
    _ = W2 m ρ c (Proc.devRef .tc main_arg1) := (unwritten hostOps0_2)
    _ = W1 m ρ c (Proc.devRef .tc main_arg1) := (unwritten hostOps0_1)
    _ = W0 m ρ c (Proc.devRef .tc main_arg1) := (unwritten hostOps0)
    _ = m ((c.tc : Thread nD τ).loc main_arg1) := rfl

theorem W17_arg2 : W17 m ρ c (Proc.devRef .tc main_arg2) = m ((c.tc : Thread nD τ).loc main_arg2) :=
  calc W17 m ρ c (Proc.devRef .tc main_arg2)
    _ = W16 m ρ c (Proc.devRef .tc main_arg2) := W17_of_ne m ρ c main_arg2 (by decide)
    _ = W15 m ρ c (Proc.devRef .tc main_arg2) := W16_of_ne m ρ c main_arg2 (by decide)
    _ = W14 m ρ c (Proc.devRef .tc main_arg2) := (unwritten hostOps3_2)
    _ = W13 m ρ c (Proc.devRef .tc main_arg2) := (unwritten hostOps3_1)
    _ = W12 m ρ c (Proc.devRef .tc main_arg2) := (unwritten hostOps3)
    _ = W11 m ρ c (Proc.devRef .tc main_arg2) := W12_of_ne m ρ c main_arg2 (by decide)
    _ = W10 m ρ c (Proc.devRef .tc main_arg2) := (unwritten hostOps2)
    _ = W9 m ρ c (Proc.devRef .tc main_arg2) := W10_of_ne m ρ c main_arg2 (by decide)
    _ = W8 m ρ c (Proc.devRef .tc main_arg2) := (unwritten hostOps1_2)
    _ = W7 m ρ c (Proc.devRef .tc main_arg2) := (unwritten hostOps1_1)
    _ = W6 m ρ c (Proc.devRef .tc main_arg2) := (unwritten hostOps1)
    _ = W5 m ρ c (Proc.devRef .tc main_arg2) := W6_of_ne m ρ c main_arg2 (by decide)
    _ = W4 m ρ c (Proc.devRef .tc main_arg2) := (unwritten hostOps0_4)
    _ = W3 m ρ c (Proc.devRef .tc main_arg2) := (unwritten hostOps0_3)
    _ = W2 m ρ c (Proc.devRef .tc main_arg2) := (unwritten hostOps0_2)
    _ = W1 m ρ c (Proc.devRef .tc main_arg2) := (unwritten hostOps0_1)
    _ = W0 m ρ c (Proc.devRef .tc main_arg2) := (unwritten hostOps0)
    _ = m ((c.tc : Thread nD τ).loc main_arg2) := rfl

theorem W17_arg6 : W17 m ρ c (Proc.devRef .tc main_arg6) = m ((c.tc : Thread nD τ).loc main_arg6) :=
  calc W17 m ρ c (Proc.devRef .tc main_arg6)
    _ = W16 m ρ c (Proc.devRef .tc main_arg6) := W17_of_ne m ρ c main_arg6 (by decide)
    _ = W15 m ρ c (Proc.devRef .tc main_arg6) := W16_of_ne m ρ c main_arg6 (by decide)
    _ = W14 m ρ c (Proc.devRef .tc main_arg6) := (unwritten hostOps3_2)
    _ = W13 m ρ c (Proc.devRef .tc main_arg6) := (unwritten hostOps3_1)
    _ = W12 m ρ c (Proc.devRef .tc main_arg6) := (unwritten hostOps3)
    _ = W11 m ρ c (Proc.devRef .tc main_arg6) := W12_of_ne m ρ c main_arg6 (by decide)
    _ = W10 m ρ c (Proc.devRef .tc main_arg6) := (unwritten hostOps2)
    _ = W9 m ρ c (Proc.devRef .tc main_arg6) := W10_of_ne m ρ c main_arg6 (by decide)
    _ = W8 m ρ c (Proc.devRef .tc main_arg6) := (unwritten hostOps1_2)
    _ = W7 m ρ c (Proc.devRef .tc main_arg6) := (unwritten hostOps1_1)
    _ = W6 m ρ c (Proc.devRef .tc main_arg6) := (unwritten hostOps1)
    _ = W5 m ρ c (Proc.devRef .tc main_arg6) := W6_of_ne m ρ c main_arg6 (by decide)
    _ = W4 m ρ c (Proc.devRef .tc main_arg6) := (unwritten hostOps0_4)
    _ = W3 m ρ c (Proc.devRef .tc main_arg6) := (unwritten hostOps0_3)
    _ = W2 m ρ c (Proc.devRef .tc main_arg6) := (unwritten hostOps0_2)
    _ = W1 m ρ c (Proc.devRef .tc main_arg6) := (unwritten hostOps0_1)
    _ = W0 m ρ c (Proc.devRef .tc main_arg6) := (unwritten hostOps0)
    _ = m ((c.tc : Thread nD τ).loc main_arg6) := rfl

theorem W18_v73 : W18 m ρ c (Proc.devRef .tc main_v73) = Spec.agg40 (P m ρ c) (a1 m c) (a2 m c) := by
  dsimp only [W18, hostOps5]; after_results_simp; rw [W17_v63, W17_arg1, W17_arg2]; rfl

theorem W18_v74 : W18 m ρ c (Proc.devRef .tc main_v74) = Spec.rowK40 (a6 m c) := by
  dsimp only [W18, hostOps5]; after_results; rw [W17_arg6]; rfl

theorem W18_v14_back : W18 m ρ c (Proc.devRef .tc main_v14) = W5 m ρ c (Proc.devRef .tc main_v14) :=
  calc W18 m ρ c (Proc.devRef .tc main_v14)
    _ = W17 m ρ c (Proc.devRef .tc main_v14) := (unwritten hostOps5)
    _ = W16 m ρ c (Proc.devRef .tc main_v14) := W17_of_ne m ρ c main_v14 (by decide)
    _ = W15 m ρ c (Proc.devRef .tc main_v14) := W16_of_ne m ρ c main_v14 (by decide)
    _ = W14 m ρ c (Proc.devRef .tc main_v14) := (unwritten hostOps3_2)
    _ = W13 m ρ c (Proc.devRef .tc main_v14) := (unwritten hostOps3_1)
    _ = W12 m ρ c (Proc.devRef .tc main_v14) := (unwritten hostOps3)
    _ = W11 m ρ c (Proc.devRef .tc main_v14) := (W12_arr m ρ c 1).trans (((dat2 (V11 m ρ) c).arrAt_in 1 rfl _).trans (A_eq2 (V11 m ρ) c 1))
    _ = W10 m ρ c (Proc.devRef .tc main_v14) := (unwritten hostOps2)
    _ = W9 m ρ c (Proc.devRef .tc main_v14) := W10_of_ne m ρ c main_v14 (by decide)
    _ = W8 m ρ c (Proc.devRef .tc main_v14) := (unwritten hostOps1_2)
    _ = W7 m ρ c (Proc.devRef .tc main_v14) := (unwritten hostOps1_1)
    _ = W6 m ρ c (Proc.devRef .tc main_v14) := (unwritten hostOps1)
    _ = W5 m ρ c (Proc.devRef .tc main_v14) := (W6_arr m ρ c 1).trans (((dat0 (V5 m ρ) c).arrAt_in 1 rfl _).trans (A_eq0 (V5 m ρ) c 1))
theorem W18_v14 : W18 m ρ c (Proc.devRef .tc main_v14) = Spec.colK (Spec.norm (a2 m c)) :=
  (W18_v14_back m ρ c).trans (W5_v14 m ρ c)

theorem W18_v62_back : W18 m ρ c (Proc.devRef .tc main_v62) = W16 m ρ c (Proc.devRef .tc main_v62) :=
  calc W18 m ρ c (Proc.devRef .tc main_v62)
    _ = W17 m ρ c (Proc.devRef .tc main_v62) := (unwritten hostOps5)
    _ = W16 m ρ c (Proc.devRef .tc main_v62) := (W17_arr m ρ c 0).trans (((dat4 (V16 m ρ) c).arrAt_in 0 rfl _).trans (A_eq4 (V16 m ρ) c 0))
theorem W18_v62 : W18 m ρ c (Proc.devRef .tc main_v62) = H2 m ρ c :=
  (W18_v62_back m ρ c).trans (W16_v62 m ρ c)

theorem W18_v20_back : W18 m ρ c (Proc.devRef .tc main_v20) = W5 m ρ c (Proc.devRef .tc main_v20) :=
  calc W18 m ρ c (Proc.devRef .tc main_v20)
    _ = W17 m ρ c (Proc.devRef .tc main_v20) := (unwritten hostOps5)
    _ = W16 m ρ c (Proc.devRef .tc main_v20) := W17_of_ne m ρ c main_v20 (by decide)
    _ = W15 m ρ c (Proc.devRef .tc main_v20) := W16_of_ne m ρ c main_v20 (by decide)
    _ = W14 m ρ c (Proc.devRef .tc main_v20) := (unwritten hostOps3_2)
    _ = W13 m ρ c (Proc.devRef .tc main_v20) := (unwritten hostOps3_1)
    _ = W12 m ρ c (Proc.devRef .tc main_v20) := (unwritten hostOps3)
    _ = W11 m ρ c (Proc.devRef .tc main_v20) := W12_of_ne m ρ c main_v20 (by decide)
    _ = W10 m ρ c (Proc.devRef .tc main_v20) := (unwritten hostOps2)
    _ = W9 m ρ c (Proc.devRef .tc main_v20) := W10_of_ne m ρ c main_v20 (by decide)
    _ = W8 m ρ c (Proc.devRef .tc main_v20) := (unwritten hostOps1_2)
    _ = W7 m ρ c (Proc.devRef .tc main_v20) := (unwritten hostOps1_1)
    _ = W6 m ρ c (Proc.devRef .tc main_v20) := (unwritten hostOps1)
    _ = W5 m ρ c (Proc.devRef .tc main_v20) := W6_of_ne m ρ c main_v20 (by decide)
theorem W18_v20 : W18 m ρ c (Proc.devRef .tc main_v20) = Spec.tr40 (a9 m c) :=
  (W18_v20_back m ρ c).trans (W5_v20 m ρ c)

end Cert.KernelIdeal.KerRun

end
-- ==== Proof.KerRun.lean ====
/-
  The kernel program's run, its result named, and what each of its six kernels finds in its input arrays.

  The run ends with the result buffer holding the last kernel's output array (`run_named`, `out_eq`). Each kernel's
  input arrays, at the moment the kernel is entered, are named as whole-array functions of the fourteen arguments and
  of the earlier kernels' output arrays Y0, H1, Y1, H2, P (`entry0` … `entry5`): the aggregated rows, the degree
  columns, the transposed weights, and for the two normalising kernels the column means and variances and the scale
  and shift rows.
-/
import proofs.«124566_j44289702756373_1_alg».proof.Proof.KerRunMain
import proofs.«124566_j44289702756373_1_alg».proof.Proof.KerRunHost

set_option maxRecDepth 16384

noncomputable section

namespace Cert.KernelIdeal.KerRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable (m : (ℓ : Loc nD τ sig) → Buf (Elt Ideal) ℓ) (ρ : Dev nD → PrngReg) (c : Dev nD)

/-- The first kernel reads: the aggregated scaled rows, the in-degree column, the transposed weights, the rows themselves, the transposed skip weights. -/
theorem entry0 :
    V5 m ρ c main_v32 = Spec.agg128 (mulf (a0 m c) (Spec.bcol128 (Spec.colK (Spec.norm (a1 m c))))) (a1 m c) (a2 m c)
    ∧ V5 m ρ c main_v14 = Spec.colK (Spec.norm (a2 m c))
    ∧ V5 m ρ c main_v15 = Spec.tr128 (a3 m c)
    ∧ V5 m ρ c main_arg0 = a0 m c
    ∧ V5 m ρ c main_v16 = Spec.tr128 (a7 m c) :=
  ⟨W5_v32 m ρ c, W5_v14 m ρ c, W5_v15 m ρ c, W5_arg0 m ρ c, W5_v16 m ρ c⟩

/-- The second kernel reads: the first kernel's output, its column means and variances as rows, the scale and shift as rows. -/
theorem entry1 :
    V9 m ρ c main_v33 = Y0 m ρ c
    ∧ V9 m ρ c main_v37 = Spec.meanK (Y0 m ρ c)
    ∧ V9 m ρ c main_v38 = Spec.varK (Y0 m ρ c)
    ∧ V9 m ρ c main_v39 = Spec.rowK (a10 m c)
    ∧ V9 m ρ c main_v40 = Spec.rowK (a11 m c) :=
  ⟨W9_v33 m ρ c, W9_v37 m ρ c, W9_v38 m ρ c, W9_v39 m ρ c, W9_v40 m ρ c⟩

/-- The third kernel reads what the first does, with the second kernel's output for the rows and the second layer's weights. -/
theorem entry2 :
    V11 m ρ c main_v53 = Spec.agg128 (mulf (H1 m ρ c) (Spec.bcol128 (Spec.colK (Spec.norm (a1 m c))))) (a1 m c) (a2 m c)
    ∧ V11 m ρ c main_v14 = Spec.colK (Spec.norm (a2 m c))
    ∧ V11 m ρ c main_v17 = Spec.tr128 (a4 m c)
    ∧ V11 m ρ c main_v41 = H1 m ρ c
    ∧ V11 m ρ c main_v18 = Spec.tr128 (a8 m c) :=
  ⟨W11_v53 m ρ c, W11_v14 m ρ c, W11_v17 m ρ c, W11_v41 m ρ c, W11_v18 m ρ c⟩

/-- The fourth kernel reads what the second does, of the third kernel's output and the second layer's scale and shift. -/
theorem entry3 :
    V15 m ρ c main_v54 = Y1 m ρ c
    ∧ V15 m ρ c main_v58 = Spec.meanK (Y1 m ρ c)
    ∧ V15 m ρ c main_v59 = Spec.varK (Y1 m ρ c)
    ∧ V15 m ρ c main_v60 = Spec.rowK (a12 m c)
    ∧ V15 m ρ c main_v61 = Spec.rowK (a13 m c) :=
  ⟨W15_v54 m ρ c, W15_v58 m ρ c, W15_v59 m ρ c, W15_v60 m ρ c, W15_v61 m ρ c⟩

/-- The fifth kernel reads: the fourth kernel's output, the out-degree column, the third layer's transposed weights. -/
theorem entry4 :
    V16 m ρ c main_v62 = H2 m ρ c
    ∧ V16 m ρ c main_v11 = Spec.colK (Spec.norm (a1 m c))
    ∧ V16 m ρ c main_v19 = Spec.tr40 (a5 m c) :=
  ⟨W16_v62 m ρ c, W16_v11 m ρ c, W16_v19 m ρ c⟩

/-- The last kernel reads: the aggregated products, the in-degree column, the bias as a row, the fourth kernel's output, the transposed skip weights. -/
theorem entry5 :
    V18 m ρ c main_v73 = Spec.agg40 (P m ρ c) (a1 m c) (a2 m c)
    ∧ V18 m ρ c main_v14 = Spec.colK (Spec.norm (a2 m c))
    ∧ V18 m ρ c main_v74 = Spec.rowK40 (a6 m c)
    ∧ V18 m ρ c main_v62 = H2 m ρ c
    ∧ V18 m ρ c main_v20 = Spec.tr40 (a9 m c) :=
  ⟨W18_v73 m ρ c, W18_v14 m ρ c, W18_v74 m ρ c, W18_v62 m ρ c, W18_v20 m ρ c⟩

end Cert.KernelIdeal.KerRun

end
-- ==== Proof.LibRowBlockDot.lean ====
/-
  A block of rows of a matrix product, at the extended reals.

  Row i of X·W depends on row i of X alone. So the product of a block of rows of X (any choice of rows, given by a map
  `row` from the block's row numbers to the matrix's) with W is the same block of rows of X·W: entry (a, b) of the
  one and entry (row a, b) of the other are the same sum over the contracted coordinate of the same products. Stated
  for a kernel's product accumulated into the zero block against the host's product of the whole matrices, generic in
  the four extents, the operand formats and the precision keys. Nothing of real arithmetic is used beyond 0 + x = x,
  so it holds at the infinities too.
-/
import Idealize.ShloMosaic.Lib.StackMember
import Idealize.ShloMosaic.Lib.KernelVsHost

noncomputable section

namespace Cert.LibRowBlockDot

open Idealize.ShloMosaic Idealize.ShloMosaic.ValueIdx

/-- Entry (a, b) of a kernel's plain product `A·B` into the zero accumulator, where `A` is the rows `row a` of a
    matrix `X` and `B` is `W` entry by entry, is entry (`row a`, b) of the host's plain product `X·W`. -/
theorem matmul_rowBlock_apply {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b)) (a : Fin m) (b : Fin N) :
    matmul (DotDims.plain m K N) prec A B (constant (F := Ideal) ⟨2, ![m, N]⟩ .f32 0x00000000#32) (ix2 a b)
      = Host.dotGeneral (DotDims.plain M K N) prec' X W (ix2 (row a) b) := by
  rw [matmul_zero_eq_dotGeneral, StackMember.dotGeneral_plain_apply, StackMember.dotGeneral_plain_apply]
  exact Finset.sum_congr rfl fun c _ => by rw [hA, hB]

/-- The same with the two entries given by their coordinates: `j` in the block and `i` in the whole product, `i`'s
    row being the row the block's row `j 0` stands for and the columns equal. -/
theorem matmul_rowBlock_apply_idx {M m K N : Nat} {φ₁ φ₂ ψ₁ ψ₂ : FTy} (prec prec' : Option ContractPrecision)
    (X : FVec Ideal ⟨2, ![M, K]⟩ φ₁) (W : FVec Ideal ⟨2, ![K, N]⟩ φ₂)
    (A : FVec Ideal ⟨2, ![m, K]⟩ ψ₁) (B : FVec Ideal ⟨2, ![K, N]⟩ ψ₂) (row : Fin m → Fin M)
    (hA : ∀ a c, A (ix2 a c) = X (ix2 (row a) c)) (hB : ∀ c b, B (ix2 c b) = W (ix2 c b))
    (j : (⟨2, ![m, N]⟩ : Shape).Idx) (i : (⟨2, ![M, N]⟩ : Shape).Idx)
    (h0 : (i 0).val = (row (j 0)).val) (h1 : (i 1).val = (j 1).val) :
    matmul (DotDims.plain m K N) prec A B (constant (F := Ideal) ⟨2, ![m, N]⟩ .f32 0x00000000#32) j
      = Host.dotGeneral (DotDims.plain M K N) prec' X W i := by
  have hj : j = ix2 (j 0) (j 1) := eq_ix2 j
  have hi : i = ix2 (row (j 0)) (j 1) := by
    rw [eq_ix2 i]
    exact congrArg₂ ix2 (Fin.ext h0) (Fin.ext h1)
  rw [hj, hi]
  exact matmul_rowBlock_apply prec prec' X W A B row hA hB (j 0) (j 1)

end Cert.LibRowBlockDot

end
-- ==== Proof.LibUnitAxes.lean ====
/-
  Three layout operations read at an index given by its coordinates, generic in the extents and the element type.
  • A shape cast that DROPS two leading unit axes, [1, 1, a, b] → [a, b], reads at (p, c) the operand at (0, 0, p, c); the
    cast that ADDS them, [a, b] → [1, 1, a, b], reads at (0, 0, p, c) the operand at (p, c): the row-major position of
    (0, 0, p, c) in [1, 1, a, b] is p·b + c, that of (p, c) in [a, b].
  • A column [a, 1] broadcast along the second axis to [a, b] reads at (p, c) the column's entry p, whatever c.
-/
import Idealize.ShloMosaic.Lib.ValueLayout

namespace Cert.LibUnitAxes

open Idealize.ShloMosaic Idealize.ShloMosaic.ValueIdx

variable {α : Type}

/-- [1, 1, a, b] cast to [a, b], at (p, c): the operand at (0, 0, p, c). -/
theorem shapeCast_11ab_ab_apply {a b : ℕ} (x : (⟨4, ![1, 1, a, b]⟩ : Shape).Idx → α)
    (h : (⟨4, ![1, 1, a, b]⟩ : Shape).ShapeCasts ⟨2, ![a, b]⟩) (p : Fin a) (c : Fin b) :
    shapeCast ⟨2, ![a, b]⟩ x h (ix2 p c) = x (ix4 (0 : Fin 1) (0 : Fin 1) p c) :=
  shapeCast_apply x h (ix2 p c) (ix4 (0 : Fin 1) (0 : Fin 1) p c) (by
    rw [Shape.rowMajor_val_four, Shape.rowMajor_val_two]
    show (((0 * 1 + 0) * a + p.val) * b + c.val) = p.val * b + c.val
    simp only [Nat.zero_mul, Nat.zero_add])

/-- [a, b] cast to [1, 1, a, b], at (0, 0, p, c): the operand at (p, c). -/
theorem shapeCast_ab_11ab_apply {a b : ℕ} (x : (⟨2, ![a, b]⟩ : Shape).Idx → α)
    (h : (⟨2, ![a, b]⟩ : Shape).ShapeCasts ⟨4, ![1, 1, a, b]⟩) (p : Fin a) (c : Fin b) :
    shapeCast ⟨4, ![1, 1, a, b]⟩ x h (ix4 (0 : Fin 1) (0 : Fin 1) p c) = x (ix2 p c) :=
  shapeCast_apply x h (ix4 (0 : Fin 1) (0 : Fin 1) p c) (ix2 p c) (by
    rw [Shape.rowMajor_val_four, Shape.rowMajor_val_two]
    show p.val * b + c.val = (((0 * 1 + 0) * a + p.val) * b + c.val)
    simp only [Nat.zero_mul, Nat.zero_add])

/-- A column [a, 1] broadcast to [a, b], at (p, c): the column's entry p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibUnitAxes
-- ==== Proof.LibHostReads.lean ====
/-
  Host-side array operations read at an index, on the extended reals.

  The reads that plain array code needs again and again: a plain matrix product [m,k]·[k,n] at (a, b) is the finite sum
  Σ_c L(a,c)·R(c,b), whatever name the product's dimension record was printed under, as long as it is the plain one; a
  scalar broadcast to any shape reads the scalar; a bias vector [n] broadcast to one row [1,n] and then down m rows reads,
  at (r, c), the bias at c; a vector [m] made a column [m,1] reads, at (r, ·), the vector at r; and a column [m,1]
  repeated along n columns reads, at (r, d), the column at r. Generic in the extents (an extent that must not be the unit
  extent says so) and, for the layout reads, in the element type; the indices are written by coordinates (ix1, ix2), so
  each lemma applies to a printed operation by unification.
-/
import Idealize.ShloMosaic.Lib.StackMember
import Idealize.ShloMosaic.Lib.Pipeline.Value
import Idealize.ShloMosaic.Lib.ValueIdx

noncomputable section

open scoped BigOperators

namespace Cert.LibHostReads

open Idealize.ShloMosaic Idealize.ShloMosaic.ValueIdx

variable {α : Type}

/-- A plain m×k by k×n product read at (a, b): Σ_c L(a,c)·R(c,b). -/
theorem dot_apply {m k n : Nat} (D : DotDims ⟨2, ![m, k]⟩ ⟨2, ![k, n]⟩ ⟨2, ![m, n]⟩) (hD : D = DotDims.plain m k n)
    (L : FVec Ideal ⟨2, ![m, k]⟩ .f32) (R : FVec Ideal ⟨2, ![k, n]⟩ .f32) (a : Fin m) (b : Fin n) :
    Host.dotGeneral D none L R (ix2 a b) = ∑ c : Fin k, L (ix2 a c) * R (ix2 c b) := by
  subst hD
  exact StackMember.dotGeneral_plain_apply none L R a b

/-- A scalar broadcast to any shape reads the scalar everywhere. -/
theorem splat_apply {t : Shape} (h : (⟨0, ![]⟩ : Shape).BroadcastsInDim t ![]) (y : (⟨0, ![]⟩ : Shape).Idx → α) (j : t.Idx) :
    broadcastInDim t ![] h y j = y ix0 :=
  broadcastInDim_apply _ h y j ix0 (fun a => a.elim0)

/-- A vector of length n broadcast to one row and then to m rows reads, at (r, c), the vector at c. -/
theorem rowBias_apply {m n : Nat} (hn : n ≠ 1)
    (h1 : (⟨1, ![n]⟩ : Shape).BroadcastsInDim ⟨2, ![1, n]⟩ ![1])
    (h2 : (⟨2, ![1, n]⟩ : Shape).BroadcastsInDim ⟨2, ![m, n]⟩ ![0, 1])
    (b : (⟨1, ![n]⟩ : Shape).Idx → α) (r : Fin m) (c : Fin n) :
    broadcastInDim ⟨2, ![m, n]⟩ ![0, 1] h2 (broadcastInDim ⟨2, ![1, n]⟩ ![1] h1 b) (ix2 r c) = b (ix1 c) := by
  rw [broadcastInDim_apply _ h2 _ (ix2 r c) (ix2 (0 : Fin 1) c) (fun a => match a with
      | ⟨0, _⟩ => by show 0 = if (1 : Nat) = 1 then 0 else r.val; rw [if_pos rfl]
      | ⟨1, _⟩ => by show c.val = if n = 1 then 0 else c.val; rw [if_neg hn]),
    broadcastInDim_apply _ h1 b (ix2 (0 : Fin 1) c) (ix1 c) (fun a => match a with
      | ⟨0, _⟩ => by show c.val = if n = 1 then 0 else c.val; rw [if_neg hn])]

/-- A vector of length m as a column reads, at (r, z), the vector at r. -/
theorem col_apply {m : Nat} (hm : m ≠ 1) (h1 : (⟨1, ![m]⟩ : Shape).BroadcastsInDim ⟨2, ![m, 1]⟩ ![0])
    (v : (⟨1, ![m]⟩ : Shape).Idx → α) (r : Fin m) (z : Fin 1) :
    broadcastInDim ⟨2, ![m, 1]⟩ ![0] h1 v (ix2 r z) = v (ix1 r) :=
  broadcastInDim_apply _ h1 v (ix2 r z) (ix1 r) (fun a => match a with
    | ⟨0, _⟩ => by show r.val = if m = 1 then 0 else r.val; rw [if_neg hm])

/-- A column broadcast along its rows reads, at (r, d), the column at r. -/
theorem colBcast_apply {m n : Nat} (hm : m ≠ 1) (h2 : (⟨2, ![m, 1]⟩ : Shape).BroadcastsInDim ⟨2, ![m, n]⟩ ![0, 1])
    (Y : (⟨2, ![m, 1]⟩ : Shape).Idx → α) (r : Fin m) (d : Fin n) :
    broadcastInDim ⟨2, ![m, n]⟩ ![0, 1] h2 Y (ix2 r d) = Y (ix2 r (0 : Fin 1)) :=
  broadcastInDim_apply _ h2 Y (ix2 r d) (ix2 r (0 : Fin 1)) (fun a => match a with
    | ⟨0, _⟩ => by show r.val = if m = 1 then 0 else r.val; rw [if_neg hm]
    | ⟨1, _⟩ => by show 0 = if (1 : Nat) = 1 then 0 else d.val; rw [if_pos rfl])

end Cert.LibHostReads

end
-- ==== Proof.LibGcnBlocks.lean ====
/-
  Three dense graph-convolution bodies read block by block, at the extended reals.

  A node-tiled kernel sees m consecutive rows of an M-row array at a time: block row a stands for array row `row a`.
  Each lemma says that what the body computes at entry (a, b) of its block is what the corresponding whole-array
  host formula computes at entry (row a, b), given only that the block operands read the arrays at those rows:

  • rows scaled by a per-row factor, then multiplied by a matrix:  Σ_c (X(r,c) · s(r)) · W(c,b);
  • an aggregate scaled per row, a bias row added, clipped below at zero:  max(A(r,b) · s(r) + β(b), 0);
  • a matrix product with a bias row added:  Σ_c X(r,c) · W(c,b) + β(b).

  The per-row factor is a column [M,1] repeated along the columns, the bias a row [1,N] repeated down the rows. A
  change of float format is the identity on extended reals, the kernel's product accumulates into the zero block,
  and the zero the maximum is taken against is the same word on both sides, so nothing of real arithmetic is used:
  every statement holds at the infinities too. Generic in all extents (M must not be the unit extent, so that the
  column's row coordinate is read and not collapsed).
-/
import Idealize.ShloMosaic.Lib.StackMember
import Idealize.ShloMosaic.Lib.KernelVsHost
import Idealize.ShloMosaic.Lib.ValueLayout
import proofs.«124566_j44289702756373_1_alg».proof.Proof.LibRowBlockDot
import proofs.«124566_j44289702756373_1_alg».proof.Proof.LibUnitAxes
import proofs.«124566_j44289702756373_1_alg».proof.Proof.LibHostReads

noncomputable section

namespace Cert.LibGcnBlocks

open Idealize.ShloMosaic Idealize.ShloMosaic.ValueIdx

/-- Rows scaled by a per-row factor and multiplied by a matrix: the block's product into the zero accumulator, at
    (a, b), is the whole scaled product at (row a, b). -/
theorem scaledDot_block {M m K N : Nat} (hM : M ≠ 1) (prec prec' : Option ContractPrecision)
    (X : FVec Ideal ⟨2, ![M, K]⟩ .f32) (S : FVec Ideal ⟨2, ![M, 1]⟩ .f32) (W : FVec Ideal ⟨2, ![K, N]⟩ .f32)
    (x0 : FVec Ideal ⟨2, ![m, K]⟩ .f32) (x1 : FVec Ideal ⟨2, ![m, 1]⟩ .f32) (w : FVec Ideal ⟨2, ![K, N]⟩ .f32)
    (row : Fin m → Fin M)
    (h0 : ∀ a c, x0 (ix2 a c) = X (ix2 (row a) c))
    (h1 : ∀ a, x1 (ix2 a (0 : Fin 1)) = S (ix2 (row a) (0 : Fin 1)))
    (hw : ∀ c b, w (ix2 c b) = W (ix2 c b))
    (hc : (⟨2, ![m, 1]⟩ : Shape).ShapeCasts ⟨2, ![m, 1]⟩) (hb : (⟨2, ![m, 1]⟩ : Shape).Broadcasts ⟨2, ![m, K]⟩)
    (hB : (⟨2, ![M, 1]⟩ : Shape).BroadcastsInDim ⟨2, ![M, K]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    matmul (DotDims.plain m K N) prec
        (truncf .bf16 (mulf x0 (broadcastTo ⟨2, ![m, K]⟩ (shapeCast ⟨2, ![m, 1]⟩ x1 hc) hb)) ht)
        (truncf .bf16 w ht) (constant (F := Ideal) ⟨2, ![m, N]⟩ .f32 0x00000000#32) j
      = Host.dotGeneral (DotDims.plain M K N) prec' (mulf X (broadcastInDim ⟨2, ![M, K]⟩ ![0, 1] hB S)) W i := by
  refine LibRowBlockDot.matmul_rowBlock_apply_idx prec prec' _ W _ _ row (fun a c => ?_) (fun c b => ?_) j i hi0 hi1
  · rw [truncf_apply, mulf_apply, mulf_apply, h0, shapeCast_self, LibUnitAxes.broadcastTo_a1_ab_apply, h1,
      LibHostReads.colBcast_apply hM]
  · rw [truncf_apply, hw]

/-- An aggregate scaled per row, a bias row added, clipped below at zero: the block's value at (a, b) is the whole
    formula at (row a, b). -/
theorem scaleBiasRelu_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a c, x0 (ix2 a c) = A (ix2 (row a) c))
    (h1 : ∀ a, x1 (ix2 a (0 : Fin 1)) = S (ix2 (row a) (0 : Fin 1)))
    (h2 : ∀ c, x2 (ix2 (0 : Fin 1) c) = B (ix2 (0 : Fin 1) c))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (hZ : (⟨0, ![]⟩ : Shape).BroadcastsInDim ⟨2, ![M, N]⟩ ![])
    (j : (⟨2, ![m, N]⟩ : Shape).Idx) (i : (⟨2, ![M, N]⟩ : Shape).Idx)
    (hi0 : (i 0).val = (row (j 0)).val) (hi1 : (i 1).val = (j 1).val) :
    maximumf (addf (mulf (shapeCast ⟨2, ![m, N]⟩ x0 hc0) (broadcastTo ⟨2, ![m, N]⟩ (shapeCast ⟨2, ![m, 1]⟩ x1 hc1) hb1))
          (broadcastTo ⟨2, ![m, N]⟩ (shapeCast ⟨2, ![1, N]⟩ x2 hc2) hb2))
        (broadcast ⟨2, ![m, N]⟩ (Scalar.ofBits (F := Ideal) .f32 0x00000000#32)) j
      = maximumf (addf (mulf A (broadcastInDim ⟨2, ![M, N]⟩ ![0, 1] hS S)) (broadcastInDim ⟨2, ![M, N]⟩ ![0, 1] hB B))
          (broadcastInDim ⟨2, ![M, N]⟩ ![] hZ (constant (F := Ideal) ⟨0, ![]⟩ .f32 0x00000000#32)) i := by
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  rw [maximumf_apply, maximumf_apply, addf_apply, addf_apply, mulf_apply, mulf_apply, shapeCast_self,
    shapeCast_self, shapeCast_self, LibUnitAxes.broadcastTo_a1_ab_apply, broadcastTo_1b_ab_apply, h0, h1, h2,
    LibHostReads.colBcast_apply hM, broadcastInDim_oneRow_apply, LibHostReads.splat_apply, broadcast_apply]
  rfl

/-- A matrix product with a bias row added: the block's value at (a, b) is the whole formula at (row a, b). -/
theorem denseBias_block {M m K N : Nat} (prec prec' : Option ContractPrecision)
    (X : FVec Ideal ⟨2, ![M, K]⟩ .f32) (W : FVec Ideal ⟨2, ![K, N]⟩ .f32) (B : FVec Ideal ⟨2, ![1, N]⟩ .f32)
    (x0 : FVec Ideal ⟨2, ![m, K]⟩ .f32) (w : FVec Ideal ⟨2, ![K, N]⟩ .f32) (x2 : FVec Ideal ⟨2, ![1, N]⟩ .f32)
    (row : Fin m → Fin M)
    (h0 : ∀ a c, x0 (ix2 a c) = X (ix2 (row a) c))
    (hw : ∀ c b, w (ix2 c b) = W (ix2 c b))
    (h2 : ∀ c, x2 (ix2 (0 : Fin 1) c) = B (ix2 (0 : Fin 1) c))
    (hc0 : (⟨2, ![m, K]⟩ : Shape).ShapeCasts ⟨2, ![m, K]⟩) (hc2 : (⟨2, ![1, N]⟩ : Shape).ShapeCasts ⟨2, ![1, N]⟩)
    (hb2 : (⟨2, ![1, N]⟩ : Shape).Broadcasts ⟨2, ![m, N]⟩)
    (hB : (⟨2, ![1, N]⟩ : Shape).BroadcastsInDim ⟨2, ![M, N]⟩ ![0, 1])
    (ht : FTy.bf16.bits < FTy.f32.bits)
    (j : (⟨2, ![m, N]⟩ : Shape).Idx) (i : (⟨2, ![M, N]⟩ : Shape).Idx)
    (hi0 : (i 0).val = (row (j 0)).val) (hi1 : (i 1).val = (j 1).val) :
    addf (matmul (DotDims.plain m K N) prec (truncf .bf16 (shapeCast ⟨2, ![m, K]⟩ x0 hc0) ht) (truncf .bf16 w ht)
          (constant (F := Ideal) ⟨2, ![m, N]⟩ .f32 0x00000000#32))
        (broadcastTo ⟨2, ![m, N]⟩ (shapeCast ⟨2, ![1, N]⟩ x2 hc2) hb2) j
      = addf (Host.dotGeneral (DotDims.plain M K N) prec' X W) (broadcastInDim ⟨2, ![M, N]⟩ ![0, 1] hB B) i := by
  rw [addf_apply, addf_apply]
  have hdot := LibRowBlockDot.matmul_rowBlock_apply_idx prec prec' X W
    (truncf .bf16 (shapeCast ⟨2, ![m, K]⟩ x0 hc0) ht) (truncf .bf16 w ht) row
    (fun a c => by rw [truncf_apply, shapeCast_self, h0]) (fun c b => by rw [truncf_apply, hw]) j i hi0 hi1
  rw [hdot]
  obtain ⟨a, b, rfl⟩ : ∃ (a : Fin m) (b : Fin N), j = ix2 a b := ⟨j 0, j 1, eq_ix2 j⟩
  obtain rfl : i = ix2 (row a) b := by
    rw [eq_ix2 i]
    exact congrArg₂ ix2 (Fin.ext hi0) (Fin.ext hi1)
  congr 1
  rw [broadcastTo_1b_ab_apply, shapeCast_self, h2, broadcastInDim_oneRow_apply]

end Cert.LibGcnBlocks

end
-- ==== Proof.RegionsAPay.lean ====
/-
  The dense node-tile bodies of the graph convolution, read entry by entry.

  A tile holds m = 5000 consecutive rows of each node-indexed operand: tile row a stands for array row `row a`. The
  combine body scales the rows of its tile of u by its tile of the per-node column s, multiplies by the weight matrix
  W into a zero accumulator, does the same with its tile of h and the matrix L (unscaled), and adds the two products;
  the prescale body is the first product alone, into 40 columns. Row r of a matrix product X·W depends on row r of X
  alone, and scaling rows is row-wise, so entry (a, b) of what the body computes is entry (row a, b) of the same
  formula applied to the whole arrays: (u·s)·W + h·L, respectively (h·s)·W. A change of float format is the identity on
  extended reals and the accumulator is zero, so no law of real arithmetic is used: the statements hold at the
  infinities too.
-/
import proofs.«124566_j44289702756373_1_alg».proof.Proof.Spec
import proofs.«124566_j44289702756373_1_alg».proof.Proof.Gen.KernelIdeal.Skeleton
import proofs.«124566_j44289702756373_1_alg».proof.Proof.LibGcnBlocks

noncomputable section

namespace Cert.KernelIdeal.RegionsA

open Idealize.ShloMosaic Idealize.ShloMosaic.ValueIdx
open Cert.KernelIdeal Cert.KernelIdeal.Gen

/-! ## The printed product records are the plain ones -/

theorem tileDot128_plain : dot_S5000x128_S128x128_S5000x128_1_0_0_1_n_n = DotDims.plain 5000 128 128 := rfl
theorem tileDot40_plain : dot_S5000x128_S128x40_S5000x40_1_0_0_1_n_n = DotDims.plain 5000 128 40 := rfl
theorem wholeDot128_plain :
    Cert.ReferenceIdeal.dot_S100000x128_S128x128_S100000x128_1_0_0_1_n_n = DotDims.plain 100000 128 128 := rfl
theorem wholeDot40_plain :
    Cert.ReferenceIdeal.dot_S100000x128_S128x40_S100000x40_1_0_0_1_n_n = DotDims.plain 100000 128 40 := rfl

/-! ## The scaled product of a tile -/

/-- Entry (a, b) of (tile of u · tile of s) · W into the zero accumulator is entry (row a, b) of (u · s) · W. -/
theorem scaledTile_apply {N : Nat} (U : FVec Ideal ⟨2, ![100000, 128]⟩ .f32) (s : FVec Ideal ⟨2, ![100000, 1]⟩ .f32)
    (W : FVec Ideal ⟨2, ![128, N]⟩ .f32)
    (x0 : FVec Ideal ⟨2, ![5000, 128]⟩ .f32) (x1 : FVec Ideal ⟨2, ![5000, 1]⟩ .f32) (x2 : FVec Ideal ⟨2, ![128, N]⟩ .f32)
    (row : Fin 5000 → Fin 100000)
    (h0 : ∀ a c, x0 (ix2 a c) = U (ix2 (row a) c))
    (h1 : ∀ a, x1 (ix2 a (0 : Fin 1)) = s (ix2 (row a) (0 : Fin 1)))
    (h2 : ∀ c b, x2 (ix2 c b) = W (ix2 c b))
    (hc0 : (⟨2, ![5000, 128]⟩ : Shape).ShapeCasts ⟨2, ![5000, 128]⟩)
    (hc1 : (⟨2, ![5000, 1]⟩ : Shape).ShapeCasts ⟨2, ![5000, 1]⟩)
    (hc2 : (⟨2, ![128, N]⟩ : Shape).ShapeCasts ⟨2, ![128, N]⟩)
    (hb : (⟨2, ![5000, 1]⟩ : Shape).Broadcasts ⟨2, ![5000, 128]⟩)
    (hB : (⟨2, ![100000, 1]⟩ : Shape).BroadcastsInDim ⟨2, ![100000, 128]⟩ ![0, 1])
    (ht : FTy.bf16.bits < FTy.f32.bits) (a : Fin 5000) (b : Fin N) :
    matmul (DotDims.plain 5000 128 N) none
        (truncf .bf16 (mulf (shapeCast ⟨2, ![5000, 128]⟩ x0 hc0)
          (broadcastTo ⟨2, ![5000, 128]⟩ (shapeCast ⟨2, ![5000, 1]⟩ x1 hc1) hb)) ht)
        (truncf .bf16 (shapeCast ⟨2, ![128, N]⟩ x2 hc2) ht)
        (constant (F := Ideal) ⟨2, ![5000, N]⟩ .f32 0x00000000#32) (ix2 a b)
      = Host.dotGeneral (DotDims.plain 100000 128 N) none
          (mulf U (broadcastInDim ⟨2, ![100000, 128]⟩ ![0, 1] hB s)) W (ix2 (row a) b) :=
  Cert.LibGcnBlocks.scaledDot_block (by decide) none none U s W (shapeCast ⟨2, ![5000, 128]⟩ x0 hc0) x1
    (shapeCast ⟨2, ![128, N]⟩ x2 hc2) row (fun a c => by rw [shapeCast_self]; exact h0 a c) h1
    (fun c b => by rw [shapeCast_self]; exact h2 c b) hc1 hb hB ht (ix2 a b) (ix2 (row a) b) rfl rfl

/-- Entry (a, b) of (tile of h) · L into the zero accumulator is entry (row a, b) of h · L. -/
theorem plainTile_apply (H : FVec Ideal ⟨2, ![100000, 128]⟩ .f32) (L : FVec Ideal ⟨2, ![128, 128]⟩ .f32)
    (x3 : FVec Ideal ⟨2, ![5000, 128]⟩ .f32) (x4 : FVec Ideal ⟨2, ![128, 128]⟩ .f32)
    (row : Fin 5000 → Fin 100000)
    (h3 : ∀ a c, x3 (ix2 a c) = H (ix2 (row a) c))
    (h4 : ∀ c b, x4 (ix2 c b) = L (ix2 c b))
    (hc2 : (⟨2, ![128, 128]⟩ : Shape).ShapeCasts ⟨2, ![128, 128]⟩)
    (ht : FTy.bf16.bits < FTy.f32.bits) (a : Fin 5000) (b : Fin 128) :
    matmul (DotDims.plain 5000 128 128) none (truncf .bf16 x3 ht)
        (truncf .bf16 (shapeCast ⟨2, ![128, 128]⟩ x4 hc2) ht)
        (constant (F := Ideal) ⟨2, ![5000, 128]⟩ .f32 0x00000000#32) (ix2 a b)
      = Host.dotGeneral (DotDims.plain 100000 128 128) none H L (ix2 (row a) b) :=
  Cert.LibRowBlockDot.matmul_rowBlock_apply none none H L _ _ row
    (fun a c => by rw [truncf_apply, h3]) (fun c b => by rw [truncf_apply, shapeCast_self, h4]) a b

/-! ## The three bodies -/

/-- The first combine body at (a, b) is (u·s)·W + h·L at (row a, b). -/
theorem combine0_apply (U : Cert.Spec.FV S100000x128) (s : Cert.Spec.FV S100000x1) (W : Cert.Spec.FV S128x128)
    (H : Cert.Spec.FV S100000x128) (L : Cert.Spec.FV S128x128)
    (x0 : Vec Ideal S5000x128 .f32) (x1 : Vec Ideal S5000x1 .f32) (x2 : Vec Ideal S128x128 .f32)
    (x3 : Vec Ideal S5000x128 .f32) (x4 : Vec Ideal S128x128 .f32) (row : Fin 5000 → Fin 100000)
    (h0 : ∀ a c, x0 (ix2 a c) = U (ix2 (row a) c))
    (h1 : ∀ a, x1 (ix2 a (0 : Fin 1)) = s (ix2 (row a) (0 : Fin 1)))
    (h2 : ∀ c b, x2 (ix2 c b) = W (ix2 c b))
    (h3 : ∀ a c, x3 (ix2 a c) = H (ix2 (row a) c))
    (h4 : ∀ c b, x4 (ix2 c b) = L (ix2 c b)) (a : Fin 5000) (b : Fin 128) :
    k0_pay1 x0 x1 x2 x3 x4 (ix2 a b) = Cert.Spec.combineH U s W H L (ix2 (row a) b) := by
  unfold k0_pay1 Cert.Spec.combineH Cert.Spec.dot128 Cert.Spec.bcol128
  rw [tileDot128_plain, wholeDot128_plain]
  refine (addf_apply _ _ _).trans (Eq.trans ?_ (addf_apply _ _ _).symm)
  exact congrArg₂ _ (scaledTile_apply U s W x0 x1 x2 row h0 h1 h2 _ _ _ _ _ _ a b)
    (plainTile_apply H L x3 x4 row h3 h4 _ _ a b)

/-- The second combine body (its tile of h passes through one more identity reshape) at (a, b) is (u·s)·W + h·L at
    (row a, b). -/
theorem combine2_apply (U : Cert.Spec.FV S100000x128) (s : Cert.Spec.FV S100000x1) (W : Cert.Spec.FV S128x128)
    (H : Cert.Spec.FV S100000x128) (L : Cert.Spec.FV S128x128)
    (x0 : Vec Ideal S5000x128 .f32) (x1 : Vec Ideal S5000x1 .f32) (x2 : Vec Ideal S128x128 .f32)
    (x3 : Vec Ideal S5000x128 .f32) (x4 : Vec Ideal S128x128 .f32) (row : Fin 5000 → Fin 100000)
    (h0 : ∀ a c, x0 (ix2 a c) = U (ix2 (row a) c))
    (h1 : ∀ a, x1 (ix2 a (0 : Fin 1)) = s (ix2 (row a) (0 : Fin 1)))
    (h2 : ∀ c b, x2 (ix2 c b) = W (ix2 c b))
    (h3 : ∀ a c, x3 (ix2 a c) = H (ix2 (row a) c))
    (h4 : ∀ c b, x4 (ix2 c b) = L (ix2 c b)) (a : Fin 5000) (b : Fin 128) :
    k2_pay1 x0 x1 x2 x3 x4 (ix2 a b) = Cert.Spec.combineH U s W H L (ix2 (row a) b) := by
  unfold k2_pay1 Cert.Spec.combineH Cert.Spec.dot128 Cert.Spec.bcol128
  rw [tileDot128_plain, wholeDot128_plain]
  refine (addf_apply _ _ _).trans (Eq.trans ?_ (addf_apply _ _ _).symm)
  exact congrArg₂ _ (scaledTile_apply U s W x0 x1 x2 row h0 h1 h2 _ _ _ _ _ _ a b)
    (plainTile_apply H L (shapeCast S5000x128 x3 shapeCasts_S5000x128_S5000x128) x4 row
      (fun a c => by rw [shapeCast_self]; exact h3 a c) h4 _ _ a b)

/-- The prescale body at (a, b) is (h·s)·W at (row a, b), 40 columns. -/
theorem prescale_apply (H : Cert.Spec.FV S100000x128) (s : Cert.Spec.FV S100000x1) (W : Cert.Spec.FV S128x40)
    (x0 : Vec Ideal S5000x128 .f32) (x1 : Vec Ideal S5000x1 .f32) (x2 : Vec Ideal S128x40 .f32)
    (row : Fin 5000 → Fin 100000)
    (h0 : ∀ a c, x0 (ix2 a c) = H (ix2 (row a) c))
    (h1 : ∀ a, x1 (ix2 a (0 : Fin 1)) = s (ix2 (row a) (0 : Fin 1)))
    (h2 : ∀ c b, x2 (ix2 c b) = W (ix2 c b)) (a : Fin 5000) (b : Fin 40) :
    k4_pay1 x0 x1 x2 (ix2 a b) = Cert.Spec.prescaleH H s W (ix2 (row a) b) := by
  unfold k4_pay1 Cert.Spec.prescaleH Cert.Spec.dot40 Cert.Spec.bcol128
  rw [tileDot40_plain, wholeDot40_plain]
  exact scaledTile_apply H s W x0 x1 x2 row h0 h1 h2 _ _ _ _ _ _ a b

end Cert.KernelIdeal.RegionsA

end
-- ==== Proof.RegionsA0.lean ====
/-
  What the first combine kernel writes, as a whole-array function.

  The grid has 20 points; point t holds rows 5000·t … 5000·t + 4999 of u, of the per-node column s and of h, and the
  whole of the two weight matrices, and writes rows 5000·t … of the output. Every node-indexed window's block index
  at point t is (t, 0) and every weight window's is (0, 0) (decided once over the grid), so entry (a, b) of a block
  is entry (5000·t + a, b) of its array, respectively entry (a, b) of the matrix. With the body read entry by entry
  this makes what point t writes back rows 5000·t … of (u·s)·W + h·L of the whole arrays; row r lies in the block of
  point r / 5000, so the 20 blocks cover the output array, which therefore ends holding that function.
-/
import proofs.«124566_j44289702756373_1_alg».proof.Proof.RegionsAPay
import proofs.«124566_j44289702756373_1_alg».proof.Proof.Gen.KernelIdeal.Frame
import Idealize.ShloMosaic.Lib.Pipeline.Value

noncomputable section

namespace Cert.KernelIdeal.RegionsA

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem zeroOffsets0 : (![0, 0] : Fin 2 → Nat) = fun _ => 0 := funext fun a => by fin_cases a <;> rfl

/-- Row a of the tile of grid point t is row 5000·t + a of the node axis. -/
def tileRow0 (t : Fin cfg0.N) (a : Fin 5000) : Fin 100000 :=
  ⟨5000 * t.val + a.val, by have := a.isLt; have ht : t.val < 20 := lt_of_lt_of_eq t.isLt N_0; omega⟩

/-- The printed index maps, decided over the grid: a node-indexed window's block index at point t is (t, 0), a weight
    window's is (0, 0). -/
theorem blockIndex0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The tile of u at point t: entry (a, b) is entry (5000·t + a, b) of the array. -/
theorem tile0_0 (t : Fin cfg0.N) (x : S5000x128.Idx) (k : S100000x128.Idx)
    (hk0 : (k 0).val = 5000 * t.val + (x 0).val) (hk1 : (k 1).val = (x 1).val) :
    (iblk0 V c 0 t : Vec Ideal S5000x128 .f32) x = (V c main_v32 : S100000x128.Idx → Elt Ideal .f32) k := by
  obtain ⟨e0, e1, -⟩ := blockIndex0 t
  unfold iblk0
  rw [View.read_apply]
  show V c main_v32 _ = V c main_v32 _
  congr 1
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 128 + 1 * (x 1).val = (k 1).val; rw [e1, hk1]; omega

/-- The tile of the per-node column s at point t: entry (a, 0) is entry (5000·t + a, 0) of the array. -/
theorem tile0_1 (t : Fin cfg0.N) (x : S5000x1.Idx) (k : S100000x1.Idx)
    (hk0 : (k 0).val = 5000 * t.val + (x 0).val) (hk1 : (k 1).val = (x 1).val) :
    (iblk0 V c 1 t : Vec Ideal S5000x1 .f32) x = (V c main_v14 : S100000x1.Idx → Elt Ideal .f32) k := by
  obtain ⟨-, -, e0, e1, -⟩ := blockIndex0 t
  unfold iblk0
  rw [View.read_apply]
  show V c main_v14 _ = V c main_v14 _
  congr 1
  funext a
  apply Fin.ext
  match a with
  | ⟨0, _⟩ => show win0_1.index t (0 : Fin 2) * 5000 + 1 * (x 0).val = (k 0).val; rw [e0, hk0]; omega
  | ⟨1, _⟩ => show win0_1.index t (1 : Fin 2) * 1 + 1 * (x 1).val = (k 1).val; rw [e1, hk1]; omega

/-- The block of W at every point is the whole matrix. -/
theorem tile0_2 (t : Fin cfg0.N) (x : S128x128.Idx) (k : S128x128.Idx)
    (hk0 : (k 0).val = (x 0).val) (hk1 : (k 1).val = (x 1).val) :
    (iblk0 V c 2 t : Vec Ideal S128x128 .f32) x = (V c main_v15 : S128x128.Idx → Elt Ideal .f32) k := by
  obtain ⟨-, -, -, -, e0, e1, -⟩ := blockIndex0 t
  unfold iblk0
  rw [View.read_apply]
  show V c main_v15 _ = V c main_v15 _
  congr 1
  funext a
  apply Fin.ext
  match a with
  | ⟨0, _⟩ => show win0_2.index t (0 : Fin 2) * 128 + 1 * (x 0).val = (k 0).val; rw [e0, hk0]; omega
  | ⟨1, _⟩ => show win0_2.index t (1 : Fin 2) * 128 + 1 * (x 1).val = (k 1).val; rw [e1, hk1]; omega

/-- The tile of h at point t: entry (a, b) is entry (5000·t + a, b) of the array. -/
theorem tile0_3 (t : Fin cfg0.N) (x : S5000x128.Idx) (k : S100000x128.Idx)
    (hk0 : (k 0).val = 5000 * t.val + (x 0).val) (hk1 : (k 1).val = (x 1).val) :
    (iblk0 V c 3 t : Vec Ideal S5000x128 .f32) x = (V c main_arg0 : S100000x128.Idx → Elt Ideal .f32) k := by
  obtain ⟨-, -, -, -, -, -, e0, e1, -⟩ := blockIndex0 t
  unfold iblk0
  rw [View.read_apply]
  show V c main_arg0 _ = V c main_arg0 _
  congr 1
  funext a
  apply Fin.ext
  match a with
  | ⟨0, _⟩ => show win0_3.index t (0 : Fin 2) * 5000 + 1 * (x 0).val = (k 0).val; rw [e0, hk0]; omega
  | ⟨1, _⟩ => show win0_3.index t (1 : Fin 2) * 128 + 1 * (x 1).val = (k 1).val; rw [e1, hk1]; omega

/-- The block of L at every point is the whole matrix. -/
theorem tile0_4 (t : Fin cfg0.N) (x : S128x128.Idx) (k : S128x128.Idx)
    (hk0 : (k 0).val = (x 0).val) (hk1 : (k 1).val = (x 1).val) :
    (iblk0 V c 4 t : Vec Ideal S128x128 .f32) x = (V c main_v16 : S128x128.Idx → Elt Ideal .f32) k := by
  obtain ⟨-, -, -, -, -, -, -, -, e0, e1, -⟩ := blockIndex0 t
  unfold iblk0
  rw [View.read_apply]
  show V c main_v16 _ = V c main_v16 _
  congr 1
  funext a
  apply Fin.ext
  match a with
  | ⟨0, _⟩ => show win0_4.index t (0 : Fin 2) * 128 + 1 * (x 0).val = (k 0).val; rw [e0, hk0]; omega
  | ⟨1, _⟩ => show win0_4.index t (1 : Fin 2) * 128 + 1 * (x 1).val = (k 1).val; rw [e1, hk1]; omega

/-- The body on blocks that are rows 5000·t … of the arrays, at a block entry j, is the whole-array function at the
    array entry i with i = (5000·t + j₀, j₁). -/
theorem combine0_at (U : Cert.Spec.FV S100000x128) (s : Cert.Spec.FV S100000x1) (W : Cert.Spec.FV S128x128)
    (H : Cert.Spec.FV S100000x128) (L : Cert.Spec.FV S128x128)
    (x0 : Vec Ideal S5000x128 .f32) (x1 : Vec Ideal S5000x1 .f32) (x2 : Vec Ideal S128x128 .f32)
    (x3 : Vec Ideal S5000x128 .f32) (x4 : Vec Ideal S128x128 .f32) (t : Fin cfg0.N)
    (h0 : ∀ a c, x0 (ix2 a c) = U (ix2 (tileRow0 t a) c))
    (h1 : ∀ a, x1 (ix2 a (0 : Fin 1)) = s (ix2 (tileRow0 t a) (0 : Fin 1)))
    (h2 : ∀ c b, x2 (ix2 c b) = W (ix2 c b))
    (h3 : ∀ a c, x3 (ix2 a c) = H (ix2 (tileRow0 t a) c))
    (h4 : ∀ c b, x4 (ix2 c b) = L (ix2 c b))
    (j : S5000x128.Idx) (i : S100000x128.Idx)
    (hi0 : (i 0).val = 5000 * t.val + (j 0).val) (hi1 : (i 1).val = (j 1).val) :
    k0_pay1 x0 x1 x2 x3 x4 j = Cert.Spec.combineH U s W H L i := by
  obtain ⟨a, b, rfl⟩ : ∃ (a : Fin 5000) (b : Fin 128), j = ix2 a b := ⟨j 0, j 1, eq_ix2 j⟩
  obtain rfl : i = ix2 (tileRow0 t a) b := by
    rw [eq_ix2 i]
    exact congrArg₂ ix2 (Fin.ext hi0) (Fin.ext hi1)
  exact combine0_apply U s W H L x0 x1 x2 x3 x4 (tileRow0 t) h0 h1 h2 h3 h4 a b

/-- What point t writes back is rows 5000·t … of (u·s)·W + h·L of the arrays as the region finds them. -/
theorem flushed0 (t : Fin cfg0.N) :
    (dat0 (F := Ideal) V c).flushed 5 t = ((cfg0.win 5).blk t).view.read (Elt Ideal)
      (Cert.Spec.combineH (V c main_v32) (V c main_v14) (V c main_v15) (V c main_arg0) (V c main_v16)) := by
  show (cfg0.win 5).cut (grid0.coords t) ((dat0 (F := Ideal) V c).after 5 t) = _
  rw [after0_5]
  unfold out0_5
  rw [View.canon_unit_zero zeroOffsets0]
  simp only [View.ld_unit_zero (S := S5000x128) zeroOffsets0, View.ld_unit_zero (S := S5000x1) zeroOffsets0,
    View.ld_unit_zero (S := S128x128) zeroOffsets0]
  obtain ⟨-, -, -, -, -, -, -, -, -, -, e0, e1⟩ := blockIndex0 t
  funext j
  show k0_pay1 (iblk0 V c 0 t) (iblk0 V c 1 t) (iblk0 V c 2 t) (iblk0 V c 3 t) (iblk0 V c 4 t) j
    = Cert.Spec.combineH (V c main_v32) (V c main_v14) (V c main_v15) (V c main_arg0) (V c main_v16)
        (((cfg0.win 5).blk t).view.emb j)
  refine combine0_at (V c main_v32) (V c main_v14) (V c main_v15) (V c main_arg0) (V c main_v16) _ _ _ _ _ t
    (fun a b => tile0_0 V c t (ix2 a b) (ix2 (tileRow0 t a) b) rfl rfl)
    (fun a => tile0_1 V c t (ix2 a (0 : Fin 1)) (ix2 (tileRow0 t a) (0 : Fin 1)) rfl rfl)
    (fun a b => tile0_2 V c t (ix2 a b) (ix2 a b) rfl rfl)
    (fun a b => tile0_3 V c t (ix2 a b) (ix2 (tileRow0 t a) b) rfl rfl)
    (fun a b => tile0_4 V c t (ix2 a b) (ix2 a b) rfl rfl) j _ ?_ ?_
  · show win0_5.index t (0 : Fin 2) * 5000 + 1 * (j 0).val = 5000 * t.val + (j 0).val
    rw [e0]; omega
  · show win0_5.index t (1 : Fin 2) * 128 + 1 * (j 1).val = (j 1).val
    rw [e1]; omega

/-- An index of the output array is in point t's block iff each coordinate is in the block's range on its axis. -/
theorem mem_block0 (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v33).slice (win0_5.rect t)).set ↔ _
  rw [View.set_slice_whole, Rect.mem_set_unit]
  exact Iff.rfl

/-- Every entry of the output array lies in the block of a point that writes back: row r in that of point r / 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, by rw [show cfg0.N = 20 from N_0]; omega⟩, rfl⟩
  obtain ⟨-, -, -, -, -, -, -, -, -, -, e0, e1⟩ := blockIndex0 t
  refine ⟨t, flush0_5 t, ?_⟩
  rw [mem_block0]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the region the output array holds (u·s)·W + h·L of the operand arrays as the region found them. -/
theorem region0 : (Gen.dat0 (F := Ideal) V c).arrAt 5 cfg0.N
    = Cert.Spec.combineH (V c main_v32) (V c main_v14) (V c main_v15) (V c main_arg0) (V c main_v16) :=
  (dat0 (F := Ideal) V c).arrAt_eq_of_cover 5 _ (fun t _ => flushed0 V c t) cover0

end Cert.KernelIdeal.RegionsA

end
-- ==== Proof.RegionsA2.lean ====
/-
  What the second combine kernel writes, as a whole-array function.

  The grid has 20 points; point t holds rows 5000·t … 5000·t + 4999 of u, of the per-node column s and of h, and the
  whole of the two weight matrices, and writes rows 5000·t … of the output. Every node-indexed window's block index
  at point t is (t, 0) and every weight window's is (0, 0) (decided once over the grid), so entry (a, b) of a block
  is entry (5000·t + a, b) of its array, respectively entry (a, b) of the matrix. With the body read entry by entry
  this makes what point t writes back rows 5000·t … of (u·s)·W + h·L of the whole arrays; row r lies in the block of
  point r / 5000, so the 20 blocks cover the output array, which therefore ends holding that function.
-/
import proofs.«124566_j44289702756373_1_alg».proof.Proof.RegionsAPay
import proofs.«124566_j44289702756373_1_alg».proof.Proof.Gen.KernelIdeal.Frame
import Idealize.ShloMosaic.Lib.Pipeline.Value

noncomputable section

namespace Cert.KernelIdeal.RegionsA

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem zeroOffsets2 : (![0, 0] : Fin 2 → Nat) = fun _ => 0 := funext fun a => by fin_cases a <;> rfl

/-- Row a of the tile of grid point t is row 5000·t + a of the node axis. -/
def tileRow2 (t : Fin cfg2.N) (a : Fin 5000) : Fin 100000 :=
  ⟨5000 * t.val + a.val, by have := a.isLt; have ht : t.val < 20 := lt_of_lt_of_eq t.isLt N_2; omega⟩

/-- The printed index maps, decided over the grid: a node-indexed window's block index at point t is (t, 0), a weight
    window's is (0, 0). -/
theorem blockIndex2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The tile of u at point t: entry (a, b) is entry (5000·t + a, b) of the array. -/
theorem tile2_0 (t : Fin cfg2.N) (x : S5000x128.Idx) (k : S100000x128.Idx)
    (hk0 : (k 0).val = 5000 * t.val + (x 0).val) (hk1 : (k 1).val = (x 1).val) :
    (iblk2 V c 0 t : Vec Ideal S5000x128 .f32) x = (V c main_v53 : S100000x128.Idx → Elt Ideal .f32) k := by
  obtain ⟨e0, e1, -⟩ := blockIndex2 t
  unfold iblk2
  rw [View.read_apply]
  show V c main_v53 _ = V c main_v53 _
  congr 1
  funext a
  apply Fin.ext
  match a with
  | ⟨0, _⟩ => show win2_0.index t (0 : Fin 2) * 5000 + 1 * (x 0).val = (k 0).val; rw [e0, hk0]; omega
  | ⟨1, _⟩ => show win2_0.index t (1 : Fin 2) * 128 + 1 * (x 1).val = (k 1).val; rw [e1, hk1]; omega

/-- The tile of the per-node column s at point t: entry (a, 0) is entry (5000·t + a, 0) of the array. -/
theorem tile2_1 (t : Fin cfg2.N) (x : S5000x1.Idx) (k : S100000x1.Idx)
    (hk0 : (k 0).val = 5000 * t.val + (x 0).val) (hk1 : (k 1).val = (x 1).val) :
    (iblk2 V c 1 t : Vec Ideal S5000x1 .f32) x = (V c main_v14 : S100000x1.Idx → Elt Ideal .f32) k := by
  obtain ⟨-, -, e0, e1, -⟩ := blockIndex2 t
  unfold iblk2
  rw [View.read_apply]
  show V c main_v14 _ = V c main_v14 _
  congr 1
  funext a
  apply Fin.ext
  match a with
  | ⟨0, _⟩ => show win2_1.index t (0 : Fin 2) * 5000 + 1 * (x 0).val = (k 0).val; rw [e0, hk0]; omega
  | ⟨1, _⟩ => show win2_1.index t (1 : Fin 2) * 1 + 1 * (x 1).val = (k 1).val; rw [e1, hk1]; omega

/-- The block of W at every point is the whole matrix. -/
theorem tile2_2 (t : Fin cfg2.N) (x : S128x128.Idx) (k : S128x128.Idx)
    (hk0 : (k 0).val = (x 0).val) (hk1 : (k 1).val = (x 1).val) :
    (iblk2 V c 2 t : Vec Ideal S128x128 .f32) x = (V c main_v17 : S128x128.Idx → Elt Ideal .f32) k := by
  obtain ⟨-, -, -, -, e0, e1, -⟩ := blockIndex2 t
  unfold iblk2
  rw [View.read_apply]
  show V c main_v17 _ = V c main_v17 _
  congr 1
  funext a
  apply Fin.ext
  match a with
  | ⟨0, _⟩ => show win2_2.index t (0 : Fin 2) * 128 + 1 * (x 0).val = (k 0).val; rw [e0, hk0]; omega
  | ⟨1, _⟩ => show win2_2.index t (1 : Fin 2) * 128 + 1 * (x 1).val = (k 1).val; rw [e1, hk1]; omega

/-- The tile of h at point t: entry (a, b) is entry (5000·t + a, b) of the array. -/
theorem tile2_3 (t : Fin cfg2.N) (x : S5000x128.Idx) (k : S100000x128.Idx)
    (hk0 : (k 0).val = 5000 * t.val + (x 0).val) (hk1 : (k 1).val = (x 1).val) :
    (iblk2 V c 3 t : Vec Ideal S5000x128 .f32) x = (V c main_v41 : S100000x128.Idx → Elt Ideal .f32) k := by
  obtain ⟨-, -, -, -, -, -, e0, e1, -⟩ := blockIndex2 t
  unfold iblk2
  rw [View.read_apply]
  show V c main_v41 _ = V c main_v41 _
  congr 1
  funext a
  apply Fin.ext
  match a with
  | ⟨0, _⟩ => show win2_3.index t (0 : Fin 2) * 5000 + 1 * (x 0).val = (k 0).val; rw [e0, hk0]; omega
  | ⟨1, _⟩ => show win2_3.index t (1 : Fin 2) * 128 + 1 * (x 1).val = (k 1).val; rw [e1, hk1]; omega

/-- The block of L at every point is the whole matrix. -/
theorem tile2_4 (t : Fin cfg2.N) (x : S128x128.Idx) (k : S128x128.Idx)
    (hk0 : (k 0).val = (x 0).val) (hk1 : (k 1).val = (x 1).val) :
    (iblk2 V c 4 t : Vec Ideal S128x128 .f32) x = (V c main_v18 : S128x128.Idx → Elt Ideal .f32) k := by
  obtain ⟨-, -, -, -, -, -, -, -, e0, e1, -⟩ := blockIndex2 t
  unfold iblk2
  rw [View.read_apply]
  show V c main_v18 _ = V c main_v18 _
  congr 1
  funext a
  apply Fin.ext
  match a with
  | ⟨0, _⟩ => show win2_4.index t (0 : Fin 2) * 128 + 1 * (x 0).val = (k 0).val; rw [e0, hk0]; omega
  | ⟨1, _⟩ => show win2_4.index t (1 : Fin 2) * 128 + 1 * (x 1).val = (k 1).val; rw [e1, hk1]; omega

/-- The body on blocks that are rows 5000·t … of the arrays, at a block entry j, is the whole-array function at the
    array entry i with i = (5000·t + j₀, j₁). -/
theorem combine2_at (U : Cert.Spec.FV S100000x128) (s : Cert.Spec.FV S100000x1) (W : Cert.Spec.FV S128x128)
    (H : Cert.Spec.FV S100000x128) (L : Cert.Spec.FV S128x128)
    (x0 : Vec Ideal S5000x128 .f32) (x1 : Vec Ideal S5000x1 .f32) (x2 : Vec Ideal S128x128 .f32)
    (x3 : Vec Ideal S5000x128 .f32) (x4 : Vec Ideal S128x128 .f32) (t : Fin cfg2.N)
    (h0 : ∀ a c, x0 (ix2 a c) = U (ix2 (tileRow2 t a) c))
    (h1 : ∀ a, x1 (ix2 a (0 : Fin 1)) = s (ix2 (tileRow2 t a) (0 : Fin 1)))
    (h2 : ∀ c b, x2 (ix2 c b) = W (ix2 c b))
    (h3 : ∀ a c, x3 (ix2 a c) = H (ix2 (tileRow2 t a) c))
    (h4 : ∀ c b, x4 (ix2 c b) = L (ix2 c b))
    (j : S5000x128.Idx) (i : S100000x128.Idx)
    (hi0 : (i 0).val = 5000 * t.val + (j 0).val) (hi1 : (i 1).val = (j 1).val) :
    k2_pay1 x0 x1 x2 x3 x4 j = Cert.Spec.combineH U s W H L i := by
  obtain ⟨a, b, rfl⟩ : ∃ (a : Fin 5000) (b : Fin 128), j = ix2 a b := ⟨j 0, j 1, eq_ix2 j⟩
  obtain rfl : i = ix2 (tileRow2 t a) b := by
    rw [eq_ix2 i]
    exact congrArg₂ ix2 (Fin.ext hi0) (Fin.ext hi1)
  exact combine2_apply U s W H L x0 x1 x2 x3 x4 (tileRow2 t) h0 h1 h2 h3 h4 a b

/-- What point t writes back is rows 5000·t … of (u·s)·W + h·L of the arrays as the region finds them. -/
theorem flushed2 (t : Fin cfg2.N) :
    (dat2 (F := Ideal) V c).flushed 5 t = ((cfg2.win 5).blk t).view.read (Elt Ideal)
      (Cert.Spec.combineH (V c main_v53) (V c main_v14) (V c main_v17) (V c main_v41) (V c main_v18)) := by
  show (cfg2.win 5).cut (grid2.coords t) ((dat2 (F := Ideal) V c).after 5 t) = _
  rw [after2_5]
  unfold out2_5
  rw [View.canon_unit_zero zeroOffsets2]
  simp only [View.ld_unit_zero (S := S5000x128) zeroOffsets2, View.ld_unit_zero (S := S5000x1) zeroOffsets2,
    View.ld_unit_zero (S := S128x128) zeroOffsets2]
  obtain ⟨-, -, -, -, -, -, -, -, -, -, e0, e1⟩ := blockIndex2 t
  funext j
  show k2_pay1 (iblk2 V c 0 t) (iblk2 V c 1 t) (iblk2 V c 2 t) (iblk2 V c 3 t) (iblk2 V c 4 t) j
    = Cert.Spec.combineH (V c main_v53) (V c main_v14) (V c main_v17) (V c main_v41) (V c main_v18)
        (((cfg2.win 5).blk t).view.emb j)
  refine combine2_at (V c main_v53) (V c main_v14) (V c main_v17) (V c main_v41) (V c main_v18) _ _ _ _ _ t
    (fun a b => tile2_0 V c t (ix2 a b) (ix2 (tileRow2 t a) b) rfl rfl)
    (fun a => tile2_1 V c t (ix2 a (0 : Fin 1)) (ix2 (tileRow2 t a) (0 : Fin 1)) rfl rfl)
    (fun a b => tile2_2 V c t (ix2 a b) (ix2 a b) rfl rfl)
    (fun a b => tile2_3 V c t (ix2 a b) (ix2 (tileRow2 t a) b) rfl rfl)
    (fun a b => tile2_4 V c t (ix2 a b) (ix2 a b) rfl rfl) j _ ?_ ?_
  · show win2_5.index t (0 : Fin 2) * 5000 + 1 * (j 0).val = 5000 * t.val + (j 0).val
    rw [e0]; omega
  · show win2_5.index t (1 : Fin 2) * 128 + 1 * (j 1).val = (j 1).val
    rw [e1]; omega

/-- An index of the output array is in point t's block iff each coordinate is in the block's range on its axis. -/
theorem mem_block2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v54).slice (win2_5.rect t)).set ↔ _
  rw [View.set_slice_whole, Rect.mem_set_unit]
  exact Iff.rfl

/-- Every entry of the output array lies in the block of a point that writes back: row r in that of point r / 5000. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, by rw [show cfg2.N = 20 from N_2]; omega⟩, rfl⟩
  obtain ⟨-, -, -, -, -, -, -, -, -, -, e0, e1⟩ := blockIndex2 t
  refine ⟨t, flush2_5 t, ?_⟩
  rw [mem_block2]
  intro a
  match a with
  | ⟨0, _⟩ =>
    show win2_5.index t (0 : Fin 2) * 5000 ≤ (i 0).val ∧ (i 0).val < win2_5.index t (0 : Fin 2) * 5000 + 5000
    rw [e0, ht]; omega
  | ⟨1, _⟩ =>
    show win2_5.index t (1 : Fin 2) * 128 ≤ (i 1).val ∧ (i 1).val < win2_5.index t (1 : Fin 2) * 128 + 128
    rw [e1]; omega

/-- After the region the output array holds (u·s)·W + h·L of the operand arrays as the region found them. -/
theorem region2 : (Gen.dat2 (F := Ideal) V c).arrAt 5 cfg2.N
    = Cert.Spec.combineH (V c main_v53) (V c main_v14) (V c main_v17) (V c main_v41) (V c main_v18) :=
  (dat2 (F := Ideal) V c).arrAt_eq_of_cover 5 _ (fun t _ => flushed2 V c t) cover2

end Cert.KernelIdeal.RegionsA

end
-- ==== Proof.RegionsA4.lean ====
/-
  What the prescale kernel writes, as a whole-array function.

  The grid has 20 points; point t holds rows 5000·t … 5000·t + 4999 of h and of the per-node column s and the whole
  of the weight matrix, and writes rows 5000·t … of the 40-column output. Every node-indexed window's block index at
  point t is (t, 0) and the weight window's is (0, 0) (decided once over the grid), so entry (a, b) of a block is
  entry (5000·t + a, b) of its array, respectively entry (a, b) of the matrix. With the body read entry by entry this
  makes what point t writes back rows 5000·t … of (h·s)·W of the whole arrays; row r lies in the block of point
  r / 5000, so the 20 blocks cover the output array, which therefore ends holding that function.
-/
import proofs.«124566_j44289702756373_1_alg».proof.Proof.RegionsAPay
import proofs.«124566_j44289702756373_1_alg».proof.Proof.Gen.KernelIdeal.Frame
import Idealize.ShloMosaic.Lib.Pipeline.Value

noncomputable section

namespace Cert.KernelIdeal.RegionsA

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b)) (c : Dev nD)

theorem zeroOffsets4 : (![0, 0] : Fin 2 → Nat) = fun _ => 0 := funext fun a => by fin_cases a <;> rfl

/-- Row a of the tile of grid point t is row 5000·t + a of the node axis. -/
def tileRow4 (t : Fin cfg4.N) (a : Fin 5000) : Fin 100000 :=
  ⟨5000 * t.val + a.val, by have := a.isLt; have ht : t.val < 20 := lt_of_lt_of_eq t.isLt N_4; omega⟩

/-- The printed index maps, decided over the grid: a node-indexed window's block index at point t is (t, 0), the weight
    window's is (0, 0). -/
theorem blockIndex4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- The tile of h at point t: entry (a, b) is entry (5000·t + a, b) of the array. -/
theorem tile4_0 (t : Fin cfg4.N) (x : S5000x128.Idx) (k : S100000x128.Idx)
    (hk0 : (k 0).val = 5000 * t.val + (x 0).val) (hk1 : (k 1).val = (x 1).val) :
    (iblk4 V c 0 t : Vec Ideal S5000x128 .f32) x = (V c main_v62 : S100000x128.Idx → Elt Ideal .f32) k := by
  obtain ⟨e0, e1, -⟩ := blockIndex4 t
  unfold iblk4
  rw [View.read_apply]
  show V c main_v62 _ = V c main_v62 _
  congr 1
  funext a
  apply Fin.ext
  match a with
  | ⟨0, _⟩ => show win4_0.index t (0 : Fin 2) * 5000 + 1 * (x 0).val = (k 0).val; rw [e0, hk0]; omega
  | ⟨1, _⟩ => show win4_0.index t (1 : Fin 2) * 128 + 1 * (x 1).val = (k 1).val; rw [e1, hk1]; omega

/-- The tile of the per-node column s at point t: entry (a, 0) is entry (5000·t + a, 0) of the array. -/
theorem tile4_1 (t : Fin cfg4.N) (x : S5000x1.Idx) (k : S100000x1.Idx)
    (hk0 : (k 0).val = 5000 * t.val + (x 0).val) (hk1 : (k 1).val = (x 1).val) :
    (iblk4 V c 1 t : Vec Ideal S5000x1 .f32) x = (V c main_v11 : S100000x1.Idx → Elt Ideal .f32) k := by
  obtain ⟨-, -, e0, e1, -⟩ := blockIndex4 t
  unfold iblk4
  rw [View.read_apply]
  show V c main_v11 _ = V c main_v11 _
  congr 1
  funext a
  apply Fin.ext
  match a with
  | ⟨0, _⟩ => show win4_1.index t (0 : Fin 2) * 5000 + 1 * (x 0).val = (k 0).val; rw [e0, hk0]; omega
  | ⟨1, _⟩ => show win4_1.index t (1 : Fin 2) * 1 + 1 * (x 1).val = (k 1).val; rw [e1, hk1]; omega

/-- The block of W at every point is the whole matrix. -/
theorem tile4_2 (t : Fin cfg4.N) (x : S128x40.Idx) (k : S128x40.Idx)
    (hk0 : (k 0).val = (x 0).val) (hk1 : (k 1).val = (x 1).val) :
    (iblk4 V c 2 t : Vec Ideal S128x40 .f32) x = (V c main_v19 : S128x40.Idx → Elt Ideal .f32) k := by
  obtain ⟨-, -, -, -, e0, e1, -⟩ := blockIndex4 t
  unfold iblk4
  rw [View.read_apply]
  show V c main_v19 _ = V c main_v19 _
  congr 1
  funext a
  apply Fin.ext
  match a with
  | ⟨0, _⟩ => show win4_2.index t (0 : Fin 2) * 128 + 1 * (x 0).val = (k 0).val; rw [e0, hk0]; omega
  | ⟨1, _⟩ => show win4_2.index t (1 : Fin 2) * 40 + 1 * (x 1).val = (k 1).val; rw [e1, hk1]; omega

/-- The body on blocks that are rows 5000·t … of the arrays, at a block entry j, is the whole-array function at the
    array entry i with i = (5000·t + j₀, j₁). -/
theorem prescale_at (H : Cert.Spec.FV S100000x128) (s : Cert.Spec.FV S100000x1) (W : Cert.Spec.FV S128x40)
    (x0 : Vec Ideal S5000x128 .f32) (x1 : Vec Ideal S5000x1 .f32) (x2 : Vec Ideal S128x40 .f32) (t : Fin cfg4.N)
    (h0 : ∀ a c, x0 (ix2 a c) = H (ix2 (tileRow4 t a) c))
    (h1 : ∀ a, x1 (ix2 a (0 : Fin 1)) = s (ix2 (tileRow4 t a) (0 : Fin 1)))
    (h2 : ∀ c b, x2 (ix2 c b) = W (ix2 c b))
    (j : S5000x40.Idx) (i : S100000x40.Idx)
    (hi0 : (i 0).val = 5000 * t.val + (j 0).val) (hi1 : (i 1).val = (j 1).val) :
    k4_pay1 x0 x1 x2 j = Cert.Spec.prescaleH H s W i := by
  obtain ⟨a, b, rfl⟩ : ∃ (a : Fin 5000) (b : Fin 40), j = ix2 a b := ⟨j 0, j 1, eq_ix2 j⟩
  obtain rfl : i = ix2 (tileRow4 t a) b := by
    rw [eq_ix2 i]
    exact congrArg₂ ix2 (Fin.ext hi0) (Fin.ext hi1)
  exact prescale_apply H s W x0 x1 x2 (tileRow4 t) h0 h1 h2 a b

/-- What point t writes back is rows 5000·t … of (h·s)·W of the arrays as the region finds them. -/
theorem flushed4 (t : Fin cfg4.N) :
    (dat4 (F := Ideal) V c).flushed 3 t = ((cfg4.win 3).blk t).view.read (Elt Ideal)
      (Cert.Spec.prescaleH (V c main_v62) (V c main_v11) (V c main_v19)) := by
  show (cfg4.win 3).cut (grid4.coords t) ((dat4 (F := Ideal) V c).after 3 t) = _
  rw [after4_3]
  unfold out4_3
  rw [View.canon_unit_zero zeroOffsets4]
  simp only [View.ld_unit_zero (S := S5000x128) zeroOffsets4, View.ld_unit_zero (S := S5000x1) zeroOffsets4,
    View.ld_unit_zero (S := S128x40) zeroOffsets4]
  obtain ⟨-, -, -, -, -, -, e0, e1⟩ := blockIndex4 t
  funext j
  show k4_pay1 (iblk4 V c 0 t) (iblk4 V c 1 t) (iblk4 V c 2 t) j
    = Cert.Spec.prescaleH (V c main_v62) (V c main_v11) (V c main_v19) (((cfg4.win 3).blk t).view.emb j)
  refine prescale_at (V c main_v62) (V c main_v11) (V c main_v19) _ _ _ t
    (fun a b => tile4_0 V c t (ix2 a b) (ix2 (tileRow4 t a) b) rfl rfl)
    (fun a => tile4_1 V c t (ix2 a (0 : Fin 1)) (ix2 (tileRow4 t a) (0 : Fin 1)) rfl rfl)
    (fun a b => tile4_2 V c t (ix2 a b) (ix2 a b) rfl rfl) j _ ?_ ?_
  · show win4_3.index t (0 : Fin 2) * 5000 + 1 * (j 0).val = 5000 * t.val + (j 0).val
    rw [e0]; omega
  · show win4_3.index t (1 : Fin 2) * 40 + 1 * (j 1).val = (j 1).val
    rw [e1]; omega

/-- An index of the output array is in point t's block iff each coordinate is in the block's range on its axis. -/
theorem mem_block4 (t : Fin cfg4.N) (i : S100000x40.Idx) :
    i ∈ ((cfg4.win 3).blk t).view.set ↔ ∀ a : Fin 2, win4_3.index t a * S5000x40.size a ≤ (i a).val
      ∧ (i a).val < win4_3.index t a * S5000x40.size a + S5000x40.size a := by
  show i ∈ ((View.whole main_v63).slice (win4_3.rect t)).set ↔ _
  rw [View.set_slice_whole, Rect.mem_set_unit]
  exact Iff.rfl

/-- Every entry of the output array lies in the block of a point that writes back: row r in that of point r / 5000. -/
theorem cover4 (i : S100000x40.Idx) :
    ∃ t : Fin cfg4.N, (cfg4.win 3).flush t = true ∧ i ∈ ((cfg4.win 3).blk t).view.set := by
  have hi0 : (i 0).val < 100000 := (i 0).isLt
  have hi1 : (i 1).val < 40 := (i 1).isLt
  obtain ⟨t, ht⟩ : ∃ t : Fin cfg4.N, t.val = (i 0).val / 5000 :=
    ⟨⟨(i 0).val / 5000, by rw [show cfg4.N = 20 from N_4]; omega⟩, rfl⟩
  obtain ⟨-, -, -, -, -, -, e0, e1⟩ := blockIndex4 t
  refine ⟨t, flush4_3 t, ?_⟩
  rw [mem_block4]
  intro a
  match a with
  | ⟨0, _⟩ =>
    show win4_3.index t (0 : Fin 2) * 5000 ≤ (i 0).val ∧ (i 0).val < win4_3.index t (0 : Fin 2) * 5000 + 5000
    rw [e0, ht]; omega
  | ⟨1, _⟩ =>
    show win4_3.index t (1 : Fin 2) * 40 ≤ (i 1).val ∧ (i 1).val < win4_3.index t (1 : Fin 2) * 40 + 40
    rw [e1]; omega

/-- After the region the output array holds (h·s)·W of the operand arrays as the region found them. -/
theorem region4 : (Gen.dat4 (F := Ideal) V c).arrAt 3 cfg4.N
    = Cert.Spec.prescaleH (V c main_v62) (V c main_v11) (V c main_v19) :=
  (dat4 (F := Ideal) V c).arrAt_eq_of_cover 3 _ (fun t _ => flushed4 V c t) cover4

end Cert.KernelIdeal.RegionsA

end
-- ==== Proof.RegionsA.lean ====
/-
  What the three dense node-tile kernels of the graph convolution write, as whole-array functions.

  The kernel program runs each layer's dense part tile by tile: a grid of 20 points, point t holding rows
  5000·t … 5000·t + 4999 of every node-indexed operand and the whole of every small weight matrix. Row r of a matrix
  product X·W depends on row r of X alone, and scaling the rows of X by a per-node factor is row-wise too, so what
  point t leaves in its output tile is rows 5000·t … of ONE whole-array function of the operands' arrays:
  (u·s)·W + h·L for the two combine kernels (`region0`, `region2`), (h·s)·W for the prescale kernel (`region4`). The
  20 tiles cover the node axis, so after the last point the output array holds that function, whatever the arrays
  held when the region was entered. One module per kernel; this one only gathers them.
-/
import proofs.«124566_j44289702756373_1_alg».proof.Proof.RegionsA0
import proofs.«124566_j44289702756373_1_alg».proof.Proof.RegionsA2
import proofs.«124566_j44289702756373_1_alg».proof.Proof.RegionsA4
-- ==== Proof.LibRowEpilogues.lean ====
/-
  Two row-wise epilogues read block by block, at the extended reals.

  A row-tiled kernel sees m consecutive rows of an M-row table at a time: block row a stands for table row `row a`.
  The two epilogues are

  • raw(r, q) · s(r) + b(q), the per-row factor s a column [M, 1] repeated along the columns, the bias b a row [1, N]
    repeated down the rows;
  • raw(r, q) + b(q).

  Each lemma says that what the block-side spelling (shape casts onto the same shape, the column and the row
  broadcast to the block's shape) computes at entry (a, q) of the block is what the whole-table spelling (the column
  and the row broadcast in dimensions to the table's shape) computes at entry (row a, q), given only that the block
  operands read the tables at those rows. Sums and products of extended reals are taken as they are: nothing is
  assumed finite. Generic in all extents (M must not be the unit extent, so that the column's row coordinate is read
  and not collapsed).
-/
import Idealize.ShloMosaic.Lib.KernelVsHost
import Idealize.ShloMosaic.Lib.ValueLayout
import Idealize.ShloMosaic.Lib.Pipeline.Value
import proofs.«124566_j44289702756373_1_alg».proof.Proof.LibUnitAxes
import proofs.«124566_j44289702756373_1_alg».proof.Proof.LibHostReads

noncomputable section

namespace Cert.LibRowEpilogues

open Idealize.ShloMosaic Idealize.ShloMosaic.ValueIdx

/-- `raw · s + b` on a block of rows, at (a, q), is the whole-table formula at (row a, q). -/
theorem scaleBias_block {M m N : Nat} (hM : M ≠ 1)
    (A : FVec Ideal ⟨2, ![M, N]⟩ .f32) (S : FVec Ideal ⟨2, ![M, 1]⟩ .f32) (B : FVec Ideal ⟨2, ![1, N]⟩ .f32)
    (x0 : FVec Ideal ⟨2, ![m, N]⟩ .f32) (x1 : FVec Ideal ⟨2, ![m, 1]⟩ .f32) (x2 : FVec Ideal ⟨2, ![1, N]⟩ .f32)
    (row : Fin m → Fin M)
    (h0 : ∀ a q, x0 (ix2 a q) = A (ix2 (row a) q))
    (h1 : ∀ a, x1 (ix2 a (0 : Fin 1)) = S (ix2 (row a) (0 : Fin 1)))
    (h2 : ∀ q, x2 (ix2 (0 : Fin 1) q) = B (ix2 (0 : Fin 1) q))
    (hc0 : (⟨2, ![m, N]⟩ : Shape).ShapeCasts ⟨2, ![m, N]⟩) (hc1 : (⟨2, ![m, 1]⟩ : Shape).ShapeCasts ⟨2, ![m, 1]⟩)
    (hc2 : (⟨2, ![1, N]⟩ : Shape).ShapeCasts ⟨2, ![1, N]⟩)
    (hb1 : (⟨2, ![m, 1]⟩ : Shape).Broadcasts ⟨2, ![m, N]⟩) (hb2 : (⟨2, ![1, N]⟩ : Shape).Broadcasts ⟨2, ![m, N]⟩)
    (hS : (⟨2, ![M, 1]⟩ : Shape).BroadcastsInDim ⟨2, ![M, N]⟩ ![0, 1])
    (hB : (⟨2, ![1, N]⟩ : Shape).BroadcastsInDim ⟨2, ![M, N]⟩ ![0, 1])
    (a : Fin m) (q : Fin N) :
    addf (mulf (shapeCast ⟨2, ![m, N]⟩ x0 hc0) (broadcastTo ⟨2, ![m, N]⟩ (shapeCast ⟨2, ![m, 1]⟩ x1 hc1) hb1))
        (broadcastTo ⟨2, ![m, N]⟩ (shapeCast ⟨2, ![1, N]⟩ x2 hc2) hb2) (ix2 a q)
      = addf (mulf A (broadcastInDim ⟨2, ![M, N]⟩ ![0, 1] hS S)) (broadcastInDim ⟨2, ![M, N]⟩ ![0, 1] hB B)
          (ix2 (row a) q) := by
  rw [addf_apply, addf_apply, mulf_apply, mulf_apply, shapeCast_self, shapeCast_self, shapeCast_self,
    LibUnitAxes.broadcastTo_a1_ab_apply, broadcastTo_1b_ab_apply, h0, h1, h2,
    LibHostReads.colBcast_apply hM, broadcastInDim_oneRow_apply]

/-- `raw + b` on a block of rows, at (a, q), is the whole-table formula at (row a, q). -/
theorem bias_block {M m N : Nat}
    (A : FVec Ideal ⟨2, ![M, N]⟩ .f32) (B : FVec Ideal ⟨2, ![1, N]⟩ .f32)
    (x0 : FVec Ideal ⟨2, ![m, N]⟩ .f32) (x2 : FVec Ideal ⟨2, ![1, N]⟩ .f32)
    (row : Fin m → Fin M)
    (h0 : ∀ a q, x0 (ix2 a q) = A (ix2 (row a) q))
    (h2 : ∀ q, x2 (ix2 (0 : Fin 1) q) = B (ix2 (0 : Fin 1) q))
    (hc0 : (⟨2, ![m, N]⟩ : Shape).ShapeCasts ⟨2, ![m, N]⟩) (hc2 : (⟨2, ![1, N]⟩ : Shape).ShapeCasts ⟨2, ![1, N]⟩)
    (hb2 : (⟨2, ![1, N]⟩ : Shape).Broadcasts ⟨2, ![m, N]⟩)
    (hB : (⟨2, ![1, N]⟩ : Shape).BroadcastsInDim ⟨2, ![M, N]⟩ ![0, 1])
    (a : Fin m) (q : Fin N) :
    addf (shapeCast ⟨2, ![m, N]⟩ x0 hc0) (broadcastTo ⟨2, ![m, N]⟩ (shapeCast ⟨2, ![1, N]⟩ x2 hc2) hb2) (ix2 a q)
      = addf A (broadcastInDim ⟨2, ![M, N]⟩ ![0, 1] hB B) (ix2 (row a) q) := by
  rw [addf_apply, addf_apply, shapeCast_self, shapeCast_self, broadcastTo_1b_ab_apply, h0, h2,
    broadcastInDim_oneRow_apply]

end Cert.LibRowEpilogues

end
-- ==== Proof.RegionsBPay.lean ====
/-
  Two kernel bodies read at one entry of a block of rows, over the extended reals.

  A node-tiled kernel sees 5000 consecutive rows of a 100000-row array at a time: block row a stands for array row
  "row a". This module says, for the two bodies below, that what the body computes at entry (a, q) of its block is
  what the whole-array formula computes at entry (row a, q), given only that the row-tiled operands hold the rows
  "row a" of their arrays (the small operands, a row [1, n] or a weight matrix, are seen whole):

  • normalise and rectify:  max((y(r,q) - mean(q)) * rsqrt(var(q) + eps) * gamma(q) + beta(q), 0), the four
    parameters rows [1, 128] laid down the rows. The kernel's reciprocal square root and the host's are one function
    of an extended real, the kernel's scalar splats read the same words as the host's rank-0 constants broadcast, so
    nothing of real arithmetic is used: the statement holds at the infinities too.
  • the last layer's epilogue:  u(r,q) * s(r) + b(q) + sum_c h(r,c) * L(c,q), s a column [100000, 1], b a row
    [1, 40]; the narrowing of h and L to a shorter float format is the identity on extended reals and the product
    accumulates into the zero block, so the block's product is the rows "row a" of the whole product.
-/
import proofs.«124566_j44289702756373_1_alg».proof.Proof.Spec
import proofs.«124566_j44289702756373_1_alg».proof.Proof.Gen.KernelIdeal.Skeleton
import proofs.«124566_j44289702756373_1_alg».proof.Proof.LibRowEpilogues
import proofs.«124566_j44289702756373_1_alg».proof.Proof.LibRowBlockDot
import proofs.«124566_j44289702756373_1_alg».proof.Proof.LibHostReads
import Idealize.ShloMosaic.Lib.KernelVsHost
import Idealize.ShloMosaic.Lib.ValueLayout

noncomputable section

namespace Cert.KernelIdeal.RegionsB

open Idealize.ShloMosaic Idealize.ShloMosaic.ValueIdx Cert.KernelIdeal Cert.KernelIdeal.Gen

/-- Normalise and rectify, at entry (a, q) of a block holding the rows "row a" of y: the whole-array formula at
    (row a, q). The four parameter rows are seen whole. -/
theorem bnrelu_block (Y : FVec Ideal S100000x128 .f32) (mean var g b : FVec Ideal S1x128 .f32)
    (x0 : FVec Ideal S5000x128 .f32) (row : Fin 5000 → Fin 100000)
    (h0 : ∀ a q, x0 (ix2 a q) = Y (ix2 (row a) q)) (a : Fin 5000) (q : Fin 128) :
    k1_pay1 (F := Ideal) x0 var mean g b (ix2 a q) = Cert.Spec.bnreluH Y mean var g b (ix2 (row a) q) := by
  unfold k1_pay1 Cert.Spec.bnreluH Cert.Spec.brow128
  rw [maximumf_apply, maximumf_apply, addf_apply, addf_apply, mulf_apply, mulf_apply, mulf_apply, mulf_apply,
    subf_apply, subf_apply, shapeCast_self, shapeCast_self, shapeCast_self, shapeCast_self, shapeCast_self,
    broadcastTo_1b_ab_apply, broadcastTo_1b_ab_apply, broadcastTo_1b_ab_apply, broadcastTo_1b_ab_apply,
    broadcastInDim_oneRow_apply, broadcastInDim_oneRow_apply, broadcastInDim_oneRow_apply,
    broadcastInDim_oneRow_apply, LibHostReads.splat_apply, broadcast_apply, h0]
  rfl

/-- The same with the two entries given by their coordinates, j in the block and i in the array (i's row the row that
    the block's row j 0 stands for, the columns equal), and the four parameter rows given up to equality. -/
theorem bnrelu_point (Y : FVec Ideal S100000x128 .f32) (mean var g b : FVec Ideal S1x128 .f32)
    (x0 : FVec Ideal S5000x128 .f32) (x1 x2 x3 x4 : FVec Ideal S1x128 .f32) (row : Fin 5000 → Fin 100000)
    (h0 : ∀ a q, x0 (ix2 a q) = Y (ix2 (row a) q)) (h1 : x1 = mean) (h2 : x2 = var) (h3 : x3 = g) (h4 : x4 = b)
    (j : S5000x128.Idx) (i : S100000x128.Idx) (hi0 : (i 0).val = (row (j 0)).val) (hi1 : (i 1).val = (j 1).val) :
    k1_pay1 (F := Ideal) x0 x2 x1 x3 x4 j = Cert.Spec.bnreluH Y mean var g b i := by
  subst h1 h2 h3 h4
  obtain ⟨a, q, rfl⟩ : ∃ (a : Fin 5000) (q : Fin 128), j = ix2 a q := ⟨j 0, j 1, eq_ix2 j⟩
  obtain rfl : i = ix2 (row a) q := by
    rw [eq_ix2 i]
    exact congrArg₂ ix2 (Fin.ext hi0) (Fin.ext hi1)
  exact bnrelu_block Y x1 x2 x3 x4 x0 row h0 a q

/-- The second normalisation kernel has the same body. -/
theorem k3_pay1_eq (x0 : FVec Ideal S5000x128 .f32) (x2 x1 x3 x4 : FVec Ideal S1x128 .f32) :
    k3_pay1 (F := Ideal) x0 x2 x1 x3 x4 = k1_pay1 (F := Ideal) x0 x2 x1 x3 x4 := rfl

/-- The last layer's epilogue, at entry (a, q) of a block holding the rows "row a" of u, s and h: the whole-array
    formula at (row a, q). The bias row and the weights are seen whole. -/
theorem final_block (U : FVec Ideal S100000x40 .f32) (S : FVec Ideal S100000x1 .f32) (B : FVec Ideal S1x40 .f32)
    (H : FVec Ideal S100000x128 .f32) (L : FVec Ideal S128x40 .f32)
    (x0 : FVec Ideal S5000x40 .f32) (x1 : FVec Ideal S5000x1 .f32) (x3 : FVec Ideal S5000x128 .f32)
    (row : Fin 5000 → Fin 100000)
    (h0 : ∀ a q, x0 (ix2 a q) = U (ix2 (row a) q))
    (h1 : ∀ a, x1 (ix2 a (0 : Fin 1)) = S (ix2 (row a) (0 : Fin 1)))
    (h3 : ∀ a k, x3 (ix2 a k) = H (ix2 (row a) k)) (a : Fin 5000) (q : Fin 40) :
    k5_pay1 (F := Ideal) x0 x1 B x3 L (ix2 a q) = Cert.Spec.finalH U S B H L (ix2 (row a) q) := by
  unfold k5_pay1 Cert.Spec.finalH Cert.Spec.bcol40 Cert.Spec.brow40 Cert.Spec.dot40
  rw [addf_apply, addf_apply (addf _ _)]
  refine congrArg₂ (· + ·) ?_ ?_
  · exact LibRowEpilogues.scaleBias_block (by decide) U S B x0 x1 B row h0 h1 (fun _ => rfl) _ _ _ _ _ _ _ a q
  · exact LibRowBlockDot.matmul_rowBlock_apply none none H L _ _ row
      (fun a k => by rw [truncf_apply, shapeCast_self, h3]) (fun k b => by rw [truncf_apply, shapeCast_self]) a q

/-- The same with the two entries given by their coordinates and the bias row and the weights given up to equality. -/
theorem final_point (U : FVec Ideal S100000x40 .f32) (S : FVec Ideal S100000x1 .f32) (B : FVec Ideal S1x40 .f32)
    (H : FVec Ideal S100000x128 .f32) (L : FVec Ideal S128x40 .f32)
    (x0 : FVec Ideal S5000x40 .f32) (x1 : FVec Ideal S5000x1 .f32) (x2 : FVec Ideal S1x40 .f32)
    (x3 : FVec Ideal S5000x128 .f32) (x4 : FVec Ideal S128x40 .f32) (row : Fin 5000 → Fin 100000)
    (h0 : ∀ a q, x0 (ix2 a q) = U (ix2 (row a) q))
    (h1 : ∀ a, x1 (ix2 a (0 : Fin 1)) = S (ix2 (row a) (0 : Fin 1)))
    (h2 : x2 = B) (h3 : ∀ a k, x3 (ix2 a k) = H (ix2 (row a) k)) (h4 : x4 = L)
    (j : S5000x40.Idx) (i : S100000x40.Idx) (hi0 : (i 0).val = (row (j 0)).val) (hi1 : (i 1).val = (j 1).val) :
    k5_pay1 (F := Ideal) x0 x1 x2 x3 x4 j = Cert.Spec.finalH U S B H L i := by
  subst h2 h4
  obtain ⟨a, q, rfl⟩ : ∃ (a : Fin 5000) (q : Fin 40), j = ix2 a q := ⟨j 0, j 1, eq_ix2 j⟩
  obtain rfl : i = ix2 (row a) q := by
    rw [eq_ix2 i]
    exact congrArg₂ ix2 (Fin.ext hi0) (Fin.ext hi1)
  exact final_block U S x2 H x4 x0 x1 x3 row h0 h1 h3 a q

end Cert.KernelIdeal.RegionsB

end
-- ==== Proof.RegionsB.lean ====
/-
  What three of the kernel program's tiled regions write, as whole-array functions of what the region finds.

  Each of these regions runs its body at 20 grid points; point t sees rows 5000 t ... 5000 t + 4999 of every
  row-tiled operand (block row a is array row 5000 t + a: a block's coordinate in its array is always
  block index * block size + the coordinate inside the block, and the row-tiled windows' block index at point t is
  (t, 0)), sees every small operand (a parameter row [1, n], a weight matrix) whole (block index (0, 0), the block
  is the array), and writes rows 5000 t ... 5000 t + 4999 of the result. The body's value at an entry of its block
  is the whole-array formula's value at the entry of the array the block entry stands for, so what point t writes
  back is block t of ONE whole-array function of the operands; the twenty blocks cover all 100000 rows (row r is in
  block r / 5000), so the result array ends holding that function:

  • the two normalise-and-rectify regions:  max((y - mean) * rsqrt(var + eps) * gamma + beta, 0);
  • the last layer's epilogue:  u * s + b + h * L.
-/
import proofs.«124566_j44289702756373_1_alg».proof.Proof.Spec
import proofs.«124566_j44289702756373_1_alg».proof.Proof.Gen.KernelIdeal.Frame
import proofs.«124566_j44289702756373_1_alg».proof.Proof.RegionsBPay
import Idealize.ShloMosaic.Lib.Pipeline.Value

noncomputable section

namespace Cert.KernelIdeal.RegionsB

open Idealize.ShloMosaic Idealize.ShloMosaic.TcCoe Idealize.ShloMosaic.ValueIdx Idealize.SL.Sem
open Cert.KernelIdeal Cert.KernelIdeal.Gen
open Idealize.ShloMosaic.Pipeline (Dat)

variable (V : (c : Dev nD) → (b : Ref sig .tc) → Buf (Elt Ideal) ((c : Thread nD τ).loc b)) (c : Dev nD)

/-- The zero offsets of a whole-buffer access, as a constant function. -/
theorem zero_offsets : (![0, 0] : Fin 2 → Nat) = fun _ => 0 := funext fun a => by fin_cases a <;> rfl

/-- The array row that block row a of the n-th grid point stands for: 5000 n + a. -/
def rowAt (n : Nat) (hn : n < 20) (a : Fin 5000) : Fin 100000 :=
  ⟨5000 * n + a.val, by have := a.isLt; omega⟩

/-! ## The first normalise-and-rectify region -/

/-- The printed index maps, decided over the grid: the row-tiled windows (the operand y and the result) have block
    index (t, 0) at point t, the four parameter rows block index (0, 0). -/
theorem index_maps1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The operand's block at point t holds rows 5000 t + a of the array. -/
theorem rows1_0 (t : Fin cfg1.N) (ht : t.val < 20) (a : Fin 5000) (q : Fin 128) :
    (iblk1 V c 0 t : FVec Ideal S5000x128 .f32) (ix2 a q)
      = (V c main_v33 : FVec Ideal S100000x128 .f32) (ix2 (rowAt t.val ht a) q) := by
  obtain ⟨e0, e1, -⟩ := index_maps1 t
  show V c main_v33 (((cfg1.win 0).blk t).view.emb (ix2 a q)) = V c main_v33 (ix2 (rowAt t.val ht a) q)
  congr 1
  funext x
  apply Fin.ext
  match x with
  | ⟨0, _⟩ => show win1_0.index t (0 : Fin 2) * 5000 + 1 * a.val = 5000 * t.val + a.val; rw [e0]; omega
  | ⟨1, _⟩ => show win1_0.index t (1 : Fin 2) * 128 + 1 * q.val = q.val; rw [e1]; omega

/-- A parameter row's block is the row itself, at every point. -/
theorem whole1_1 (t : Fin cfg1.N) : (iblk1 V c 1 t : FVec Ideal S1x128 .f32) = V c main_v37 := by
  obtain ⟨-, -, e0, e1, -⟩ := index_maps1 t
  funext y
  show V c main_v37 (((cfg1.win 1).blk t).view.emb y) = V c main_v37 y
  congr 1
  funext x
  apply Fin.ext
  match x with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

theorem whole1_2 (t : Fin cfg1.N) : (iblk1 V c 2 t : FVec Ideal S1x128 .f32) = V c main_v38 := by
  obtain ⟨-, -, -, -, e0, e1, -⟩ := index_maps1 t
  funext y
  show V c main_v38 (((cfg1.win 2).blk t).view.emb y) = V c main_v38 y
  congr 1
  funext x
  apply Fin.ext
  match x with
  | ⟨0, _⟩ => show win1_2.index t (0 : Fin 2) * 1 + 1 * (y 0).val = (y 0).val; rw [e0]; omega
  | ⟨1, _⟩ => show win1_2.index t (1 : Fin 2) * 128 + 1 * (y 1).val = (y 1).val; rw [e1]; omega

theorem whole1_3 (t : Fin cfg1.N) : (iblk1 V c 3 t : FVec Ideal S1x128 .f32) = V c main_v39 := by
  obtain ⟨-, -, -, -, -, -, e0, e1, -⟩ := index_maps1 t
  funext y
  show V c main_v39 (((cfg1.win 3).blk t).view.emb y) = V c main_v39 y
  congr 1
  funext x
  apply Fin.ext
  match x with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

theorem whole1_4 (t : Fin cfg1.N) : (iblk1 V c 4 t : FVec Ideal S1x128 .f32) = V c main_v40 := by
  obtain ⟨-, -, -, -, -, -, -, -, e0, e1, -⟩ := index_maps1 t
  funext y
  show V c main_v40 (((cfg1.win 4).blk t).view.emb y) = V c main_v40 y
  congr 1
  funext x
  apply Fin.ext
  match x with
  | ⟨0, _⟩ => show win1_4.index t (0 : Fin 2) * 1 + 1 * (y 0).val = (y 0).val; rw [e0]; omega
  | ⟨1, _⟩ => show win1_4.index t (1 : Fin 2) * 128 + 1 * (y 1).val = (y 1).val; rw [e1]; omega

/-- What point t writes back is block t of the whole-array formula of the arrays as the region finds them. -/
theorem writes1 (t : Fin cfg1.N) :
    (dat1 (F := Ideal) V c).flushed 5 t = ((cfg1.win 5).blk t).view.read (Elt Ideal)
      (Cert.Spec.bnreluH (V c main_v33) (V c main_v37) (V c main_v38) (V c main_v39) (V c main_v40)) := by
  have ht : t.val < 20 := lt_of_lt_of_eq t.isLt N_1
  obtain ⟨-, -, -, -, -, -, -, -, -, -, e0, e1⟩ := index_maps1 t
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S1x128) zero_offsets]
  funext j
  refine bnrelu_point (V c main_v33) (V c main_v37) (V c main_v38) (V c main_v39) (V c main_v40)
    (iblk1 V c 0 t) (iblk1 V c 1 t) (iblk1 V c 2 t) (iblk1 V c 3 t) (iblk1 V c 4 t) (rowAt t.val ht)
    (rows1_0 V c t ht) (whole1_1 V c t) (whole1_2 V c t) (whole1_3 V c t) (whole1_4 V c t)
    ((cfg1.win 5).xinj (grid1.coords t) j) (((cfg1.win 5).blk t).view.emb j) ?_ ?_
  · show win1_5.index t (0 : Fin 2) * 5000 + 1 * (j 0).val = 5000 * t.val + (j 0).val
    rw [e0]; omega
  · show win1_5.index t (1 : Fin 2) * 128 + 1 * (j 1).val = (j 1).val
    rw [e1]; omega

/-- An index of the result array is in point t's block iff each coordinate is in the block's range on its axis. -/
theorem mem_block1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v41).slice (win1_5.rect t)).set ↔ _
  rw [View.set_slice_whole, Rect.mem_set_unit]
  exact Iff.rfl

/-- Every index of the result array is in some point's block: row r is in the block of point r / 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have hlt : (i 0).val / 5000 < cfg1.N := by rw [hN]; omega
  obtain ⟨-, -, -, -, -, -, -, -, -, -, e0, e1⟩ := index_maps1 ⟨(i 0).val / 5000, hlt⟩
  refine ⟨⟨(i 0).val / 5000, hlt⟩, flush1_5 _, ?_⟩
  rw [mem_block1]
  intro a
  match a with
  | ⟨0, _⟩ =>
    show win1_5.index ⟨(i 0).val / 5000, hlt⟩ (0 : Fin 2) * 5000 ≤ (i 0).val
      ∧ (i 0).val < win1_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hlt⟩ (1 : Fin 2) * 128 ≤ (i 1).val
      ∧ (i 1).val < win1_5.index ⟨(i 0).val / 5000, hlt⟩ (1 : Fin 2) * 128 + 128
    rw [e1]; omega

/-- The result array of the first normalise-and-rectify region, after its run. -/
theorem region1 : (Gen.dat1 (F := Ideal) V c).arrAt 5 cfg1.N
    = Cert.Spec.bnreluH (V c main_v33) (V c main_v37) (V c main_v38) (V c main_v39) (V c main_v40) :=
  (dat1 (F := Ideal) V c).arrAt_eq_of_cover 5 _ (fun t _ => writes1 V c t) (cover1)

/-! ## The second normalise-and-rectify region -/

/-- The second normalisation kernel's body is the first's, so it has the first's value at an entry. -/
theorem bnrelu_point_second (Y : FVec Ideal S100000x128 .f32) (mean var g b : FVec Ideal S1x128 .f32)
    (x0 : FVec Ideal S5000x128 .f32) (x1 x2 x3 x4 : FVec Ideal S1x128 .f32) (row : Fin 5000 → Fin 100000)
    (h0 : ∀ a q, x0 (ix2 a q) = Y (ix2 (row a) q)) (h1 : x1 = mean) (h2 : x2 = var) (h3 : x3 = g) (h4 : x4 = b)
    (j : S5000x128.Idx) (i : S100000x128.Idx) (hi0 : (i 0).val = (row (j 0)).val) (hi1 : (i 1).val = (j 1).val) :
    k3_pay1 (F := Ideal) x0 x2 x1 x3 x4 j = Cert.Spec.bnreluH Y mean var g b i :=
  (congrFun (k3_pay1_eq x0 x2 x1 x3 x4) j).trans
    (bnrelu_point Y mean var g b x0 x1 x2 x3 x4 row h0 h1 h2 h3 h4 j i hi0 hi1)

/-- The printed index maps, decided over the grid: the row-tiled windows (the operand y and the result) have block
    index (t, 0) at point t, the four parameter rows block index (0, 0). -/
theorem index_maps3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- The operand's block at point t holds rows 5000 t + a of the array. -/
theorem rows3_0 (t : Fin cfg3.N) (ht : t.val < 20) (a : Fin 5000) (q : Fin 128) :
    (iblk3 V c 0 t : FVec Ideal S5000x128 .f32) (ix2 a q)
      = (V c main_v54 : FVec Ideal S100000x128 .f32) (ix2 (rowAt t.val ht a) q) := by
  obtain ⟨e0, e1, -⟩ := index_maps3 t
  show V c main_v54 (((cfg3.win 0).blk t).view.emb (ix2 a q)) = V c main_v54 (ix2 (rowAt t.val ht a) q)
  congr 1
  funext x
  apply Fin.ext
  match x with
  | ⟨0, _⟩ => show win3_0.index t (0 : Fin 2) * 5000 + 1 * a.val = 5000 * t.val + a.val; rw [e0]; omega
  | ⟨1, _⟩ => show win3_0.index t (1 : Fin 2) * 128 + 1 * q.val = q.val; rw [e1]; omega

/-- A parameter row's block is the row itself, at every point. -/
theorem whole3_1 (t : Fin cfg3.N) : (iblk3 V c 1 t : FVec Ideal S1x128 .f32) = V c main_v58 := by
  obtain ⟨-, -, e0, e1, -⟩ := index_maps3 t
  funext y
  show V c main_v58 (((cfg3.win 1).blk t).view.emb y) = V c main_v58 y
  congr 1
  funext x
  apply Fin.ext
  match x with
  | ⟨0, _⟩ => show win3_1.index t (0 : Fin 2) * 1 + 1 * (y 0).val = (y 0).val; rw [e0]; omega
  | ⟨1, _⟩ => show win3_1.index t (1 : Fin 2) * 128 + 1 * (y 1).val = (y 1).val; rw [e1]; omega

theorem whole3_2 (t : Fin cfg3.N) : (iblk3 V c 2 t : FVec Ideal S1x128 .f32) = V c main_v59 := by
  obtain ⟨-, -, -, -, e0, e1, -⟩ := index_maps3 t
  funext y
  show V c main_v59 (((cfg3.win 2).blk t).view.emb y) = V c main_v59 y
  congr 1
  funext x
  apply Fin.ext
  match x with
  | ⟨0, _⟩ => show win3_2.index t (0 : Fin 2) * 1 + 1 * (y 0).val = (y 0).val; rw [e0]; omega
  | ⟨1, _⟩ => show win3_2.index t (1 : Fin 2) * 128 + 1 * (y 1).val = (y 1).val; rw [e1]; omega

theorem whole3_3 (t : Fin cfg3.N) : (iblk3 V c 3 t : FVec Ideal S1x128 .f32) = V c main_v60 := by
  obtain ⟨-, -, -, -, -, -, e0, e1, -⟩ := index_maps3 t
  funext y
  show V c main_v60 (((cfg3.win 3).blk t).view.emb y) = V c main_v60 y
  congr 1
  funext x
  apply Fin.ext
  match x with
  | ⟨0, _⟩ => show win3_3.index t (0 : Fin 2) * 1 + 1 * (y 0).val = (y 0).val; rw [e0]; omega
  | ⟨1, _⟩ => show win3_3.index t (1 : Fin 2) * 128 + 1 * (y 1).val = (y 1).val; rw [e1]; omega

theorem whole3_4 (t : Fin cfg3.N) : (iblk3 V c 4 t : FVec Ideal S1x128 .f32) = V c main_v61 := by
  obtain ⟨-, -, -, -, -, -, -, -, e0, e1, -⟩ := index_maps3 t
  funext y
  show V c main_v61 (((cfg3.win 4).blk t).view.emb y) = V c main_v61 y
  congr 1
  funext x
  apply Fin.ext
  match x with
  | ⟨0, _⟩ => show win3_4.index t (0 : Fin 2) * 1 + 1 * (y 0).val = (y 0).val; rw [e0]; omega
  | ⟨1, _⟩ => show win3_4.index t (1 : Fin 2) * 128 + 1 * (y 1).val = (y 1).val; rw [e1]; omega

/-- What point t writes back is block t of the whole-array formula of the arrays as the region finds them. -/
theorem writes3 (t : Fin cfg3.N) :
    (dat3 (F := Ideal) V c).flushed 5 t = ((cfg3.win 5).blk t).view.read (Elt Ideal)
      (Cert.Spec.bnreluH (V c main_v54) (V c main_v58) (V c main_v59) (V c main_v60) (V c main_v61)) := by
  have ht : t.val < 20 := lt_of_lt_of_eq t.isLt N_3
  obtain ⟨-, -, -, -, -, -, -, -, -, -, e0, e1⟩ := index_maps3 t
  show (cfg3.win 5).cut (grid3.coords t) ((dat3 V c).after 5 t) = _
  rw [after3_5]
  unfold out3_5
  rw [View.canon_unit_zero zero_offsets]
  simp only [View.ld_unit_zero (S := S5000x128) zero_offsets, View.ld_unit_zero (S := S1x128) zero_offsets]
  funext j
  refine bnrelu_point_second (V c main_v54) (V c main_v58) (V c main_v59) (V c main_v60) (V c main_v61)
    (iblk3 V c 0 t) (iblk3 V c 1 t) (iblk3 V c 2 t) (iblk3 V c 3 t) (iblk3 V c 4 t) (rowAt t.val ht)
    (rows3_0 V c t ht) (whole3_1 V c t) (whole3_2 V c t) (whole3_3 V c t) (whole3_4 V c t)
    ((cfg3.win 5).xinj (grid3.coords t) j) (((cfg3.win 5).blk t).view.emb j) ?_ ?_
  · show win3_5.index t (0 : Fin 2) * 5000 + 1 * (j 0).val = 5000 * t.val + (j 0).val
    rw [e0]; omega
  · show win3_5.index t (1 : Fin 2) * 128 + 1 * (j 1).val = (j 1).val
    rw [e1]; omega

/-- An index of the result array is in point t's block iff each coordinate is in the block's range on its axis. -/
theorem mem_block3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v62).slice (win3_5.rect t)).set ↔ _
  rw [View.set_slice_whole, Rect.mem_set_unit]
  exact Iff.rfl

/-- Every index of the result array is in some point's block: row r is in the block of point r / 5000. -/
theorem cover3 (i : S100000x128.Idx) :
    ∃ t : Fin cfg3.N, (cfg3.win 5).flush t = true ∧ i ∈ ((cfg3.win 5).blk t).view.set := by
  have hi0 : (i 0).val < 100000 := (i 0).isLt
  have hi1 : (i 1).val < 128 := (i 1).isLt
  have hN : cfg3.N = 20 := N_3
  have hlt : (i 0).val / 5000 < cfg3.N := by rw [hN]; omega
  obtain ⟨-, -, -, -, -, -, -, -, -, -, e0, e1⟩ := index_maps3 ⟨(i 0).val / 5000, hlt⟩
  refine ⟨⟨(i 0).val / 5000, hlt⟩, flush3_5 _, ?_⟩
  rw [mem_block3]
  intro a
  match a with
  | ⟨0, _⟩ =>
    show win3_5.index ⟨(i 0).val / 5000, hlt⟩ (0 : Fin 2) * 5000 ≤ (i 0).val
      ∧ (i 0).val < win3_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win3_5.index ⟨(i 0).val / 5000, hlt⟩ (1 : Fin 2) * 128 ≤ (i 1).val
      ∧ (i 1).val < win3_5.index ⟨(i 0).val / 5000, hlt⟩ (1 : Fin 2) * 128 + 128
    rw [e1]; omega

/-- The result array of the second normalise-and-rectify region, after its run. -/
theorem region3 : (Gen.dat3 (F := Ideal) V c).arrAt 5 cfg3.N
    = Cert.Spec.bnreluH (V c main_v54) (V c main_v58) (V c main_v59) (V c main_v60) (V c main_v61) :=
  (dat3 (F := Ideal) V c).arrAt_eq_of_cover 5 _ (fun t _ => writes3 V c t) (cover3)

/-! ## The last layer's epilogue region -/

/-- The printed index maps, decided over the grid: the row-tiled windows (u, the column s, h and the result) have
    block index (t, 0) at point t, the bias row and the weights block index (0, 0). -/
theorem index_maps5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- The block of u at point t holds rows 5000 t + a of the array. -/
theorem rows5_0 (t : Fin cfg5.N) (ht : t.val < 20) (a : Fin 5000) (q : Fin 40) :
    (iblk5 V c 0 t : FVec Ideal S5000x40 .f32) (ix2 a q)
      = (V c main_v73 : FVec Ideal S100000x40 .f32) (ix2 (rowAt t.val ht a) q) := by
  obtain ⟨e0, e1, -⟩ := index_maps5 t
  show V c main_v73 (((cfg5.win 0).blk t).view.emb (ix2 a q)) = V c main_v73 (ix2 (rowAt t.val ht a) q)
  congr 1
  funext x
  apply Fin.ext
  match x with
  | ⟨0, _⟩ => show win5_0.index t (0 : Fin 2) * 5000 + 1 * a.val = 5000 * t.val + a.val; rw [e0]; omega
  | ⟨1, _⟩ => show win5_0.index t (1 : Fin 2) * 40 + 1 * q.val = q.val; rw [e1]; omega

/-- The block of the column s at point t holds rows 5000 t + a of the column. -/
theorem rows5_1 (t : Fin cfg5.N) (ht : t.val < 20) (a : Fin 5000) (q : Fin 1) :
    (iblk5 V c 1 t : FVec Ideal S5000x1 .f32) (ix2 a q)
      = (V c main_v14 : FVec Ideal S100000x1 .f32) (ix2 (rowAt t.val ht a) q) := by
  obtain ⟨-, -, e0, e1, -⟩ := index_maps5 t
  show V c main_v14 (((cfg5.win 1).blk t).view.emb (ix2 a q)) = V c main_v14 (ix2 (rowAt t.val ht a) q)
  congr 1
  funext x
  apply Fin.ext
  match x with
  | ⟨0, _⟩ => show win5_1.index t (0 : Fin 2) * 5000 + 1 * a.val = 5000 * t.val + a.val; rw [e0]; omega
  | ⟨1, _⟩ => show win5_1.index t (1 : Fin 2) * 1 + 1 * q.val = q.val; rw [e1]; omega

/-- The bias row's block is the row itself, at every point. -/
theorem whole5_2 (t : Fin cfg5.N) : (iblk5 V c 2 t : FVec Ideal S1x40 .f32) = V c main_v74 := by
  obtain ⟨-, -, -, -, e0, e1, -⟩ := index_maps5 t
  funext y
  show V c main_v74 (((cfg5.win 2).blk t).view.emb y) = V c main_v74 y
  congr 1
  funext x
  apply Fin.ext
  match x with
  | ⟨0, _⟩ => show win5_2.index t (0 : Fin 2) * 1 + 1 * (y 0).val = (y 0).val; rw [e0]; omega
  | ⟨1, _⟩ => show win5_2.index t (1 : Fin 2) * 40 + 1 * (y 1).val = (y 1).val; rw [e1]; omega

/-- The block of h at point t holds rows 5000 t + a of the array. -/
theorem rows5_3 (t : Fin cfg5.N) (ht : t.val < 20) (a : Fin 5000) (q : Fin 128) :
    (iblk5 V c 3 t : FVec Ideal S5000x128 .f32) (ix2 a q)
      = (V c main_v62 : FVec Ideal S100000x128 .f32) (ix2 (rowAt t.val ht a) q) := by
  obtain ⟨-, -, -, -, -, -, e0, e1, -⟩ := index_maps5 t
  show V c main_v62 (((cfg5.win 3).blk t).view.emb (ix2 a q)) = V c main_v62 (ix2 (rowAt t.val ht a) q)
  congr 1
  funext x
  apply Fin.ext
  match x with
  | ⟨0, _⟩ => show win5_3.index t (0 : Fin 2) * 5000 + 1 * a.val = 5000 * t.val + a.val; rw [e0]; omega
  | ⟨1, _⟩ => show win5_3.index t (1 : Fin 2) * 128 + 1 * q.val = q.val; rw [e1]; omega

/-- The weights' block is the weight matrix itself, at every point. -/
theorem whole5_4 (t : Fin cfg5.N) : (iblk5 V c 4 t : FVec Ideal S128x40 .f32) = V c main_v20 := by
  obtain ⟨-, -, -, -, -, -, -, -, e0, e1, -⟩ := index_maps5 t
  funext y
  show V c main_v20 (((cfg5.win 4).blk t).view.emb y) = V c main_v20 y
  congr 1
  funext x
  apply Fin.ext
  match x with
  | ⟨0, _⟩ => show win5_4.index t (0 : Fin 2) * 128 + 1 * (y 0).val = (y 0).val; rw [e0]; omega
  | ⟨1, _⟩ => show win5_4.index t (1 : Fin 2) * 40 + 1 * (y 1).val = (y 1).val; rw [e1]; omega

/-- What point t writes back is block t of the whole-array formula of the arrays as the region finds them. -/
theorem writes5 (t : Fin cfg5.N) :
    (dat5 (F := Ideal) V c).flushed 5 t = ((cfg5.win 5).blk t).view.read (Elt Ideal)
      (Cert.Spec.finalH (V c main_v73) (V c main_v14) (V c main_v74) (V c main_v62) (V c main_v20)) := by
  have ht : t.val < 20 := lt_of_lt_of_eq t.isLt N_5
  obtain ⟨-, -, -, -, -, -, -, -, -, -, e0, e1⟩ := index_maps5 t
  show (cfg5.win 5).cut (grid5.coords t) ((dat5 V c).after 5 t) = _
  rw [after5_5]
  unfold out5_5
  rw [View.canon_unit_zero zero_offsets]
  simp only [View.ld_unit_zero (S := S5000x40) zero_offsets, View.ld_unit_zero (S := S5000x1) zero_offsets,
    View.ld_unit_zero (S := S1x40) zero_offsets, View.ld_unit_zero (S := S5000x128) zero_offsets,
    View.ld_unit_zero (S := S128x40) zero_offsets]
  funext j
  refine final_point (V c main_v73) (V c main_v14) (V c main_v74) (V c main_v62) (V c main_v20)
    (iblk5 V c 0 t) (iblk5 V c 1 t) (iblk5 V c 2 t) (iblk5 V c 3 t) (iblk5 V c 4 t) (rowAt t.val ht)
    (rows5_0 V c t ht) (fun a => rows5_1 V c t ht a (0 : Fin 1)) (whole5_2 V c t) (rows5_3 V c t ht) (whole5_4 V c t)
    ((cfg5.win 5).xinj (grid5.coords t) j) (((cfg5.win 5).blk t).view.emb j) ?_ ?_
  · show win5_5.index t (0 : Fin 2) * 5000 + 1 * (j 0).val = 5000 * t.val + (j 0).val
    rw [e0]; omega
  · show win5_5.index t (1 : Fin 2) * 40 + 1 * (j 1).val = (j 1).val
    rw [e1]; omega

/-- An index of the result array is in point t's block iff each coordinate is in the block's range on its axis. -/
theorem mem_block5 (t : Fin cfg5.N) (i : S100000x40.Idx) :
    i ∈ ((cfg5.win 5).blk t).view.set ↔ ∀ a : Fin 2, win5_5.index t a * S5000x40.size a ≤ (i a).val
      ∧ (i a).val < win5_5.index t a * S5000x40.size a + S5000x40.size a := by
  show i ∈ ((View.whole main_v75).slice (win5_5.rect t)).set ↔ _
  rw [View.set_slice_whole, Rect.mem_set_unit]
  exact Iff.rfl

/-- Every index of the result array is in some point's block: row r is in the block of point r / 5000. -/
theorem cover5 (i : S100000x40.Idx) :
    ∃ t : Fin cfg5.N, (cfg5.win 5).flush t = true ∧ i ∈ ((cfg5.win 5).blk t).view.set := by
  have hi0 : (i 0).val < 100000 := (i 0).isLt
  have hi1 : (i 1).val < 40 := (i 1).isLt
  have hN : cfg5.N = 20 := N_5
  have hlt : (i 0).val / 5000 < cfg5.N := by rw [hN]; omega
  obtain ⟨-, -, -, -, -, -, -, -, -, -, e0, e1⟩ := index_maps5 ⟨(i 0).val / 5000, hlt⟩
  refine ⟨⟨(i 0).val / 5000, hlt⟩, flush5_5 _, ?_⟩
  rw [mem_block5]
  intro a
  match a with
  | ⟨0, _⟩ =>
    show win5_5.index ⟨(i 0).val / 5000, hlt⟩ (0 : Fin 2) * 5000 ≤ (i 0).val
      ∧ (i 0).val < win5_5.index ⟨(i 0).val / 5000, hlt⟩ (0 : Fin 2) * 5000 + 5000
    rw [e0]; show (i 0).val / 5000 * 5000 ≤ (i 0).val ∧ (i 0).val < (i 0).val / 5000 * 5000 + 5000; omega
  | ⟨1, _⟩ =>
    show win5_5.index ⟨(i 0).val / 5000, hlt⟩ (1 : Fin 2) * 40 ≤ (i 1).val
      ∧ (i 1).val < win5_5.index ⟨(i 0).val / 5000, hlt⟩ (1 : Fin 2) * 40 + 40
    rw [e1]; omega

/-- The result array of the last layer's epilogue region, after its run. -/
theorem region5 : (Gen.dat5 (F := Ideal) V c).arrAt 5 cfg5.N
    = Cert.Spec.finalH (V c main_v73) (V c main_v14) (V c main_v74) (V c main_v62) (V c main_v20) :=
  (dat5 (F := Ideal) V c).arrAt_eq_of_cover 5 _ (fun t _ => writes5 V c t) (cover5)

end Cert.KernelIdeal.RegionsB

end
-- ==== Proof.KerValue.lean ====
/-
  The kernel program's result as one function of its arguments.

  The run leaves the result array at what the sixth region writes. Each region writes a whole-array function of the
  arrays it finds (the row tiles cover the node axis), and what it finds is either an argument, a host stage applied to
  arguments, or an earlier region's output: threading the six regions in order gives the layers
  conv, batch-norm, conv, batch-norm, and the projected last layer — the function kerOut of the specification.
-/
import proofs.«124566_j44289702756373_1_alg».proof.Proof.Spec
import proofs.«124566_j44289702756373_1_alg».proof.Proof.KerRun
import proofs.«124566_j44289702756373_1_alg».proof.Proof.RegionsA
import proofs.«124566_j44289702756373_1_alg».proof.Proof.RegionsB

noncomputable section

open scoped BigOperators

namespace Cert.KernelIdeal.KerValue

open Idealize.ShloMosaic Idealize.ShloMosaic.TcCoe Idealize.SL.Sem Cert.KernelIdeal Cert.KernelIdeal.Gen Cert.KernelIdeal.KerRun

variable (m : (ℓ : Loc nD τ sig) → Buf (Elt Ideal) ℓ) (ρ : Dev nD → PrngReg) (c : Dev nD)

/-- The first hidden layer before normalisation. -/
theorem Y0_eq : Y0 m ρ c = Cert.Spec.convK (a0 m c) (a3 m c) (a7 m c) (a1 m c) (a2 m c) := by
  obtain ⟨e0, e1, e2, e3, e4⟩ := entry0 m ρ c
  exact (Cert.KernelIdeal.RegionsA.region0 (V5 m ρ) c).trans (by rw [e0, e1, e2, e3, e4]; rfl)

/-- The first hidden layer. -/
theorem H1_eq : H1 m ρ c = Cert.Spec.bnK (Cert.Spec.convK (a0 m c) (a3 m c) (a7 m c) (a1 m c) (a2 m c)) (a10 m c) (a11 m c) := by
  obtain ⟨e0, e1, e2, e3, e4⟩ := entry1 m ρ c
  exact (Cert.KernelIdeal.RegionsB.region1 (V9 m ρ) c).trans (by rw [e0, e1, e2, e3, e4, Y0_eq]; rfl)

/-- The second hidden layer before normalisation. -/
theorem Y1_eq : Y1 m ρ c = Cert.Spec.convK (H1 m ρ c) (a4 m c) (a8 m c) (a1 m c) (a2 m c) := by
  obtain ⟨e0, e1, e2, e3, e4⟩ := entry2 m ρ c
  exact (Cert.KernelIdeal.RegionsA.region2 (V11 m ρ) c).trans (by rw [e0, e1, e2, e3, e4]; rfl)

/-- The second hidden layer. -/
theorem H2_eq : H2 m ρ c = Cert.Spec.bnK (Y1 m ρ c) (a12 m c) (a13 m c) := by
  obtain ⟨e0, e1, e2, e3, e4⟩ := entry3 m ρ c
  exact (Cert.KernelIdeal.RegionsB.region3 (V15 m ρ) c).trans (by rw [e0, e1, e2, e3, e4]; rfl)

/-- The projection of the last layer. -/
theorem P_eq : P m ρ c = Cert.Spec.prescaleH (H2 m ρ c) (Cert.Spec.colK (Cert.Spec.norm (a1 m c))) (Cert.Spec.tr40 (a5 m c)) := by
  obtain ⟨e0, e1, e2⟩ := entry4 m ρ c
  exact (Cert.KernelIdeal.RegionsA.region4 (V16 m ρ) c).trans (by rw [e0, e1, e2])

/-- The result array after the run. -/
theorem out_value : W19 m ρ c (Proc.devRef .tc main_v75)
    = Cert.Spec.kerOut (a0 m c) (a1 m c) (a2 m c) (a3 m c) (a4 m c) (a5 m c) (a6 m c) (a7 m c) (a8 m c) (a9 m c)
        (a10 m c) (a11 m c) (a12 m c) (a13 m c) := by
  obtain ⟨e0, e1, e2, e3, e4⟩ := entry5 m ρ c
  refine (out_eq m ρ c).trans ((Cert.KernelIdeal.RegionsB.region5 (V18 m ρ) c).trans ?_)
  rw [e0, e1, e2, e3, e4, P_eq, H2_eq, Y1_eq, H1_eq]
  rfl

end Cert.KernelIdeal.KerValue

end
-- ==== Proof.RefRunList.lean ====
/-
  The reference program's operations, in order, as seven consecutive lists, a function called by the program
  written out at its call over that call's own buffers. The cuts fall where a layer of the network ends (and where
  one of the program's three parts ends): a graph convolution, a batch normalisation with its rectifier,
  a second convolution, a second normalisation, and the last convolution with its bias. For each list, the buffers
  it writes; a buffer outside that set is left alone by the list.
-/
import proofs.«124566_j44289702756373_1_alg».proof.Proof.Spec
import Idealize.ShloMosaic.Lib.StableHlo.Run

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The first layer: the two degree counts and their inverse square roots, the rows of the input scaled by the source
    normalisation, gathered along the edges and summed at their targets, times the weights, scaled by the target
    normalisation, plus the skip product. -/
abbrev c1 : List (HloOp τ sig (Elt F)) :=
  [ StableHlo.nullary main_cst (constant S_ .f32 0x3F800000#32),
    StableHlo.unary main_cst main_v0 (broadcastInDim S1600000 ![] bcast_S_S1600000 : (⟨S_, .f32⟩ : BufTy).Contents (Elt F) → (⟨S1600000, .f32⟩ : BufTy).Contents (Elt F)),
    StableHlo.nullary main_cst_0 (constant S_ .f32 0x00000000#32),
    StableHlo.unary main_cst_0 main_v1 (broadcastInDim S100000 ![] bcast_S_S100000 : (⟨S_, .f32⟩ : BufTy).Contents (Elt F) → (⟨S100000, .f32⟩ : BufTy).Contents (Elt F)),
    StableHlo.unary main_arg1 main_v2 (broadcastInDim S1600000x1 ![0] bcast_S1600000_S1600000x1_0 : (⟨S1600000, .i32⟩ : BufTy).Contents (Elt F) → (⟨S1600000x1, .i32⟩ : BufTy).Contents (Elt F)),
    StableHlo.ternary main_v1 main_v2 main_v0 main_v3 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_1 (constant S_ .f32 0x3F800000#32),
    StableHlo.unary main_cst_1 main_call0_v0 (id : (⟨S_, .f32⟩ : BufTy).Contents (Elt F) → (⟨S_, .f32⟩ : BufTy).Contents (Elt F)),
    StableHlo.unary main_call0_v0 main_call0_v1 ((broadcastInDim S100000 ![] bcast_S_S100000) : (⟨S_, .f32⟩ : BufTy).Contents (Elt F) → (⟨S100000, .f32⟩ : BufTy).Contents (Elt F)),
    StableHlo.binary main_call0_v1 main_v3 main_v4 (maximumf : (⟨S100000, .f32⟩ : BufTy).Contents (Elt F) → (⟨S100000, .f32⟩ : BufTy).Contents (Elt F) → (⟨S100000, .f32⟩ : BufTy).Contents (Elt F)),
    StableHlo.nullary main_cst_2 (constant S_ .f32 0x00000000#32),
    StableHlo.unary main_cst_2 main_v5 (broadcastInDim S100000 ![] bcast_S_S100000 : (⟨S_, .f32⟩ : BufTy).Contents (Elt F) → (⟨S100000, .f32⟩ : BufTy).Contents (Elt F)),
    StableHlo.unary main_arg2 main_v6 (broadcastInDim S1600000x1 ![0] bcast_S1600000_S1600000x1_0 : (⟨S1600000, .i32⟩ : BufTy).Contents (Elt F) → (⟨S1600000x1, .i32⟩ : BufTy).Contents (Elt F)),
    StableHlo.ternary main_v5 main_v6 main_v0 main_v7 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    StableHlo.nullary main_cst_3 (constant S_ .f32 0x3F800000#32),
    StableHlo.unary main_cst_3 main_call1_v0 (id : (⟨S_, .f32⟩ : BufTy).Contents (Elt F) → (⟨S_, .f32⟩ : BufTy).Contents (Elt F)),
    StableHlo.unary main_call1_v0 main_call1_v1 ((broadcastInDim S100000 ![] bcast_S_S100000) : (⟨S_, .f32⟩ : BufTy).Contents (Elt F) → (⟨S100000, .f32⟩ : BufTy).Contents (Elt F)),
    StableHlo.binary main_call1_v1 main_v7 main_v8 (maximumf : (⟨S100000, .f32⟩ : BufTy).Contents (Elt F) → (⟨S100000, .f32⟩ : BufTy).Contents (Elt F) → (⟨S100000, .f32⟩ : BufTy).Contents (Elt F)),
    StableHlo.nullary main_cst_4 (constant S_ .f32 0xBF000000#32),
    StableHlo.unary main_cst_4 main_v9 (broadcastInDim S100000 ![] bcast_S_S100000 : (⟨S_, .f32⟩ : BufTy).Contents (Elt F) → (⟨S100000, .f32⟩ : BufTy).Contents (Elt F)),
    StableHlo.binary main_v4 main_v9 main_v10 (Host.powf : (⟨S100000, .f32⟩ : BufTy).Contents (Elt F) → (⟨S100000, .f32⟩ : BufTy).Contents (Elt F) → (⟨S100000, .f32⟩ : BufTy).Contents (Elt F)),
    StableHlo.nullary main_cst_5 (constant S_ .f32 0xBF000000#32),
    StableHlo.unary main_cst_5 main_v11 (broadcastInDim S100000 ![] bcast_S_S100000 : (⟨S_, .f32⟩ : BufTy).Contents (Elt F) → (⟨S100000, .f32⟩ : BufTy).Contents (Elt F)),
    StableHlo.binary main_v8 main_v11 main_v12 (Host.powf : (⟨S100000, .f32⟩ : BufTy).Contents (Elt F) → (⟨S100000, .f32⟩ : BufTy).Contents (Elt F) → (⟨S100000, .f32⟩ : BufTy).Contents (Elt F)),
    StableHlo.unary main_v10 main_v13 (broadcastInDim S100000x1 ![0] bcast_S100000_S100000x1_0 : (⟨S100000, .f32⟩ : BufTy).Contents (Elt F) → (⟨S100000x1, .f32⟩ : BufTy).Contents (Elt F)),
    StableHlo.unary main_v13 main_v14 (broadcastInDim S100000x128 ![0, 1] bcast_S100000x1_S100000x128_0_1 : (⟨S100000x1, .f32⟩ : BufTy).Contents (Elt F) → (⟨S100000x128, .f32⟩ : BufTy).Contents (Elt F)),
    StableHlo.binary main_arg0 main_v14 main_v15 (mulf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v16 (broadcastInDim S1600000 ![] bcast_S_S1600000 : (⟨S_, .i32⟩ : BufTy).Contents (Elt F) → (⟨S1600000, .i32⟩ : BufTy).Contents (Elt F)),
    StableHlo.binary main_arg1 main_v16 main_v17 (cmpi .slt : (⟨S1600000, .i32⟩ : BufTy).Contents (Elt F) → (⟨S1600000, .i32⟩ : BufTy).Contents (Elt F) → (⟨S1600000, .i1⟩ : BufTy).Contents (Elt F)),
    StableHlo.nullary main_c_6 (constantI S_ 32 100000#32),
    StableHlo.unary main_c_6 main_v18 (broadcastInDim S1600000 ![] bcast_S_S1600000 : (⟨S_, .i32⟩ : BufTy).Contents (Elt F) → (⟨S1600000, .i32⟩ : BufTy).Contents (Elt F)),
    StableHlo.binary main_arg1 main_v18 main_v19 (addi : (⟨S1600000, .i32⟩ : BufTy).Contents (Elt F) → (⟨S1600000, .i32⟩ : BufTy).Contents (Elt F) → (⟨S1600000, .i32⟩ : BufTy).Contents (Elt F)),
    StableHlo.ternary main_v17 main_v19 main_arg1 main_v20 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v20 main_v21 (broadcastInDim S1600000x1 ![0] bcast_S1600000_S1600000x1_0 : (⟨S1600000, .i32⟩ : BufTy).Contents (Elt F) → (⟨S1600000x1, .i32⟩ : BufTy).Contents (Elt F)),
    StableHlo.binary main_v15 main_v21 main_v22 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_7 (constant S_ .f32 0x00000000#32),
    StableHlo.unary main_cst_7 main_v23 (broadcastInDim S100000x128 ![] bcast_S_S100000x128 : (⟨S_, .f32⟩ : BufTy).Contents (Elt F) → (⟨S100000x128, .f32⟩ : BufTy).Contents (Elt F)),
    StableHlo.unary main_arg2 main_v24 (broadcastInDim S1600000x1 ![0] bcast_S1600000_S1600000x1_0 : (⟨S1600000, .i32⟩ : BufTy).Contents (Elt F) → (⟨S1600000x1, .i32⟩ : BufTy).Contents (Elt F)),
    StableHlo.ternary main_v23 main_v24 main_v22 main_v25 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg3 main_v26 ((transpose S128x128 [1, 0] · transposes_S128x128_S128x128_1_0) : (⟨S128x128, .f32⟩ : BufTy).Contents (Elt F) → (⟨S128x128, .f32⟩ : BufTy).Contents (Elt F)),
    StableHlo.binary main_v25 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v12 main_v28 (broadcastInDim S100000x1 ![0] bcast_S100000_S100000x1_0 : (⟨S100000, .f32⟩ : BufTy).Contents (Elt F) → (⟨S100000x1, .f32⟩ : BufTy).Contents (Elt F)),
    StableHlo.unary main_v28 main_v29 (broadcastInDim S100000x128 ![0, 1] bcast_S100000x1_S100000x128_0_1 : (⟨S100000x1, .f32⟩ : BufTy).Contents (Elt F) → (⟨S100000x128, .f32⟩ : BufTy).Contents (Elt F)),
    StableHlo.binary main_v27 main_v29 main_v30 (mulf : (⟨S100000x128, .f32⟩ : BufTy).Contents (Elt F) → (⟨S100000x128, .f32⟩ : BufTy).Contents (Elt F) → (⟨S100000x128, .f32⟩ : BufTy).Contents (Elt F)),
    StableHlo.unary main_arg7 main_v31 ((transpose S128x128 [1, 0] · transposes_S128x128_S128x128_1_0) : (⟨S128x128, .f32⟩ : BufTy).Contents (Elt F) → (⟨S128x128, .f32⟩ : BufTy).Contents (Elt F)),
    StableHlo.binary main_arg0 main_v31 main_v32 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v30 main_v32 main_v33 (addf : (⟨S100000x128, .f32⟩ : BufTy).Contents (Elt F) → (⟨S100000x128, .f32⟩ : BufTy).Contents (Elt F) → (⟨S100000x128, .f32⟩ : BufTy).Contents (Elt F)) ]

/-- The buffers the operations of `c1` write. -/
abbrev c1_W : List (Ref sig .tc) := [main_cst, main_v0, main_cst_0, main_v1, main_v2, main_v3, main_cst_1, main_call0_v0, main_call0_v1, main_v4, main_cst_2, main_v5, main_v6, main_v7, main_cst_3, main_call1_v0, main_call1_v1, main_v8, main_cst_4, main_v9, main_v10, main_cst_5, main_v11, main_v12, main_v13, main_v14, main_v15, main_c, main_v16, main_v17, main_c_6, main_v18, main_v19, main_v20, main_v21, main_v22, main_cst_7, main_v23, main_v24, main_v25, main_v26, main_v27, main_v28, main_v29, main_v30, main_v31, main_v32, main_v33]

/-- The first batch normalisation, first part: the column means, the biased column variances (the outlined variance
    function and its guard written out in place), and the reciprocal standard deviation laid down the nodes. -/
abbrev c2 : List (HloOp τ sig (Elt F)) :=
  [ StableHlo.nullary main_cst_8 (constant S_ .f32 0x00000000#32),
    StableHlo.binary main_v33 main_cst_8 main_v34 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_9 (constant S_ .f32 0x47C35000#32),
    StableHlo.unary main_cst_9 main_v35 (broadcastInDim S128 ![] bcast_S_S128 : (⟨S_, .f32⟩ : BufTy).Contents (Elt F) → (⟨S128, .f32⟩ : BufTy).Contents (Elt F)),
    StableHlo.binary main_v34 main_v35 main_v36 (Host.divf : (⟨S128, .f32⟩ : BufTy).Contents (Elt F) → (⟨S128, .f32⟩ : BufTy).Contents (Elt F) → (⟨S128, .f32⟩ : BufTy).Contents (Elt F)),
    StableHlo.nullary main_c_10 (constantI S_ 32 0#32),
    StableHlo.nullary main_call2_cst (constant S_ .f32 0x00000000#32),
    StableHlo.binary main_v33 main_call2_cst main_call2_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v0 main_call2_v1 ((broadcastInDim S1x128 ![1] bcast_S128_S1x128_1) : (⟨S128, .f32⟩ : BufTy).Contents (Elt F) → (⟨S1x128, .f32⟩ : BufTy).Contents (Elt F)),
    StableHlo.nullary main_call2_cst_0 (constant S_ .f32 0x47C35000#32),
    StableHlo.unary main_call2_cst_0 main_call2_v2 ((broadcastInDim S1x128 ![] bcast_S_S1x128) : (⟨S_, .f32⟩ : BufTy).Contents (Elt F) → (⟨S1x128, .f32⟩ : BufTy).Contents (Elt F)),
    StableHlo.binary main_call2_v1 main_call2_v2 main_call2_v3 (Host.divf : (⟨S1x128, .f32⟩ : BufTy).Contents (Elt F) → (⟨S1x128, .f32⟩ : BufTy).Contents (Elt F) → (⟨S1x128, .f32⟩ : BufTy).Contents (Elt F)),
    StableHlo.unary main_call2_v3 main_call2_v4 ((broadcastInDim S100000x128 ![0, 1] bcast_S1x128_S100000x128_0_1) : (⟨S1x128, .f32⟩ : BufTy).Contents (Elt F) → (⟨S100000x128, .f32⟩ : BufTy).Contents (Elt F)),
    StableHlo.binary main_v33 main_call2_v4 main_call2_v5 (subf : (⟨S100000x128, .f32⟩ : BufTy).Contents (Elt F) → (⟨S100000x128, .f32⟩ : BufTy).Contents (Elt F) → (⟨S100000x128, .f32⟩ : BufTy).Contents (Elt F)),
    StableHlo.binary main_call2_v5 main_call2_v5 main_call2_v6 (mulf : (⟨S100000x128, .f32⟩ : BufTy).Contents (Elt F) → (⟨S100000x128, .f32⟩ : BufTy).Contents (Elt F) → (⟨S100000x128, .f32⟩ : BufTy).Contents (Elt F)),
    StableHlo.unary main_c_10 main_call2_v7 ((sitofp .f32) : (⟨S_, .i32⟩ : BufTy).Contents (Elt F) → (⟨S_, .f32⟩ : BufTy).Contents (Elt F)),
    StableHlo.nullary main_call2_cst_1 (constant S_ .f32 0x47C35000#32),
    StableHlo.binary main_call2_cst_1 main_call2_v7 main_call2_v8 (subf : (⟨S_, .f32⟩ : BufTy).Contents (Elt F) → (⟨S_, .f32⟩ : BufTy).Contents (Elt F) → (⟨S_, .f32⟩ : BufTy).Contents (Elt F)),
    StableHlo.nullary main_call2_cst_2 (constant S_ .f32 0x00000000#32),
    StableHlo.binary main_call2_v6 main_call2_cst_2 main_call2_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call2_v8 main_call2_v10 ((broadcastInDim S128 ![] bcast_S_S128) : (⟨S_, .f32⟩ : BufTy).Contents (Elt F) → (⟨S128, .f32⟩ : BufTy).Contents (Elt F)),
    StableHlo.binary main_call2_v9 main_call2_v10 main_call2_v11 (Host.divf : (⟨S128, .f32⟩ : BufTy).Contents (Elt F) → (⟨S128, .f32⟩ : BufTy).Contents (Elt F) → (⟨S128, .f32⟩ : BufTy).Contents (Elt F)),
    StableHlo.nullary main_call2_cst_3 (constant S_ .f32 0x00000000#32),
    StableHlo.binary main_call2_v8 main_call2_cst_3 main_call2_v12 ((cmpf .ogt) : (⟨S_, .f32⟩ : BufTy).Contents (Elt F) → (⟨S_, .f32⟩ : BufTy).Contents (Elt F) → (⟨S_, .i1⟩ : BufTy).Contents (Elt F)),
    StableHlo.nullary main_call2_cst_4 (constant S_ .f32 0x7FC00000#32),
    StableHlo.unary main_call2_cst_4 main_call2_call0_v0 (id : (⟨S_, .f32⟩ : BufTy).Contents (Elt F) → (⟨S_, .f32⟩ : BufTy).Contents (Elt F)),
    StableHlo.unary main_call2_call0_v0 main_call2_call0_v1 ((broadcastInDim S128 ![] bcast_S_S128) : (⟨S_, .f32⟩ : BufTy).Contents (Elt F) → (⟨S128, .f32⟩ : BufTy).Contents (Elt F)),
    StableHlo.ternary main_call2_v12 main_call2_v11 main_call2_call0_v1 main_v37 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v36 main_v38 (broadcastInDim S1x128 ![1] bcast_S128_S1x128_1 : (⟨S128, .f32⟩ : BufTy).Contents (Elt F) → (⟨S1x128, .f32⟩ : BufTy).Contents (Elt F)),
    StableHlo.unary main_v38 main_v39 (broadcastInDim S100000x128 ![0, 1] bcast_S1x128_S100000x128_0_1 : (⟨S1x128, .f32⟩ : BufTy).Contents (Elt F) → (⟨S100000x128, .f32⟩ : BufTy).Contents (Elt F)),
    StableHlo.binary main_v33 main_v39 main_v40 (subf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x3727C5AC#32),
    StableHlo.unary main_cst_11 main_v41 (broadcastInDim S128 ![] bcast_S_S128 : (⟨S_, .f32⟩ : BufTy).Contents (Elt F) → (⟨S128, .f32⟩ : BufTy).Contents (Elt F)),
    StableHlo.binary main_v37 main_v41 main_v42 (addf : (⟨S128, .f32⟩ : BufTy).Contents (Elt F) → (⟨S128, .f32⟩ : BufTy).Contents (Elt F) → (⟨S128, .f32⟩ : BufTy).Contents (Elt F)),
    StableHlo.unary main_v42 main_v43 (Host.rsqrt : (⟨S128, .f32⟩ : BufTy).Contents (Elt F) → (⟨S128, .f32⟩ : BufTy).Contents (Elt F)),
    StableHlo.unary main_v43 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)) ]

/-- The buffers the operations of `c2` write. -/
abbrev c2_W : List (Ref sig .tc) := [main_cst_8, main_v34, main_cst_9, main_v35, main_v36, main_c_10, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v37, main_v38, main_v39, main_v40, main_cst_11, main_v41, main_v42, main_v43, main_v44, main_v45]

/-- The first batch normalisation, second part: scale, shift, and the rectifier (written out in place). -/
abbrev c3 : List (HloOp τ sig (Elt F)) :=
  [ StableHlo.binary main_v40 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_arg10 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)),
    StableHlo.binary main_v46 main_v48 main_v49 (mulf : (⟨S100000x128, .f32⟩ : BufTy).Contents (Elt F) → (⟨S100000x128, .f32⟩ : BufTy).Contents (Elt F) → (⟨S100000x128, .f32⟩ : BufTy).Contents (Elt F)),
    StableHlo.unary main_arg11 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S100000x128 ![0, 1] bcast_S1x128_S100000x128_0_1 : (⟨S1x128, .f32⟩ : BufTy).Contents (Elt F) → (⟨S100000x128, .f32⟩ : BufTy).Contents (Elt F)),
    StableHlo.binary main_v49 main_v51 main_v52 (addf : (⟨S100000x128, .f32⟩ : BufTy).Contents (Elt F) → (⟨S100000x128, .f32⟩ : BufTy).Contents (Elt F) → (⟨S100000x128, .f32⟩ : BufTy).Contents (Elt F)),
    StableHlo.nullary main_call3_cst (constant S_ .f32 0x00000000#32),
    StableHlo.unary main_call3_cst main_call3_v0 ((broadcastInDim S100000x128 ![] bcast_S_S100000x128) : (⟨S_, .f32⟩ : BufTy).Contents (Elt F) → (⟨S100000x128, .f32⟩ : BufTy).Contents (Elt F)),
    StableHlo.binary main_v52 main_call3_v0 main_v53 (maximumf : (⟨S100000x128, .f32⟩ : BufTy).Contents (Elt F) → (⟨S100000x128, .f32⟩ : BufTy).Contents (Elt F) → (⟨S100000x128, .f32⟩ : BufTy).Contents (Elt F)) ]

/-- The buffers the operations of `c3` write. -/
abbrev c3_W : List (Ref sig .tc) := [main_v46, main_v47, main_v48, main_v49, main_v50, main_v51, main_v52, main_call3_cst, main_call3_v0, main_v53]

/-- The second layer, from the first layer's normalised output and the two normalisations already computed. -/
abbrev c4 : List (HloOp τ sig (Elt F)) :=
  [ StableHlo.unary main_v10 main_v54 (broadcastInDim S100000x1 ![0] bcast_S100000_S100000x1_0 : (⟨S100000, .f32⟩ : BufTy).Contents (Elt F) → (⟨S100000x1, .f32⟩ : BufTy).Contents (Elt F)),
    StableHlo.unary main_v54 main_v55 (broadcastInDim S100000x128 ![0, 1] bcast_S100000x1_S100000x128_0_1 : (⟨S100000x1, .f32⟩ : BufTy).Contents (Elt F) → (⟨S100000x128, .f32⟩ : BufTy).Contents (Elt F)),
    StableHlo.binary main_v53 main_v55 main_v56 (mulf : (⟨S100000x128, .f32⟩ : BufTy).Contents (Elt F) → (⟨S100000x128, .f32⟩ : BufTy).Contents (Elt F) → (⟨S100000x128, .f32⟩ : BufTy).Contents (Elt F)),
    StableHlo.nullary main_c_12 (constantI S_ 32 0#32),
    StableHlo.unary main_c_12 main_v57 (broadcastInDim S1600000 ![] bcast_S_S1600000 : (⟨S_, .i32⟩ : BufTy).Contents (Elt F) → (⟨S1600000, .i32⟩ : BufTy).Contents (Elt F)),
    StableHlo.binary main_arg1 main_v57 main_v58 (cmpi .slt : (⟨S1600000, .i32⟩ : BufTy).Contents (Elt F) → (⟨S1600000, .i32⟩ : BufTy).Contents (Elt F) → (⟨S1600000, .i1⟩ : BufTy).Contents (Elt F)),
    StableHlo.nullary main_c_13 (constantI S_ 32 100000#32),
    StableHlo.unary main_c_13 main_v59 (broadcastInDim S1600000 ![] bcast_S_S1600000 : (⟨S_, .i32⟩ : BufTy).Contents (Elt F) → (⟨S1600000, .i32⟩ : BufTy).Contents (Elt F)),
    StableHlo.binary main_arg1 main_v59 main_v60 (addi : (⟨S1600000, .i32⟩ : BufTy).Contents (Elt F) → (⟨S1600000, .i32⟩ : BufTy).Contents (Elt F) → (⟨S1600000, .i32⟩ : BufTy).Contents (Elt F)),
    StableHlo.ternary main_v58 main_v60 main_arg1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v61 main_v62 (broadcastInDim S1600000x1 ![0] bcast_S1600000_S1600000x1_0 : (⟨S1600000, .i32⟩ : BufTy).Contents (Elt F) → (⟨S1600000x1, .i32⟩ : BufTy).Contents (Elt F)),
    StableHlo.binary main_v56 main_v62 main_v63 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_14 (constant S_ .f32 0x00000000#32),
    StableHlo.unary main_cst_14 main_v64 (broadcastInDim S100000x128 ![] bcast_S_S100000x128 : (⟨S_, .f32⟩ : BufTy).Contents (Elt F) → (⟨S100000x128, .f32⟩ : BufTy).Contents (Elt F)),
    StableHlo.unary main_arg2 main_v65 (broadcastInDim S1600000x1 ![0] bcast_S1600000_S1600000x1_0 : (⟨S1600000, .i32⟩ : BufTy).Contents (Elt F) → (⟨S1600000x1, .i32⟩ : BufTy).Contents (Elt F)),
    StableHlo.ternary main_v64 main_v65 main_v63 main_v66 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.unary main_arg4 main_v67 ((transpose S128x128 [1, 0] · transposes_S128x128_S128x128_1_0) : (⟨S128x128, .f32⟩ : BufTy).Contents (Elt F) → (⟨S128x128, .f32⟩ : BufTy).Contents (Elt F)),
    StableHlo.binary main_v66 main_v67 main_v68 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_v12 main_v69 (broadcastInDim S100000x1 ![0] bcast_S100000_S100000x1_0 : (⟨S100000, .f32⟩ : BufTy).Contents (Elt F) → (⟨S100000x1, .f32⟩ : BufTy).Contents (Elt F)),
    StableHlo.unary main_v69 main_v70 (broadcastInDim S100000x128 ![0, 1] bcast_S100000x1_S100000x128_0_1 : (⟨S100000x1, .f32⟩ : BufTy).Contents (Elt F) → (⟨S100000x128, .f32⟩ : BufTy).Contents (Elt F)),
    StableHlo.binary main_v68 main_v70 main_v71 (mulf : (⟨S100000x128, .f32⟩ : BufTy).Contents (Elt F) → (⟨S100000x128, .f32⟩ : BufTy).Contents (Elt F) → (⟨S100000x128, .f32⟩ : BufTy).Contents (Elt F)),
    StableHlo.unary main_arg8 main_v72 ((transpose S128x128 [1, 0] · transposes_S128x128_S128x128_1_0) : (⟨S128x128, .f32⟩ : BufTy).Contents (Elt F) → (⟨S128x128, .f32⟩ : BufTy).Contents (Elt F)),
    StableHlo.binary main_v53 main_v72 main_v73 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.binary main_v71 main_v73 main_v74 (addf : (⟨S100000x128, .f32⟩ : BufTy).Contents (Elt F) → (⟨S100000x128, .f32⟩ : BufTy).Contents (Elt F) → (⟨S100000x128, .f32⟩ : BufTy).Contents (Elt F)) ]

/-- The buffers the operations of `c4` write. -/
abbrev c4_W : List (Ref sig .tc) := [main_v54, main_v55, main_v56, main_c_12, main_v57, main_v58, main_c_13, main_v59, main_v60, main_v61, main_v62, main_v63, main_cst_14, main_v64, main_v65, main_v66, main_v67, main_v68, main_v69, main_v70, main_v71, main_v72, main_v73, main_v74]

/-- The second batch normalisation and rectifier. -/
abbrev c5 : List (HloOp τ sig (Elt F)) :=
  [ StableHlo.nullary main_cst_15 (constant S_ .f32 0x00000000#32),
    StableHlo.binary main_v74 main_cst_15 main_v75 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_16 (constant S_ .f32 0x47C35000#32),
    StableHlo.unary main_cst_16 main_v76 (broadcastInDim S128 ![] bcast_S_S128 : (⟨S_, .f32⟩ : BufTy).Contents (Elt F) → (⟨S128, .f32⟩ : BufTy).Contents (Elt F)),
    StableHlo.binary main_v75 main_v76 main_v77 (Host.divf : (⟨S128, .f32⟩ : BufTy).Contents (Elt F) → (⟨S128, .f32⟩ : BufTy).Contents (Elt F) → (⟨S128, .f32⟩ : BufTy).Contents (Elt F)),
    StableHlo.nullary main_c_17 (constantI S_ 32 0#32),
    StableHlo.nullary main_call4_cst (constant S_ .f32 0x00000000#32),
    StableHlo.binary main_v74 main_call4_cst main_call4_v0 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call4_v0 main_call4_v1 ((broadcastInDim S1x128 ![1] bcast_S128_S1x128_1) : (⟨S128, .f32⟩ : BufTy).Contents (Elt F) → (⟨S1x128, .f32⟩ : BufTy).Contents (Elt F)),
    StableHlo.nullary main_call4_cst_0 (constant S_ .f32 0x47C35000#32),
    StableHlo.unary main_call4_cst_0 main_call4_v2 ((broadcastInDim S1x128 ![] bcast_S_S1x128) : (⟨S_, .f32⟩ : BufTy).Contents (Elt F) → (⟨S1x128, .f32⟩ : BufTy).Contents (Elt F)),
    StableHlo.binary main_call4_v1 main_call4_v2 main_call4_v3 (Host.divf : (⟨S1x128, .f32⟩ : BufTy).Contents (Elt F) → (⟨S1x128, .f32⟩ : BufTy).Contents (Elt F) → (⟨S1x128, .f32⟩ : BufTy).Contents (Elt F)),
    StableHlo.unary main_call4_v3 main_call4_v4 ((broadcastInDim S100000x128 ![0, 1] bcast_S1x128_S100000x128_0_1) : (⟨S1x128, .f32⟩ : BufTy).Contents (Elt F) → (⟨S100000x128, .f32⟩ : BufTy).Contents (Elt F)),
    StableHlo.binary main_v74 main_call4_v4 main_call4_v5 (subf : (⟨S100000x128, .f32⟩ : BufTy).Contents (Elt F) → (⟨S100000x128, .f32⟩ : BufTy).Contents (Elt F) → (⟨S100000x128, .f32⟩ : BufTy).Contents (Elt F)),
    StableHlo.binary main_call4_v5 main_call4_v5 main_call4_v6 (mulf : (⟨S100000x128, .f32⟩ : BufTy).Contents (Elt F) → (⟨S100000x128, .f32⟩ : BufTy).Contents (Elt F) → (⟨S100000x128, .f32⟩ : BufTy).Contents (Elt F)),
    StableHlo.unary main_c_17 main_call4_v7 ((sitofp .f32) : (⟨S_, .i32⟩ : BufTy).Contents (Elt F) → (⟨S_, .f32⟩ : BufTy).Contents (Elt F)),
    StableHlo.nullary main_call4_cst_1 (constant S_ .f32 0x47C35000#32),
    StableHlo.binary main_call4_cst_1 main_call4_v7 main_call4_v8 (subf : (⟨S_, .f32⟩ : BufTy).Contents (Elt F) → (⟨S_, .f32⟩ : BufTy).Contents (Elt F) → (⟨S_, .f32⟩ : BufTy).Contents (Elt F)),
    StableHlo.nullary main_call4_cst_2 (constant S_ .f32 0x00000000#32),
    StableHlo.binary main_call4_v6 main_call4_cst_2 main_call4_v9 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.unary main_call4_v8 main_call4_v10 ((broadcastInDim S128 ![] bcast_S_S128) : (⟨S_, .f32⟩ : BufTy).Contents (Elt F) → (⟨S128, .f32⟩ : BufTy).Contents (Elt F)),
    StableHlo.binary main_call4_v9 main_call4_v10 main_call4_v11 (Host.divf : (⟨S128, .f32⟩ : BufTy).Contents (Elt F) → (⟨S128, .f32⟩ : BufTy).Contents (Elt F) → (⟨S128, .f32⟩ : BufTy).Contents (Elt F)),
    StableHlo.nullary main_call4_cst_3 (constant S_ .f32 0x00000000#32),
    StableHlo.binary main_call4_v8 main_call4_cst_3 main_call4_v12 ((cmpf .ogt) : (⟨S_, .f32⟩ : BufTy).Contents (Elt F) → (⟨S_, .f32⟩ : BufTy).Contents (Elt F) → (⟨S_, .i1⟩ : BufTy).Contents (Elt F)),
    StableHlo.nullary main_call4_cst_4 (constant S_ .f32 0x7FC00000#32),
    StableHlo.unary main_call4_cst_4 main_call4_call0_v0 (id : (⟨S_, .f32⟩ : BufTy).Contents (Elt F) → (⟨S_, .f32⟩ : BufTy).Contents (Elt F)),
    StableHlo.unary main_call4_call0_v0 main_call4_call0_v1 ((broadcastInDim S128 ![] bcast_S_S128) : (⟨S_, .f32⟩ : BufTy).Contents (Elt F) → (⟨S128, .f32⟩ : BufTy).Contents (Elt F)),
    StableHlo.ternary main_call4_v12 main_call4_v11 main_call4_call0_v1 main_v78 ((fun p a b => select (broadcastInDim S128 ![] bcast_S_S128 p) a b) : (⟨S_, .i1⟩ : BufTy).Contents (Elt F) → (⟨S128, .f32⟩ : BufTy).Contents (Elt F) → (⟨S128, .f32⟩ : BufTy).Contents (Elt F) → (⟨S128, .f32⟩ : BufTy).Contents (Elt F)),
    StableHlo.unary main_v77 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S100000x128 ![0, 1] bcast_S1x128_S100000x128_0_1 : (⟨S1x128, .f32⟩ : BufTy).Contents (Elt F) → (⟨S100000x128, .f32⟩ : BufTy).Contents (Elt F)),
    StableHlo.binary main_v74 main_v80 main_v81 (subf : (⟨S100000x128, .f32⟩ : BufTy).Contents (Elt F) → (⟨S100000x128, .f32⟩ : BufTy).Contents (Elt F) → (⟨S100000x128, .f32⟩ : BufTy).Contents (Elt F)),
    StableHlo.nullary main_cst_18 (constant S_ .f32 0x3727C5AC#32),
    StableHlo.unary main_cst_18 main_v82 (broadcastInDim S128 ![] bcast_S_S128 : (⟨S_, .f32⟩ : BufTy).Contents (Elt F) → (⟨S128, .f32⟩ : BufTy).Contents (Elt F)),
    StableHlo.binary main_v78 main_v82 main_v83 (addf : (⟨S128, .f32⟩ : BufTy).Contents (Elt F) → (⟨S128, .f32⟩ : BufTy).Contents (Elt F) → (⟨S128, .f32⟩ : BufTy).Contents (Elt F)),
    StableHlo.unary main_v83 main_v84 (Host.rsqrt : (⟨S128, .f32⟩ : BufTy).Contents (Elt F) → (⟨S128, .f32⟩ : BufTy).Contents (Elt F)),
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v86 main_v87 (mulf : (⟨S100000x128, .f32⟩ : BufTy).Contents (Elt F) → (⟨S100000x128, .f32⟩ : BufTy).Contents (Elt F) → (⟨S100000x128, .f32⟩ : BufTy).Contents (Elt F)),
    StableHlo.unary main_arg12 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v87 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_arg13 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (addf : (⟨S100000x128, .f32⟩ : BufTy).Contents (Elt F) → (⟨S100000x128, .f32⟩ : BufTy).Contents (Elt F) → (⟨S100000x128, .f32⟩ : BufTy).Contents (Elt F)),
    StableHlo.nullary main_call5_cst (constant S_ .f32 0x00000000#32),
    StableHlo.unary main_call5_cst main_call5_v0 ((broadcastInDim S100000x128 ![] bcast_S_S100000x128) : (⟨S_, .f32⟩ : BufTy).Contents (Elt F) → (⟨S100000x128, .f32⟩ : BufTy).Contents (Elt F)),
    StableHlo.binary main_v93 main_call5_v0 main_v94 (maximumf : (⟨S100000x128, .f32⟩ : BufTy).Contents (Elt F) → (⟨S100000x128, .f32⟩ : BufTy).Contents (Elt F) → (⟨S100000x128, .f32⟩ : BufTy).Contents (Elt F)) ]

/-- The buffers the operations of `c5` write. -/
abbrev c5_W : List (Ref sig .tc) := [main_cst_15, main_v75, main_cst_16, main_v76, main_v77, main_c_17, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v78, main_v79, main_v80, main_v81, main_cst_18, main_v82, main_v83, main_v84, main_v85, main_v86, main_v87, main_v88, main_v89, main_v90, main_v91, main_v92, main_v93, main_call5_cst, main_call5_v0, main_v94]

/-- The last layer, first part: the rows scaled by the source normalisation, and the transposed weights. -/
abbrev c6 : List (HloOp τ sig (Elt F)) :=
  [ StableHlo.unary main_v10 main_v95 (broadcastInDim S100000x1 ![0] bcast_S100000_S100000x1_0 : (⟨S100000, .f32⟩ : BufTy).Contents (Elt F) → (⟨S100000x1, .f32⟩ : BufTy).Contents (Elt F)),
    StableHlo.unary main_v95 main_v96 (broadcastInDim S100000x128 ![0, 1] bcast_S100000x1_S100000x128_0_1 : (⟨S100000x1, .f32⟩ : BufTy).Contents (Elt F) → (⟨S100000x128, .f32⟩ : BufTy).Contents (Elt F)),
    StableHlo.binary main_v94 main_v96 main_v97 (mulf : (⟨S100000x128, .f32⟩ : BufTy).Contents (Elt F) → (⟨S100000x128, .f32⟩ : BufTy).Contents (Elt F) → (⟨S100000x128, .f32⟩ : BufTy).Contents (Elt F)),
    StableHlo.unary main_arg5 main_v98 ((transpose S128x40 [1, 0] · transposes_S40x128_S128x40_1_0) : (⟨S40x128, .f32⟩ : BufTy).Contents (Elt F) → (⟨S128x40, .f32⟩ : BufTy).Contents (Elt F)) ]

/-- The buffers the operations of `c6` write. -/
abbrev c6_W : List (Ref sig .tc) := [main_v95, main_v96, main_v97, main_v98]

/-- The last layer, second part: the product into 40 columns, gathered and summed along the edges, scaled by the
    target normalisation, plus the bias, plus the skip product. -/
abbrev c7 : List (HloOp τ sig (Elt F)) :=
  [ StableHlo.binary main_v97 main_v98 main_v99 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.nullary main_c_19 (constantI S_ 32 0#32),
    StableHlo.unary main_c_19 main_v100 (broadcastInDim S1600000 ![] bcast_S_S1600000 : (⟨S_, .i32⟩ : BufTy).Contents (Elt F) → (⟨S1600000, .i32⟩ : BufTy).Contents (Elt F)),
    StableHlo.binary main_arg1 main_v100 main_v101 (cmpi .slt : (⟨S1600000, .i32⟩ : BufTy).Contents (Elt F) → (⟨S1600000, .i32⟩ : BufTy).Contents (Elt F) → (⟨S1600000, .i1⟩ : BufTy).Contents (Elt F)),
    StableHlo.nullary main_c_20 (constantI S_ 32 100000#32),
    StableHlo.unary main_c_20 main_v102 (broadcastInDim S1600000 ![] bcast_S_S1600000 : (⟨S_, .i32⟩ : BufTy).Contents (Elt F) → (⟨S1600000, .i32⟩ : BufTy).Contents (Elt F)),
    StableHlo.binary main_arg1 main_v102 main_v103 (addi : (⟨S1600000, .i32⟩ : BufTy).Contents (Elt F) → (⟨S1600000, .i32⟩ : BufTy).Contents (Elt F) → (⟨S1600000, .i32⟩ : BufTy).Contents (Elt F)),
    StableHlo.ternary main_v101 main_v103 main_arg1 main_v104 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v104 main_v105 (broadcastInDim S1600000x1 ![0] bcast_S1600000_S1600000x1_0 : (⟨S1600000, .i32⟩ : BufTy).Contents (Elt F) → (⟨S1600000x1, .i32⟩ : BufTy).Contents (Elt F)),
    StableHlo.binary main_v99 main_v105 main_v106 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    StableHlo.nullary main_cst_21 (constant S_ .f32 0x00000000#32),
    StableHlo.unary main_cst_21 main_v107 (broadcastInDim S100000x40 ![] bcast_S_S100000x40 : (⟨S_, .f32⟩ : BufTy).Contents (Elt F) → (⟨S100000x40, .f32⟩ : BufTy).Contents (Elt F)),
    StableHlo.unary main_arg2 main_v108 (broadcastInDim S1600000x1 ![0] bcast_S1600000_S1600000x1_0 : (⟨S1600000, .i32⟩ : BufTy).Contents (Elt F) → (⟨S1600000x1, .i32⟩ : BufTy).Contents (Elt F)),
    StableHlo.ternary main_v107 main_v108 main_v106 main_v109 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    StableHlo.unary main_v12 main_v110 (broadcastInDim S100000x1 ![0] bcast_S100000_S100000x1_0 : (⟨S100000, .f32⟩ : BufTy).Contents (Elt F) → (⟨S100000x1, .f32⟩ : BufTy).Contents (Elt F)),
    StableHlo.unary main_v110 main_v111 (broadcastInDim S100000x40 ![0, 1] bcast_S100000x1_S100000x40_0_1 : (⟨S100000x1, .f32⟩ : BufTy).Contents (Elt F) → (⟨S100000x40, .f32⟩ : BufTy).Contents (Elt F)),
    StableHlo.binary main_v109 main_v111 main_v112 (mulf : (⟨S100000x40, .f32⟩ : BufTy).Contents (Elt F) → (⟨S100000x40, .f32⟩ : BufTy).Contents (Elt F) → (⟨S100000x40, .f32⟩ : BufTy).Contents (Elt F)),
    StableHlo.unary main_arg6 main_v113 (broadcastInDim S1x40 ![1] bcast_S40_S1x40_1 : (⟨S40, .f32⟩ : BufTy).Contents (Elt F) → (⟨S1x40, .f32⟩ : BufTy).Contents (Elt F)),
    StableHlo.unary main_v113 main_v114 (broadcastInDim S100000x40 ![0, 1] bcast_S1x40_S100000x40_0_1 : (⟨S1x40, .f32⟩ : BufTy).Contents (Elt F) → (⟨S100000x40, .f32⟩ : BufTy).Contents (Elt F)),
    StableHlo.binary main_v112 main_v114 main_v115 (addf : (⟨S100000x40, .f32⟩ : BufTy).Contents (Elt F) → (⟨S100000x40, .f32⟩ : BufTy).Contents (Elt F) → (⟨S100000x40, .f32⟩ : BufTy).Contents (Elt F)),
    StableHlo.unary main_arg9 main_v116 ((transpose S128x40 [1, 0] · transposes_S40x128_S128x40_1_0) : (⟨S40x128, .f32⟩ : BufTy).Contents (Elt F) → (⟨S128x40, .f32⟩ : BufTy).Contents (Elt F)),
    StableHlo.binary main_v94 main_v116 main_v117 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    StableHlo.binary main_v115 main_v117 main_v118 (addf : (⟨S100000x40, .f32⟩ : BufTy).Contents (Elt F) → (⟨S100000x40, .f32⟩ : BufTy).Contents (Elt F) → (⟨S100000x40, .f32⟩ : BufTy).Contents (Elt F)) ]

/-- The buffers the operations of `c7` write. -/
abbrev c7_W : List (Ref sig .tc) := [main_v99, main_c_19, main_v100, main_v101, main_c_20, main_v102, main_v103, main_v104, main_v105, main_v106, main_cst_21, main_v107, main_v108, main_v109, main_v110, main_v111, main_v112, main_v113, main_v114, main_v115, main_v116, main_v117, main_v118]

/-- Running two lists one after the other is running their concatenation. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

end Cert.ReferenceIdeal.RefRun

end
-- ==== Proof.RefRunMain.lean ====
/-
  The reference program is the straight line of its operations: each of its three parts is the run of one or
  more of the seven lists one after the other (a called function's body standing at its call), so the whole program is
  the run of their concatenation; every operation touches device buffers only and determines its result. Hence, from any
  memory with zero counters, every weakly fair execution terminates with each buffer at the fold of the operations over
  the launch contents.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

variable {F : FTy → Type} [FloatOps F]

/-- The reference's operations in order: the seven lists, concatenated. -/
abbrev ops : List (HloOp τ sig (Elt F)) := c1 ++ (c2 ++ (c3 ++ (c4 ++ (c5 ++ (c6 ++ c7)))))

set_option maxRecDepth 8192 in
set_option maxHeartbeats 4000000 in
theorem main_part0_eq (c : Dev nD) : main_part0 (F := F) c = seq (c1 ++ c2) := rfl
set_option maxRecDepth 8192 in
set_option maxHeartbeats 4000000 in
theorem main_part1_eq (c : Dev nD) : main_part1 (F := F) c = seq (c3 ++ (c4 ++ (c5 ++ c6))) := rfl
set_option maxRecDepth 8192 in
set_option maxHeartbeats 4000000 in
theorem main_part2_eq (c : Dev nD) : main_part2 (F := F) c = seq c7 := rfl

set_option maxRecDepth 8192 in
theorem main_eq (c : Dev nD) : main (F := F) c = seq ops := by
  have h : (seq ops : Prog (TpuEff nD τ sig (Elt F) (Pipeline.Sig Λ₀ (Fin 0) fun p => (pcfgs (F := F) p).Adm) .tc) PUnit)
      = (seq (c1 ++ c2) >>= fun _ => seq (c3 ++ (c4 ++ (c5 ++ c6))) >>= fun _ => seq c7) := by
    rw [← seq_append, ← seq_append]
    simp only [ops, List.append_assoc]
  rw [h, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem c1_sub : (c1 : List (HloOp τ sig (Elt F))).Forall fun op => op.bufs ⊆ tcRefs τ sig :=
  ⟨nullary_bufs_sub .., unary_bufs_sub .., nullary_bufs_sub .., unary_bufs_sub .., unary_bufs_sub .., ternary_bufs_sub ..,
    nullary_bufs_sub .., unary_bufs_sub .., unary_bufs_sub .., binary_bufs_sub .., nullary_bufs_sub .., unary_bufs_sub ..,
    unary_bufs_sub .., ternary_bufs_sub .., nullary_bufs_sub .., unary_bufs_sub .., unary_bufs_sub .., binary_bufs_sub ..,
    nullary_bufs_sub .., unary_bufs_sub .., binary_bufs_sub .., nullary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., unary_bufs_sub .., binary_bufs_sub .., binary_bufs_sub ..⟩

set_option maxRecDepth 8192 in
theorem c2_sub : (c2 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub ..⟩

set_option maxRecDepth 8192 in
theorem c3_sub : (c3 : List (HloOp τ sig (Elt F))).Forall fun op => op.bufs ⊆ tcRefs τ sig :=
  ⟨binary_bufs_sub .., unary_bufs_sub .., unary_bufs_sub .., binary_bufs_sub .., unary_bufs_sub .., unary_bufs_sub ..,
    binary_bufs_sub .., nullary_bufs_sub .., unary_bufs_sub .., binary_bufs_sub ..⟩

set_option maxRecDepth 8192 in
theorem c4_sub : (c4 : List (HloOp τ sig (Elt F))).Forall fun op => op.bufs ⊆ tcRefs τ sig :=
  ⟨unary_bufs_sub .., unary_bufs_sub .., binary_bufs_sub .., nullary_bufs_sub .., unary_bufs_sub .., binary_bufs_sub ..,
    nullary_bufs_sub .., unary_bufs_sub .., binary_bufs_sub .., ternary_bufs_sub .., unary_bufs_sub .., binary_bufs_sub ..,
    nullary_bufs_sub .., unary_bufs_sub .., unary_bufs_sub .., ternary_bufs_sub .., unary_bufs_sub .., binary_bufs_sub ..,
    unary_bufs_sub .., unary_bufs_sub .., binary_bufs_sub .., unary_bufs_sub .., binary_bufs_sub .., binary_bufs_sub ..⟩

set_option maxRecDepth 8192 in
theorem c5_sub : (c5 : List (HloOp τ sig (Elt F))).Forall fun op => op.bufs ⊆ tcRefs τ sig :=
  ⟨nullary_bufs_sub .., binary_bufs_sub .., nullary_bufs_sub .., unary_bufs_sub .., binary_bufs_sub .., nullary_bufs_sub ..,
    nullary_bufs_sub .., binary_bufs_sub .., unary_bufs_sub .., nullary_bufs_sub .., unary_bufs_sub .., binary_bufs_sub ..,
    unary_bufs_sub .., binary_bufs_sub .., binary_bufs_sub .., unary_bufs_sub .., nullary_bufs_sub .., binary_bufs_sub ..,
    nullary_bufs_sub .., binary_bufs_sub .., unary_bufs_sub .., binary_bufs_sub .., nullary_bufs_sub .., binary_bufs_sub ..,
    nullary_bufs_sub .., unary_bufs_sub .., unary_bufs_sub .., ternary_bufs_sub .., unary_bufs_sub .., unary_bufs_sub ..,
    binary_bufs_sub .., nullary_bufs_sub .., unary_bufs_sub .., binary_bufs_sub .., unary_bufs_sub .., unary_bufs_sub ..,
    unary_bufs_sub .., binary_bufs_sub .., unary_bufs_sub .., unary_bufs_sub .., binary_bufs_sub .., unary_bufs_sub ..,
    unary_bufs_sub .., binary_bufs_sub .., nullary_bufs_sub .., unary_bufs_sub .., binary_bufs_sub ..⟩

set_option maxRecDepth 8192 in
theorem c6_sub : (c6 : List (HloOp τ sig (Elt F))).Forall fun op => op.bufs ⊆ tcRefs τ sig :=
  ⟨unary_bufs_sub .., unary_bufs_sub .., binary_bufs_sub .., unary_bufs_sub ..⟩

set_option maxRecDepth 8192 in
theorem c7_sub : (c7 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    unary_bufs_sub .., ternary_bufs_sub .., unary_bufs_sub .., unary_bufs_sub .., binary_bufs_sub .., unary_bufs_sub ..,
    unary_bufs_sub .., binary_bufs_sub .., unary_bufs_sub .., binary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h | h | h | h | h
    exacts [List.forall_iff_forall_mem.mp c1_sub op h, List.forall_iff_forall_mem.mp c2_sub op h,
      List.forall_iff_forall_mem.mp c3_sub op h, List.forall_iff_forall_mem.mp c4_sub op h,
      List.forall_iff_forall_mem.mp c5_sub op h, List.forall_iff_forall_mem.mp c6_sub op h,
      List.forall_iff_forall_mem.mp c7_sub op h]

set_option maxRecDepth 8192 in
theorem c1_fresh : ∀ op ∈ (c1 : List (HloOp τ sig (Elt F))), op.fresh = ∅ := by
  intro _ h; (repeat (cases h with | head => rfl | tail _ h => ?_)); exact nomatch h

set_option maxRecDepth 8192 in
theorem c2_fresh : ∀ op ∈ (c2 : List (HloOp τ sig (Elt F))), op.fresh = ∅ := by
  intro _ h; (repeat (cases h with | head => rfl | tail _ h => ?_)); exact nomatch h

set_option maxRecDepth 8192 in
theorem c3_fresh : ∀ op ∈ (c3 : List (HloOp τ sig (Elt F))), op.fresh = ∅ := by
  intro _ h; (repeat (cases h with | head => rfl | tail _ h => ?_)); exact nomatch h

set_option maxRecDepth 8192 in
theorem c4_fresh : ∀ op ∈ (c4 : List (HloOp τ sig (Elt F))), op.fresh = ∅ := by
  intro _ h; (repeat (cases h with | head => rfl | tail _ h => ?_)); exact nomatch h

set_option maxRecDepth 8192 in
theorem c5_fresh : ∀ op ∈ (c5 : List (HloOp τ sig (Elt F))), op.fresh = ∅ := by
  intro _ h; (repeat (cases h with | head => rfl | tail _ h => ?_)); exact nomatch h

set_option maxRecDepth 8192 in
theorem c6_fresh : ∀ op ∈ (c6 : List (HloOp τ sig (Elt F))), op.fresh = ∅ := by
  intro _ h; (repeat (cases h with | head => rfl | tail _ h => ?_)); exact nomatch h

set_option maxRecDepth 8192 in
theorem c7_fresh : ∀ op ∈ (c7 : List (HloOp τ sig (Elt F))), op.fresh = ∅ := by
  intro _ h; (repeat (cases h with | head => rfl | tail _ h => ?_)); exact nomatch h

theorem ops_fresh : ∀ op ∈ (ops : List (HloOp τ sig (Elt F))), op.fresh = ∅ := fun op h => by
  simp only [ops, List.mem_append] at h
  rcases h with h | h | h | h | h | h | h
  exacts [c1_fresh op h, c2_fresh op h, c3_fresh op h, c4_fresh op h, c5_fresh op h, c6_fresh op h, c7_fresh op h]

/-- From any memory with zero counters: every weakly fair execution of the reference terminates, and every buffer of
    every device ends at the fold of the operations over the device's launch contents. -/
theorem run_after (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefRunA.lean ====
/-
  The first graph convolution, read off its operations. From any contents V of the device's buffers, after the first
  list: the buffer of the layer's output holds  (agg(H · out) · W₁ᵀ) · in + H · L₁ᵀ  of the arguments' contents in V, where
  out and in are max(degree, 1)^(-1/2) over the edges' sources and targets; the two normalisation vectors sit in their own
  buffers, where the later layers read them again; and no argument is written.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- One operation's written buffer is in the list: the builders write their result buffer only. -/
local macro "w1" : term =>
  `(by simp only [nullary_writes, unary_writes, binary_writes, ternary_writes, Finset.singleton_subset_iff, List.mem_toFinset]; exact List.mem_map_of_mem (by decide))

set_option maxRecDepth 8192 in
set_option maxHeartbeats 4000000 in
/-- Every operation of `c1` writes a buffer of `c1_W`. -/
theorem c1_writes : (c1 : List (HloOp τ sig (Elt Ideal))).Forall fun op =>
    op.writes ⊆ (c1_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- A buffer `c1` does not write keeps its contents through it. -/
theorem c1_keep (V : Valuation τ sig (Elt Ideal)) (r : Ref sig .tc) (h : r ∉ c1_W) :
    after c1 V (Proc.devRef .tc r) = V (Proc.devRef .tc r) :=
  after_of_writes_sub c1 V c1_writes h

set_option maxRecDepth 8192 in
set_option maxHeartbeats 4000000 in
/-- The first layer's output. -/
theorem A_v33 (V : Valuation τ sig (Elt Ideal)) : after c1 V (Proc.devRef .tc main_v33)
    = Spec.convR (V (Proc.devRef .tc main_arg0)) (V (Proc.devRef .tc main_arg3)) (V (Proc.devRef .tc main_arg7)) (V (Proc.devRef .tc main_arg1)) (V (Proc.devRef .tc main_arg2)) := by
  simp only [c1]
  after_results_simp
  rfl

set_option maxRecDepth 8192 in
set_option maxHeartbeats 4000000 in
/-- The source normalisation max(out-degree, 1)^(-1/2). -/
theorem A_v10 (V : Valuation τ sig (Elt Ideal)) : after c1 V (Proc.devRef .tc main_v10) = Spec.norm (V (Proc.devRef .tc main_arg1)) := by
  simp only [c1]
  after_results_simp
  rfl

set_option maxRecDepth 8192 in
set_option maxHeartbeats 4000000 in
/-- The target normalisation max(in-degree, 1)^(-1/2). -/
theorem A_v12 (V : Valuation τ sig (Elt Ideal)) : after c1 V (Proc.devRef .tc main_v12) = Spec.norm (V (Proc.devRef .tc main_arg2)) := by
  simp only [c1]
  after_results_simp
  rfl

end Cert.ReferenceIdeal.RefRun

end
-- ==== Proof.RefRunB.lean ====
/-
  The first batch normalisation and rectifier, read off its operations. From any contents V, after the second and third
  lists the output buffer holds  max((y - mean) · (var + ε)^(-1/2) · γ + β, 0)  for y the contents of the first layer's
  output buffer in V: mean the column sums over 100000, var the biased column variance Σ (y - mean)² / (100000 - 0) under
  its guard "the divisor is positive, else not-a-number"; γ and β two of the arguments. No buffer outside the two lists'
  own is written.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- One operation's written buffer is in the list: the builders write their result buffer only. -/
local macro "w1" : term =>
  `(by simp only [nullary_writes, unary_writes, binary_writes, ternary_writes, Finset.singleton_subset_iff, List.mem_toFinset]; exact List.mem_map_of_mem (by decide))

set_option maxRecDepth 8192 in
set_option maxHeartbeats 4000000 in
/-- Every operation of `c2` writes a buffer of `c2_W`. -/
theorem c2_writes : (c2 : List (HloOp τ sig (Elt Ideal))).Forall fun op =>
    op.writes ⊆ (c2_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1⟩

/-- A buffer `c2` does not write keeps its contents through it. -/
theorem c2_keep (V : Valuation τ sig (Elt Ideal)) (r : Ref sig .tc) (h : r ∉ c2_W) :
    after c2 V (Proc.devRef .tc r) = V (Proc.devRef .tc r) :=
  after_of_writes_sub c2 V c2_writes h

set_option maxRecDepth 8192 in
set_option maxHeartbeats 4000000 in
/-- Every operation of `c3` writes a buffer of `c3_W`. -/
theorem c3_writes : (c3 : List (HloOp τ sig (Elt Ideal))).Forall fun op =>
    op.writes ⊆ (c3_W.map (Proc.devRef (τ := τ) .tc)).toFinset := by
  simp only [List.Forall]
  exact ⟨w1, w1, w1, w1, w1, w1, w1, w1, w1, w1⟩

/-- A buffer `c3` does not write keeps its contents through it. -/
theorem c3_keep (V : Valuation τ sig (Elt Ideal)) (r : Ref sig .tc) (h : r ∉ c3_W) :
    after c3 V (Proc.devRef .tc r) = V (Proc.devRef .tc r) :=
  after_of_writes_sub c3 V c3_writes h

/-- A buffer neither list writes keeps its contents through both. -/
theorem B_keep (V : Valuation τ sig (Elt Ideal)) (r : Ref sig .tc) (h2 : r ∉ c2_W) (h3 : r ∉ c3_W) :
    after c3 (after c2 V) (Proc.devRef .tc r) = V (Proc.devRef .tc r) :=
  (c3_keep _ r h3).trans (c2_keep V r h2)

set_option maxRecDepth 8192 in
set_option maxHeartbeats 4000000 in
/-- The normalised, rectified first layer. -/
theorem B_v53 (V : Valuation τ sig (Elt Ideal)) : after c3 (after c2 V) (Proc.devRef .tc main_v53)
    = Spec.bnR (V (Proc.devRef .tc main_v33)) (V (Proc.devRef .tc main_arg10)) (V (Proc.devRef .tc main_arg11)) := by
  simp only [c2, c3]
  after_results_simp
  rfl

end Cert.ReferenceIdeal.RefRun

end
-- ==== Proof.RefRunC.lean ====
/-
  The second graph convolution, read off its operations: from any contents V in which the two normalisation buffers hold
  max(degree, 1)^(-1/2) of the edges' sources and targets, after the fourth list the output buffer holds
  (agg(H · out) · W₂ᵀ) · in + H · L₂ᵀ  for H the contents of the first normalised layer's buffer in V.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- One operation's written buffer is in the list: the builders write their result buffer only. -/
local macro "w1" : term =>
  `(by simp only [nullary_writes, unary_writes, binary_writes, ternary_writes, Finset.singleton_subset_iff, List.mem_toFinset]; exact List.mem_map_of_mem (by decide))

set_option maxRecDepth 8192 in
set_option maxHeartbeats 4000000 in
/-- Every operation of `c4` writes a buffer of `c4_W`. -/
theorem c4_writes : (c4 : List (HloOp τ sig (Elt Ideal))).Forall fun op =>
    op.writes ⊆ (c4_W.map (Proc.devRef (τ := τ) .tc)).toFinset := by
  simp only [List.Forall]
  exact ⟨w1, w1, w1, w1, w1, w1, w1, w1, w1, w1, w1, w1, w1, w1, w1, w1, w1, w1, w1, w1, w1, w1, w1, w1⟩

/-- A buffer `c4` does not write keeps its contents through it. -/
theorem c4_keep (V : Valuation τ sig (Elt Ideal)) (r : Ref sig .tc) (h : r ∉ c4_W) :
    after c4 V (Proc.devRef .tc r) = V (Proc.devRef .tc r) :=
  after_of_writes_sub c4 V c4_writes h

set_option maxRecDepth 8192 in
set_option maxHeartbeats 4000000 in
/-- The second layer's output. -/
theorem C_v74 (V : Valuation τ sig (Elt Ideal)) (h10 : V (Proc.devRef .tc main_v10) = Spec.norm (V (Proc.devRef .tc main_arg1)))
    (h12 : V (Proc.devRef .tc main_v12) = Spec.norm (V (Proc.devRef .tc main_arg2))) : after c4 V (Proc.devRef .tc main_v74)
    = Spec.convR (V (Proc.devRef .tc main_v53)) (V (Proc.devRef .tc main_arg4)) (V (Proc.devRef .tc main_arg8)) (V (Proc.devRef .tc main_arg1)) (V (Proc.devRef .tc main_arg2)) := by
  simp only [c4]
  after_results_simp
  rw [h10, h12]
  rfl

end Cert.ReferenceIdeal.RefRun

end
-- ==== Proof.RefRunD.lean ====
/-
  The second batch normalisation and rectifier, read off its operations: from any contents V, after the fifth list the
  output buffer holds  max((y - mean) · (var + ε)^(-1/2) · γ + β, 0)  for y the contents of the second layer's output
  buffer in V, with the column mean and the guarded biased column variance as in the first normalisation.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- One operation's written buffer is in the list: the builders write their result buffer only. -/
local macro "w1" : term =>
  `(by simp only [nullary_writes, unary_writes, binary_writes, ternary_writes, Finset.singleton_subset_iff, List.mem_toFinset]; exact List.mem_map_of_mem (by decide))

set_option maxRecDepth 8192 in
set_option maxHeartbeats 4000000 in
/-- Every operation of `c5` writes a buffer of `c5_W`. -/
theorem c5_writes : (c5 : List (HloOp τ sig (Elt Ideal))).Forall fun op =>
    op.writes ⊆ (c5_W.map (Proc.devRef (τ := τ) .tc)).toFinset := by
  simp only [List.Forall]
  exact ⟨w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1, w1⟩

/-- A buffer `c5` does not write keeps its contents through it. -/
theorem c5_keep (V : Valuation τ sig (Elt Ideal)) (r : Ref sig .tc) (h : r ∉ c5_W) :
    after c5 V (Proc.devRef .tc r) = V (Proc.devRef .tc r) :=
  after_of_writes_sub c5 V c5_writes h

set_option maxRecDepth 8192 in
set_option maxHeartbeats 4000000 in
/-- The normalised, rectified second layer. -/
theorem D_v94 (V : Valuation τ sig (Elt Ideal)) : after c5 V (Proc.devRef .tc main_v94)
    = Spec.bnR (V (Proc.devRef .tc main_v74)) (V (Proc.devRef .tc main_arg12)) (V (Proc.devRef .tc main_arg13)) := by
  simp only [c5]
  after_results_simp
  rfl

end Cert.ReferenceIdeal.RefRun

end
-- ==== Proof.RefRunE.lean ====
/-
  The last graph convolution, read off its operations: from any contents V in which the two normalisation buffers hold
  max(degree, 1)^(-1/2) of the edges' sources and targets, after the sixth and seventh lists the result buffer holds
  agg((H · out) · W₃ᵀ) · in + b + H · L₃ᵀ  in 40 columns, for H the contents of the second normalised layer's buffer in V.
-/
import proofs.«124566_j44289702756373_1_alg».proof.Proof.RefRunList

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- One operation's written buffer is in the list: the builders write their result buffer only. -/
local macro "w1" : term =>
  `(by simp only [nullary_writes, unary_writes, binary_writes, ternary_writes, Finset.singleton_subset_iff, List.mem_toFinset]; exact List.mem_map_of_mem (by decide))

set_option maxRecDepth 8192 in
set_option maxHeartbeats 4000000 in
/-- Every operation of `c6` writes a buffer of `c6_W`. -/
theorem c6_writes : (c6 : List (HloOp τ sig (Elt Ideal))).Forall fun op =>
    op.writes ⊆ (c6_W.map (Proc.devRef (τ := τ) .tc)).toFinset := by
  simp only [List.Forall]
  exact ⟨w1, w1, w1, w1⟩

/-- A buffer `c6` does not write keeps its contents through it. -/
theorem c6_keep (V : Valuation τ sig (Elt Ideal)) (r : Ref sig .tc) (h : r ∉ c6_W) :
    after c6 V (Proc.devRef .tc r) = V (Proc.devRef .tc r) :=
  after_of_writes_sub c6 V c6_writes h

set_option maxRecDepth 8192 in
set_option maxHeartbeats 4000000 in
/-- Every operation of `c7` writes a buffer of `c7_W`. -/
theorem c7_writes : (c7 : List (HloOp τ sig (Elt Ideal))).Forall fun op =>
    op.writes ⊆ (c7_W.map (Proc.devRef (τ := τ) .tc)).toFinset := by
  simp only [List.Forall]
  exact ⟨w1, w1, w1, w1, w1, w1, w1, w1, w1, w1, w1, w1, w1, w1, w1, w1, w1, w1, w1, w1, w1, w1, w1⟩

/-- A buffer `c7` does not write keeps its contents through it. -/
theorem c7_keep (V : Valuation τ sig (Elt Ideal)) (r : Ref sig .tc) (h : r ∉ c7_W) :
    after c7 V (Proc.devRef .tc r) = V (Proc.devRef .tc r) :=
  after_of_writes_sub c7 V c7_writes h

/-- A buffer neither list writes keeps its contents through both. -/
theorem E_keep (V : Valuation τ sig (Elt Ideal)) (r : Ref sig .tc) (h6 : r ∉ c6_W) (h7 : r ∉ c7_W) :
    after c7 (after c6 V) (Proc.devRef .tc r) = V (Proc.devRef .tc r) :=
  (c7_keep _ r h7).trans (c6_keep V r h6)

set_option maxRecDepth 8192 in
set_option maxHeartbeats 4000000 in
/-- The program's result. -/
theorem E_v118 (V : Valuation τ sig (Elt Ideal)) (h10 : V (Proc.devRef .tc main_v10) = Spec.norm (V (Proc.devRef .tc main_arg1)))
    (h12 : V (Proc.devRef .tc main_v12) = Spec.norm (V (Proc.devRef .tc main_arg2))) : after c7 (after c6 V) (Proc.devRef .tc main_v118)
    = Spec.lastR (V (Proc.devRef .tc main_v94)) (V (Proc.devRef .tc main_arg5)) (V (Proc.devRef .tc main_arg9)) (V (Proc.devRef .tc main_arg6)) (V (Proc.devRef .tc main_arg1)) (V (Proc.devRef .tc main_arg2)) := by
  simp only [c6, c7]
  after_results_simp
  rw [h10, h12]
  rfl

end Cert.ReferenceIdeal.RefRun

end
-- ==== Proof.RefRun.lean ====
/-
  The reference's run. Every weakly fair execution of the reference program terminates; the result buffer then holds
      last(bn(conv(bn(conv(x)))))
  of the fourteen arguments' launch contents — conv a graph convolution (gather along the edges, sum at the targets, the
  two degree normalisations, the weights and the skip weights), bn a batch normalisation over the nodes followed by the
  rectifier, last the convolution into 40 columns with its bias — and the fourteen arguments are unchanged.

  The fold of the 193 operations is read back layer by layer: after each layer's operations the layer's output buffer
  holds the layer's function of the previous output and of the arguments (a lemma about that layer's operations alone,
  from any contents), the two normalisation vectors computed in the first layer stay in their buffers, and the arguments
  are never written.
-/
import proofs.«124566_j44289702756373_1_alg».proof.Proof.RefRunMain
import proofs.«124566_j44289702756373_1_alg».proof.Proof.RefRunA
import proofs.«124566_j44289702756373_1_alg».proof.Proof.RefRunB
import proofs.«124566_j44289702756373_1_alg».proof.Proof.RefRunC
import proofs.«124566_j44289702756373_1_alg».proof.Proof.RefRunD
import proofs.«124566_j44289702756373_1_alg».proof.Proof.RefRunE

noncomputable section

namespace Cert.ReferenceIdeal.RefRun

open Cert.ReferenceIdeal Cert.ReferenceIdeal.Facts₀ Idealize.ShloMosaic Idealize.ShloMosaic.TcCoe Idealize.SL.Sem Idealize.ShloMosaic.StableHlo

/-- A buffer none of the seven lists writes keeps its contents through the whole program. -/
theorem ops_keep (V : Valuation τ sig (Elt Ideal)) (r : Ref sig .tc) (h1 : r ∉ c1_W) (h2 : r ∉ c2_W) (h3 : r ∉ c3_W) (h4 : r ∉ c4_W)
    (h5 : r ∉ c5_W) (h6 : r ∉ c6_W) (h7 : r ∉ c7_W) : after ops V (Proc.devRef .tc r) = V (Proc.devRef .tc r) := by
  show after (c1 ++ (c2 ++ (c3 ++ (c4 ++ (c5 ++ (c6 ++ c7)))))) V _ = _
  rw [after_app, after_app, after_app, after_app, after_app, after_app, c7_keep _ r h7, c6_keep _ r h6, c5_keep _ r h5,
    c4_keep _ r h4, c3_keep _ r h3, c2_keep _ r h2, c1_keep V r h1]

set_option maxRecDepth 8192 in
set_option maxHeartbeats 4000000 in
/-- The fold of all the operations at the result buffer, from any contents: the composed layers of the arguments. -/
theorem out_eq (V0 : Valuation τ sig (Elt Ideal)) : after ops V0 (Proc.devRef .tc main_v118)
    = Spec.refOut (V0 (Proc.devRef .tc main_arg0)) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg10)) (V0 (Proc.devRef .tc main_arg11)) (V0 (Proc.devRef .tc main_arg12)) (V0 (Proc.devRef .tc main_arg13)) := by
  show after (c1 ++ (c2 ++ (c3 ++ (c4 ++ (c5 ++ (c6 ++ c7)))))) V0 _ = _
  rw [after_app, after_app, after_app, after_app, after_app, after_app]
  unfold Spec.refOut
  -- the first convolution
  have x1 : (after c1 V0) (Proc.devRef .tc main_v33) = Spec.convR (V0 (Proc.devRef .tc main_arg0)) (V0 (Proc.devRef .tc main_arg3)) (V0 (Proc.devRef .tc main_arg7)) (V0 (Proc.devRef .tc main_arg1)) (V0 (Proc.devRef .tc main_arg2)) := A_v33 V0
  have p1 : (after c1 V0) (Proc.devRef .tc main_v10) = Spec.norm (V0 (Proc.devRef .tc main_arg1)) := A_v10 V0
  have q1 : (after c1 V0) (Proc.devRef .tc main_v12) = Spec.norm (V0 (Proc.devRef .tc main_arg2)) := A_v12 V0
  have e1_1 : (after c1 V0) (Proc.devRef .tc main_arg1) = V0 (Proc.devRef .tc main_arg1) := c1_keep V0 main_arg1 (by decide)
  have e1_2 : (after c1 V0) (Proc.devRef .tc main_arg2) = V0 (Proc.devRef .tc main_arg2) := c1_keep V0 main_arg2 (by decide)
  have e1_4 : (after c1 V0) (Proc.devRef .tc main_arg4) = V0 (Proc.devRef .tc main_arg4) := c1_keep V0 main_arg4 (by decide)
  have e1_5 : (after c1 V0) (Proc.devRef .tc main_arg5) = V0 (Proc.devRef .tc main_arg5) := c1_keep V0 main_arg5 (by decide)
  have e1_6 : (after c1 V0) (Proc.devRef .tc main_arg6) = V0 (Proc.devRef .tc main_arg6) := c1_keep V0 main_arg6 (by decide)
  have e1_8 : (after c1 V0) (Proc.devRef .tc main_arg8) = V0 (Proc.devRef .tc main_arg8) := c1_keep V0 main_arg8 (by decide)
  have e1_9 : (after c1 V0) (Proc.devRef .tc main_arg9) = V0 (Proc.devRef .tc main_arg9) := c1_keep V0 main_arg9 (by decide)
  have e1_10 : (after c1 V0) (Proc.devRef .tc main_arg10) = V0 (Proc.devRef .tc main_arg10) := c1_keep V0 main_arg10 (by decide)
  have e1_11 : (after c1 V0) (Proc.devRef .tc main_arg11) = V0 (Proc.devRef .tc main_arg11) := c1_keep V0 main_arg11 (by decide)
  have e1_12 : (after c1 V0) (Proc.devRef .tc main_arg12) = V0 (Proc.devRef .tc main_arg12) := c1_keep V0 main_arg12 (by decide)
  have e1_13 : (after c1 V0) (Proc.devRef .tc main_arg13) = V0 (Proc.devRef .tc main_arg13) := c1_keep V0 main_arg13 (by decide)
  -- the first normalisation
  have x2 : (after c3 (after c2 (after c1 V0))) (Proc.devRef .tc main_v53) = Spec.bnR (Spec.convR (V0 (Proc.devRef .tc main_arg0)) (V0 (Proc.devRef .tc main_arg3)) (V0 (Proc.devRef .tc main_arg7)) (V0 (Proc.devRef .tc main_arg1)) (V0 (Proc.devRef .tc main_arg2))) (V0 (Proc.devRef .tc main_arg10)) (V0 (Proc.devRef .tc main_arg11)) := by
    rw [B_v53 (after c1 V0), x1, e1_10, e1_11]
  have p2 : (after c3 (after c2 (after c1 V0))) (Proc.devRef .tc main_v10) = Spec.norm (V0 (Proc.devRef .tc main_arg1)) := (B_keep (after c1 V0) main_v10 (by decide) (by decide)).trans p1
  have q2 : (after c3 (after c2 (after c1 V0))) (Proc.devRef .tc main_v12) = Spec.norm (V0 (Proc.devRef .tc main_arg2)) := (B_keep (after c1 V0) main_v12 (by decide) (by decide)).trans q1
  have e2_1 : (after c3 (after c2 (after c1 V0))) (Proc.devRef .tc main_arg1) = V0 (Proc.devRef .tc main_arg1) := (B_keep (after c1 V0) main_arg1 (by decide) (by decide)).trans e1_1
  have e2_2 : (after c3 (after c2 (after c1 V0))) (Proc.devRef .tc main_arg2) = V0 (Proc.devRef .tc main_arg2) := (B_keep (after c1 V0) main_arg2 (by decide) (by decide)).trans e1_2
  have e2_4 : (after c3 (after c2 (after c1 V0))) (Proc.devRef .tc main_arg4) = V0 (Proc.devRef .tc main_arg4) := (B_keep (after c1 V0) main_arg4 (by decide) (by decide)).trans e1_4
  have e2_5 : (after c3 (after c2 (after c1 V0))) (Proc.devRef .tc main_arg5) = V0 (Proc.devRef .tc main_arg5) := (B_keep (after c1 V0) main_arg5 (by decide) (by decide)).trans e1_5
  have e2_6 : (after c3 (after c2 (after c1 V0))) (Proc.devRef .tc main_arg6) = V0 (Proc.devRef .tc main_arg6) := (B_keep (after c1 V0) main_arg6 (by decide) (by decide)).trans e1_6
  have e2_8 : (after c3 (after c2 (after c1 V0))) (Proc.devRef .tc main_arg8) = V0 (Proc.devRef .tc main_arg8) := (B_keep (after c1 V0) main_arg8 (by decide) (by decide)).trans e1_8
  have e2_9 : (after c3 (after c2 (after c1 V0))) (Proc.devRef .tc main_arg9) = V0 (Proc.devRef .tc main_arg9) := (B_keep (after c1 V0) main_arg9 (by decide) (by decide)).trans e1_9
  have e2_12 : (after c3 (after c2 (after c1 V0))) (Proc.devRef .tc main_arg12) = V0 (Proc.devRef .tc main_arg12) := (B_keep (after c1 V0) main_arg12 (by decide) (by decide)).trans e1_12
  have e2_13 : (after c3 (after c2 (after c1 V0))) (Proc.devRef .tc main_arg13) = V0 (Proc.devRef .tc main_arg13) := (B_keep (after c1 V0) main_arg13 (by decide) (by decide)).trans e1_13
  -- the second convolution
  have x3 : (after c4 (after c3 (after c2 (after c1 V0)))) (Proc.devRef .tc main_v74) = Spec.convR (Spec.bnR (Spec.convR (V0 (Proc.devRef .tc main_arg0)) (V0 (Proc.devRef .tc main_arg3)) (V0 (Proc.devRef .tc main_arg7)) (V0 (Proc.devRef .tc main_arg1)) (V0 (Proc.devRef .tc main_arg2))) (V0 (Proc.devRef .tc main_arg10)) (V0 (Proc.devRef .tc main_arg11))) (V0 (Proc.devRef .tc main_arg4)) (V0 (Proc.devRef .tc main_arg8)) (V0 (Proc.devRef .tc main_arg1)) (V0 (Proc.devRef .tc main_arg2)) := by
    rw [C_v74 (after c3 (after c2 (after c1 V0))) (by rw [e2_1]; exact p2) (by rw [e2_2]; exact q2), x2, e2_4, e2_8, e2_1, e2_2]
  have p3 : (after c4 (after c3 (after c2 (after c1 V0)))) (Proc.devRef .tc main_v10) = Spec.norm (V0 (Proc.devRef .tc main_arg1)) := (c4_keep (after c3 (after c2 (after c1 V0))) main_v10 (by decide)).trans p2
  have q3 : (after c4 (after c3 (after c2 (after c1 V0)))) (Proc.devRef .tc main_v12) = Spec.norm (V0 (Proc.devRef .tc main_arg2)) := (c4_keep (after c3 (after c2 (after c1 V0))) main_v12 (by decide)).trans q2
  have e3_1 : (after c4 (after c3 (after c2 (after c1 V0)))) (Proc.devRef .tc main_arg1) = V0 (Proc.devRef .tc main_arg1) := (c4_keep (after c3 (after c2 (after c1 V0))) main_arg1 (by decide)).trans e2_1
  have e3_2 : (after c4 (after c3 (after c2 (after c1 V0)))) (Proc.devRef .tc main_arg2) = V0 (Proc.devRef .tc main_arg2) := (c4_keep (after c3 (after c2 (after c1 V0))) main_arg2 (by decide)).trans e2_2
  have e3_5 : (after c4 (after c3 (after c2 (after c1 V0)))) (Proc.devRef .tc main_arg5) = V0 (Proc.devRef .tc main_arg5) := (c4_keep (after c3 (after c2 (after c1 V0))) main_arg5 (by decide)).trans e2_5
  have e3_6 : (after c4 (after c3 (after c2 (after c1 V0)))) (Proc.devRef .tc main_arg6) = V0 (Proc.devRef .tc main_arg6) := (c4_keep (after c3 (after c2 (after c1 V0))) main_arg6 (by decide)).trans e2_6
  have e3_9 : (after c4 (after c3 (after c2 (after c1 V0)))) (Proc.devRef .tc main_arg9) = V0 (Proc.devRef .tc main_arg9) := (c4_keep (after c3 (after c2 (after c1 V0))) main_arg9 (by decide)).trans e2_9
  have e3_12 : (after c4 (after c3 (after c2 (after c1 V0)))) (Proc.devRef .tc main_arg12) = V0 (Proc.devRef .tc main_arg12) := (c4_keep (after c3 (after c2 (after c1 V0))) main_arg12 (by decide)).trans e2_12
  have e3_13 : (after c4 (after c3 (after c2 (after c1 V0)))) (Proc.devRef .tc main_arg13) = V0 (Proc.devRef .tc main_arg13) := (c4_keep (after c3 (after c2 (after c1 V0))) main_arg13 (by decide)).trans e2_13
  -- the second normalisation
  have x4 : (after c5 (after c4 (after c3 (after c2 (after c1 V0))))) (Proc.devRef .tc main_v94) = Spec.bnR (Spec.convR (Spec.bnR (Spec.convR (V0 (Proc.devRef .tc main_arg0)) (V0 (Proc.devRef .tc main_arg3)) (V0 (Proc.devRef .tc main_arg7)) (V0 (Proc.devRef .tc main_arg1)) (V0 (Proc.devRef .tc main_arg2))) (V0 (Proc.devRef .tc main_arg10)) (V0 (Proc.devRef .tc main_arg11))) (V0 (Proc.devRef .tc main_arg4)) (V0 (Proc.devRef .tc main_arg8)) (V0 (Proc.devRef .tc main_arg1)) (V0 (Proc.devRef .tc main_arg2))) (V0 (Proc.devRef .tc main_arg12)) (V0 (Proc.devRef .tc main_arg13)) := by
    rw [D_v94 (after c4 (after c3 (after c2 (after c1 V0)))), x3, e3_12, e3_13]
  have p4 : (after c5 (after c4 (after c3 (after c2 (after c1 V0))))) (Proc.devRef .tc main_v10) = Spec.norm (V0 (Proc.devRef .tc main_arg1)) := (c5_keep (after c4 (after c3 (after c2 (after c1 V0)))) main_v10 (by decide)).trans p3
  have q4 : (after c5 (after c4 (after c3 (after c2 (after c1 V0))))) (Proc.devRef .tc main_v12) = Spec.norm (V0 (Proc.devRef .tc main_arg2)) := (c5_keep (after c4 (after c3 (after c2 (after c1 V0)))) main_v12 (by decide)).trans q3
  have e4_1 : (after c5 (after c4 (after c3 (after c2 (after c1 V0))))) (Proc.devRef .tc main_arg1) = V0 (Proc.devRef .tc main_arg1) := (c5_keep (after c4 (after c3 (after c2 (after c1 V0)))) main_arg1 (by decide)).trans e3_1
  have e4_2 : (after c5 (after c4 (after c3 (after c2 (after c1 V0))))) (Proc.devRef .tc main_arg2) = V0 (Proc.devRef .tc main_arg2) := (c5_keep (after c4 (after c3 (after c2 (after c1 V0)))) main_arg2 (by decide)).trans e3_2
  have e4_5 : (after c5 (after c4 (after c3 (after c2 (after c1 V0))))) (Proc.devRef .tc main_arg5) = V0 (Proc.devRef .tc main_arg5) := (c5_keep (after c4 (after c3 (after c2 (after c1 V0)))) main_arg5 (by decide)).trans e3_5
  have e4_6 : (after c5 (after c4 (after c3 (after c2 (after c1 V0))))) (Proc.devRef .tc main_arg6) = V0 (Proc.devRef .tc main_arg6) := (c5_keep (after c4 (after c3 (after c2 (after c1 V0)))) main_arg6 (by decide)).trans e3_6
  have e4_9 : (after c5 (after c4 (after c3 (after c2 (after c1 V0))))) (Proc.devRef .tc main_arg9) = V0 (Proc.devRef .tc main_arg9) := (c5_keep (after c4 (after c3 (after c2 (after c1 V0)))) main_arg9 (by decide)).trans e3_9
  -- the last convolution
  rw [E_v118 (after c5 (after c4 (after c3 (after c2 (after c1 V0))))) (by rw [e4_1]; exact p4) (by rw [e4_2]; exact q4), x4, e4_5, e4_9, e4_6, e4_1, e4_2]

/-- On every device, from any memory with zero counters: every weakly fair execution of the reference terminates with the
    result buffer at the composed layers of the arguments' launch contents, and the fourteen arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v118) = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13) :=
  (θ_run defs _ _).mono (fun _ h c => ⟨(h c main_v118).trans (out_eq (launchContents m c)),
      (h c main_arg0).trans (ops_keep (launchContents m c) main_arg0 (by decide) (by decide) (by decide) (by decide) (by decide) (by decide) (by decide)),
      (h c main_arg1).trans (ops_keep (launchContents m c) main_arg1 (by decide) (by decide) (by decide) (by decide) (by decide) (by decide) (by decide)),
      (h c main_arg2).trans (ops_keep (launchContents m c) main_arg2 (by decide) (by decide) (by decide) (by decide) (by decide) (by decide) (by decide)),
      (h c main_arg3).trans (ops_keep (launchContents m c) main_arg3 (by decide) (by decide) (by decide) (by decide) (by decide) (by decide) (by decide)),
      (h c main_arg4).trans (ops_keep (launchContents m c) main_arg4 (by decide) (by decide) (by decide) (by decide) (by decide) (by decide) (by decide)),
      (h c main_arg5).trans (ops_keep (launchContents m c) main_arg5 (by decide) (by decide) (by decide) (by decide) (by decide) (by decide) (by decide)),
      (h c main_arg6).trans (ops_keep (launchContents m c) main_arg6 (by decide) (by decide) (by decide) (by decide) (by decide) (by decide) (by decide)),
      (h c main_arg7).trans (ops_keep (launchContents m c) main_arg7 (by decide) (by decide) (by decide) (by decide) (by decide) (by decide) (by decide)),
      (h c main_arg8).trans (ops_keep (launchContents m c) main_arg8 (by decide) (by decide) (by decide) (by decide) (by decide) (by decide) (by decide)),
      (h c main_arg9).trans (ops_keep (launchContents m c) main_arg9 (by decide) (by decide) (by decide) (by decide) (by decide) (by decide) (by decide)),
      (h c main_arg10).trans (ops_keep (launchContents m c) main_arg10 (by decide) (by decide) (by decide) (by decide) (by decide) (by decide) (by decide)),
      (h c main_arg11).trans (ops_keep (launchContents m c) main_arg11 (by decide) (by decide) (by decide) (by decide) (by decide) (by decide) (by decide)),
      (h c main_arg12).trans (ops_keep (launchContents m c) main_arg12 (by decide) (by decide) (by decide) (by decide) (by decide) (by decide) (by decide)),
      (h c main_arg13).trans (ops_keep (launchContents m c) main_arg13 (by decide) (by decide) (by decide) (by decide) (by decide) (by decide) (by decide))⟩)
    (run_after m ρ)

end Cert.ReferenceIdeal.RefRun

end
-- ==== Proof.Consts.lean ====
/-
  The float words the two programs spell whose values the proof reads: +0.0 is 0, 1.0 is the real 1 and -0.5 is the
  real -1/2 (sign, exponent and fraction fields of the IEEE single-precision pattern, evaluated once here).
-/
import Idealize.ShloMosaic.PureOps.Ideal

noncomputable section

open scoped BigOperators

namespace Cert.Consts

open Idealize.ShloMosaic

/-- The word 0x00000000 denotes 0. -/
theorem ofBits_zero : Ideal.ofBits .f32 0x00000000#32 = 0 := by
  simp [Ideal.ofBits, Ideal.ieee]

/-- The word 0x3F800000 denotes the real 1. -/
theorem ofBits_one : Ideal.ofBits .f32 0x3F800000#32 = ((1 : ℝ) : EReal) := by
  simp [Ideal.ofBits, Ideal.ieee, -EReal.coe_mul]; norm_num

/-- The word 0xBF000000 denotes the real -1/2. -/
theorem ofBits_neg_half : Ideal.ofBits .f32 0xBF000000#32 = ((-(1 / 2) : ℝ) : EReal) := by
  simp [Ideal.ofBits, Ideal.ieee, -EReal.coe_mul]; norm_num

end Cert.Consts

end
-- ==== Proof.Norm.lean ====
/-
  The degree normaliser is a nonnegative real number at every node.

  norm e (v) = max(1, #{edges whose end point e is v})^(-1/2). The count is zero plus a finite sum of ones: a real
  number (an accumulating scatter of real updates onto a real operand is real entry by entry, whatever the indices: an
  update landing outside the operand is simply not added). The maximum of 1 and a real is a real that is at least 1,
  and a nonnegative real base raised to a real exponent is a nonnegative real (the real power function). Nothing is
  assumed of the integer array e.
-/
import proofs.«124566_j44289702756373_1_alg».proof.Proof.Spec
import proofs.«124566_j44289702756373_1_alg».proof.Proof.Consts
import proofs.«124566_j44289702756373_1_alg».proof.Proof.LibHostReads

noncomputable section

open scoped BigOperators

namespace Cert.Norm

open Idealize.ShloMosaic Idealize.ShloMosaic.ValueIdx

/-- A real number plus a finite sum of real numbers is a real number. -/
theorem add_sum_real {ι : Type} (a : EReal) (t : Finset ι) (f : ι → EReal) (ha : ∃ r : ℝ, a = (r : EReal))
    (hf : ∀ j ∈ t, ∃ r : ℝ, f j = (r : EReal)) : ∃ r : ℝ, a + ∑ j ∈ t, f j = (r : EReal) := by
  classical
  obtain ⟨x, rfl⟩ := ha
  induction t using Finset.induction_on with
  | empty => exact ⟨x, by simp⟩
  | insert b t hb ih =>
    obtain ⟨y, hy⟩ := ih (fun j hj => hf j (Finset.mem_insert_of_mem hj))
    obtain ⟨z, hz⟩ := hf b (Finset.mem_insert_self b t)
    refine ⟨z + y, ?_⟩
    rw [Finset.sum_insert hb, hz, add_left_comm, hy, EReal.coe_add]

/-- An accumulating scatter of real updates onto a real operand is real at every entry, whatever the indices. -/
theorem scatterAdd_real {s si su : Shape} {w : Nat} (d : ScatterDims s si su) (x : FVec Ideal s .f32) (idx : IVec si w)
    (upd : FVec Ideal su .f32) (hx : ∀ i, ∃ r : ℝ, x i = (r : EReal)) (hu : ∀ j, ∃ r : ℝ, upd j = (r : EReal))
    (i : s.Idx) : ∃ r : ℝ, Host.scatterAdd d x idx upd i = (r : EReal) := by
  unfold Host.scatterAdd
  rw [Ideal.hostScatterAdd_def]
  unfold Ideal.hostScatterAdd
  exact add_sum_real _ _ _ (hx i) (fun j _ => hu j)

/-- max(1, d)^y for real d and y is a nonnegative real, so it is nonnegative and not +∞. -/
theorem pow_max_nonneg (one d y : EReal) (h1 : one = ((1 : ℝ) : EReal)) (hd : ∃ r : ℝ, d = (r : EReal))
    (hy : ∃ r : ℝ, y = (r : EReal)) : 0 ≤ Ideal.pow (max one d) y ∧ Ideal.pow (max one d) y ≠ ⊤ := by
  obtain ⟨r, rfl⟩ := hd
  obtain ⟨z, rfl⟩ := hy
  subst h1
  rw [← EReal.coe_strictMono.monotone.map_max, Ideal.pow_coe_coe]
  exact ⟨EReal.coe_nonneg.mpr (Real.rpow_nonneg (le_trans zero_le_one (le_max_left 1 r)) z), EReal.coe_ne_top _⟩

open Cert.ReferenceIdeal Cert.ReferenceIdeal.Facts₀ Cert.Spec

/-- The number of edges ending at a node is a real number. -/
theorem deg_real (e : IV S1600000) (i : S100000.Idx) : ∃ r : ℝ, deg e i = (r : EReal) :=
  scatterAdd_real scatter_S100000_S1600000x1_S1600000_n_0_0_1 _ _ _
    (fun i => ⟨0, ((Cert.LibHostReads.splat_apply bcast_S_S100000 (constant (F := Ideal) S_ .f32 0x00000000#32) i).trans
      Cert.Consts.ofBits_zero).trans EReal.coe_zero.symm⟩)
    (fun j => ⟨1, (Cert.LibHostReads.splat_apply bcast_S_S1600000 (constant (F := Ideal) S_ .f32 0x3F800000#32) j).trans
      Cert.Consts.ofBits_one⟩) i

/-- For ANY per-node array d of real numbers, max(1, d)^(-1/2) is nonnegative and never +∞ at every node. -/
theorem normOf_nonneg (d : FV S100000) (hd : ∀ i, ∃ r : ℝ, d i = (r : EReal)) (i : S100000.Idx) :
    0 ≤ Host.powf (clip1 d) (broadcastInDim S100000 ![] bcast_S_S100000 (constant (F := Ideal) S_ .f32 0xBF000000#32)) i
    ∧ Host.powf (clip1 d) (broadcastInDim S100000 ![] bcast_S_S100000 (constant (F := Ideal) S_ .f32 0xBF000000#32)) i ≠ ⊤ := by
  have h : Host.powf (clip1 d) (broadcastInDim S100000 ![] bcast_S_S100000 (constant (F := Ideal) S_ .f32 0xBF000000#32)) i
      = Ideal.pow (max (Ideal.ofBits .f32 0x3F800000#32) (d i)) (Ideal.ofBits .f32 0xBF000000#32) := by
    simp only [Cert.Spec.clip1, Host.powf, Idealize.ShloMosaic.maximumf, Ideal.hostPowf_def, Ideal.maximumf_def, id]
    rw [Cert.LibHostReads.splat_apply, Cert.LibHostReads.splat_apply, constant_apply, constant_apply]
  rw [h]
  exact pow_max_nonneg _ _ _ Cert.Consts.ofBits_one (hd i) ⟨-(1 / 2), Cert.Consts.ofBits_neg_half⟩

attribute [local irreducible] Cert.Spec.deg in
/-- The normaliser max(degree, 1)^(-1/2) is nonnegative and never +∞. -/
theorem norm_nonneg (e : IV S1600000) (i : S100000.Idx) : 0 ≤ Cert.Spec.norm e i ∧ Cert.Spec.norm e i ≠ ⊤ :=
  normOf_nonneg (deg e) (deg_real e) i

end Cert.Norm

end
-- ==== Proof.LibCastBroadcast.lean ====
/-
  A vector laid out as a column or as a row: the reshape and the broadcast are one function.

  A vector of N entries becomes an N×1 column either by a shape cast (the entries keep their row-major order) or by a
  broadcast that puts the vector's axis on axis 0; it becomes a 1×n row either by a shape cast or by a broadcast that puts
  its axis on axis 1. In each pair the two arrays have the same entries: the column's entry (r, 0) is the vector's entry r,
  the row's entry (0, q) is the vector's entry q. Generic in the extent and the element type (for the column the extent
  must not be the unit extent, so that the broadcast reads the row coordinate).
-/
import Idealize.ShloMosaic.Lib.Pipeline.Value
import Idealize.ShloMosaic.Lib.ValueIdx

namespace Cert.LibCastBroadcast

open Idealize.ShloMosaic Idealize.ShloMosaic.ValueIdx

variable {α : Type}

/-- [N] → [N, 1]: the cast is the broadcast along axis 0. -/
theorem colCast_eq {N : Nat} (hN : N ≠ 1) (v : (⟨1, ![N]⟩ : Shape).Idx → α)
    (h : (⟨1, ![N]⟩ : Shape).ShapeCasts ⟨2, ![N, 1]⟩) (h' : (⟨1, ![N]⟩ : Shape).BroadcastsInDim ⟨2, ![N, 1]⟩ ![0]) :
    shapeCast ⟨2, ![N, 1]⟩ v h = broadcastInDim ⟨2, ![N, 1]⟩ ![0] h' v := by
  funext i
  obtain ⟨r, z, rfl⟩ : ∃ (r : Fin N) (z : Fin 1), i = ix2 r z := ⟨i 0, i 1, eq_ix2 i⟩
  rw [broadcastInDim_apply ![0] h' v (ix2 r z) (ix1 r) (fun a => match a with
    | ⟨0, _⟩ => by show r.val = if N = 1 then 0 else r.val; rw [if_neg hN])]
  refine shapeCast_apply v h (ix2 r z) (ix1 r) ?_
  rw [Shape.rowMajor_val_one, Shape.rowMajor_val_two]
  show r.val = r.val * 1 + z.val
  have := z.isLt; omega

/-- [n] → [1, n]: the cast is the broadcast along axis 1. -/
theorem rowCast_eq {n : Nat} (v : (⟨1, ![n]⟩ : Shape).Idx → α)
    (h : (⟨1, ![n]⟩ : Shape).ShapeCasts ⟨2, ![1, n]⟩) (h' : (⟨1, ![n]⟩ : Shape).BroadcastsInDim ⟨2, ![1, n]⟩ ![1]) :
    shapeCast ⟨2, ![1, n]⟩ v h = broadcastInDim ⟨2, ![1, n]⟩ ![1] h' v := by
  funext i
  obtain ⟨z, q, rfl⟩ : ∃ (z : Fin 1) (q : Fin n), i = ix2 z q := ⟨i 0, i 1, eq_ix2 i⟩
  obtain rfl : z = 0 := Subsingleton.elim _ _
  rw [shapeCast_apply v h (ix2 (0 : Fin 1) q) (ix1 q) (by
      rw [Shape.rowMajor_val_one, Shape.rowMajor_val_two]; show q.val = 0 * n + q.val; omega),
    broadcastInDim_apply ![1] h' v (ix2 (0 : Fin 1) q) (ix1 q) (fun a => match a with
      | ⟨0, _⟩ => by
        show q.val = if n = 1 then 0 else q.val
        split
        · have := q.isLt; omega
        · rfl)]

end Cert.LibCastBroadcast
-- ==== Proof.ScaleLaw.lean ====
/-
  Scaling the rows of a matrix by a nonnegative real before or after a matrix product.

  For a node r with a nonnegative real factor x(r),  Σ_k (u(r,k) · x(r)) · W(k,q) = (Σ_k u(r,k) · W(k,q)) · x(r).
  On the extended reals multiplication distributes over a sum when the factor is a nonnegative real (a sum that mixes +∞
  and -∞ is -∞ on both sides; a zero factor gives zero on both sides), so the entries of u and W may be anything. The
  kernel program scales the aggregated rows before the product, the reference scales the product: with the degree
  normaliser as the factor the two layers are one function. Also here: a vector laid out as a column by a reshape or by
  a broadcast is the same column, and likewise for a row.
-/
import proofs.«124566_j44289702756373_1_alg».proof.Proof.Spec
import proofs.«124566_j44289702756373_1_alg».proof.Proof.Norm
import proofs.«124566_j44289702756373_1_alg».proof.Proof.LibHostReads
import proofs.«124566_j44289702756373_1_alg».proof.Proof.LibCastBroadcast

noncomputable section

open scoped BigOperators

namespace Cert.ScaleLaw

open Idealize.ShloMosaic Idealize.ShloMosaic.ValueIdx Cert.ReferenceIdeal Cert.Spec

-- the aggregation and the normaliser are carried as opaque functions: nothing below looks inside them
attribute [local irreducible] Cert.Spec.agg128 Cert.Spec.agg40 Cert.Spec.norm Cert.Spec.deg

/-- A nonnegative real factor moves across a finite sum of extended reals. -/
theorem sum_mul_of_nonneg {ι : Type} (s : Finset ι) (f : ι → EReal) {x : EReal} (hx : 0 ≤ x) (hx' : x ≠ ⊤) :
    (∑ k ∈ s, f k) * x = ∑ k ∈ s, f k * x := by
  classical
  induction s using Finset.induction_on with
  | empty => simp
  | insert a s ha ih =>
    rw [Finset.sum_insert ha, Finset.sum_insert ha, EReal.right_distrib_of_nonneg_of_ne_top hx hx', ih]

/-- The reshape [N] → [N,1] is the broadcast along axis 0. -/
theorem colK_eq (x : FV S100000) : colK x = col x :=
  Cert.LibCastBroadcast.colCast_eq (by decide) x _ _
/-- The reshape [128] → [1,128] is the broadcast along axis 1. -/
theorem rowK_eq (x : FV S128) : rowK x = row x :=
  Cert.LibCastBroadcast.rowCast_eq x _ _
/-- The reshape [40] → [1,40] is the broadcast along axis 1. -/
theorem rowK40_eq (x : FV S40) : rowK40 x = row40 x :=
  Cert.LibCastBroadcast.rowCast_eq x _ _

/-- A per-node vector laid out as a column and then along 128 columns reads, at (r, q), the vector at r. -/
theorem bcol128_col (x : FV S100000) (r : Fin 100000) (q : Fin 128) : bcol128 (col x) (ix2 r q) = x (ix1 r) := by
  unfold bcol128 col
  rw [Cert.LibHostReads.colBcast_apply (by decide) _ _ r q, Cert.LibHostReads.col_apply (by decide) _ _ r 0]

/-- (u · x) · W = (u · W) · x for a per-node factor x of nonnegative reals. -/
theorem scale_dot128 (u : FV S100000x128) (x : FV S100000) (W : FV S128x128)
    (hx : ∀ i : S100000.Idx, 0 ≤ x i ∧ x i ≠ ⊤) :
    dot128 (mulf u (bcol128 (col x))) W = mulf (dot128 u W) (bcol128 (col x)) := by
  funext i
  obtain ⟨r, q, rfl⟩ : ∃ (r : Fin 100000) (q : Fin 128), i = ix2 r q := ⟨i 0, i 1, eq_ix2 i⟩
  rw [mulf_apply, bcol128_col]
  unfold dot128
  rw [Cert.LibHostReads.dot_apply dot_S100000x128_S128x128_S100000x128_1_0_0_1_n_n rfl _ _ r q,
    Cert.LibHostReads.dot_apply dot_S100000x128_S128x128_S100000x128_1_0_0_1_n_n rfl _ _ r q,
    sum_mul_of_nonneg _ _ (hx _).1 (hx _).2]
  refine Finset.sum_congr rfl fun k _ => ?_
  rw [mulf_apply, bcol128_col, mul_right_comm]

/-- One hidden layer: the kernel program's is the reference's. -/
theorem convK_eq (h : FV S100000x128) (W L : FV S128x128) (src dst : IV S1600000) :
    convK h W L src dst = convR h W L src dst := by
  unfold convK convR combineH
  rw [colK_eq, colK_eq, scale_dot128 _ _ _ (Cert.Norm.norm_nonneg dst)]

/-- The last layer: the kernel program's is the reference's (the same operations, a reshape for a broadcast). -/
theorem lastK_eq (h : FV S100000x128) (W L : FV S40x128) (bias : FV S40) (src dst : IV S1600000) :
    lastK h W L bias src dst = lastR h W L bias src dst := by
  unfold lastK lastR finalH prescaleH
  rw [colK_eq, colK_eq, rowK40_eq]

end Cert.ScaleLaw

end
-- ==== Proof.BnBridge.lean ====
/-
  Batch normalisation with its column statistics kept as rows [1,128] or as vectors [128].

  The kernel program computes the column means and variances as one row [1,128] each (the column sums laid out as a
  row first, then divided), the reference as vectors [128] that it lays out as rows afterwards. Laying a vector out as
  a row commutes with every entrywise operation against a scalar: the row of v/c is (the row of v)/c, the same for
  v + c, for the reciprocal square root and for a select on one scalar condition. So the two normalisations are one
  function of the activations and of the scale and shift vectors. Nothing here reads the value of a float word or of the
  guard's condition: both sides carry the same ones.
-/
import proofs.«124566_j44289702756373_1_alg».proof.Proof.Spec
import proofs.«124566_j44289702756373_1_alg».proof.Proof.ScaleLaw
import proofs.«124566_j44289702756373_1_alg».proof.Proof.LibHostReads

noncomputable section

open scoped BigOperators

namespace Cert.BnBridge

open Idealize.ShloMosaic Idealize.ShloMosaic.ValueIdx Cert.ReferenceIdeal Cert.ReferenceIdeal.Facts₀ Cert.Spec

-- the column sums are carried as an opaque function: nothing below looks inside them
attribute [local irreducible] Cert.Spec.colsum

/-- A vector laid out as a row reads, at (0, q), the vector at q. -/
theorem row_apply (v : FV S128) (z : Fin 1) (q : Fin 128) : row v (ix2 z q) = v (ix1 q) := by
  unfold row
  exact broadcastInDim_apply ![1] _ v (ix2 z q) (ix1 q) (fun a => match a with
    | ⟨0, _⟩ => by show q.val = if (128 : Nat) = 1 then 0 else q.val; rw [if_neg (by decide)])

/-- Dividing by a scalar, before or after laying out as a row. -/
theorem row_divf (v : FV S128) (c : FVec Ideal S_ .f32) :
    Host.divf (row v) (broadcastInDim S1x128 ![] bcast_S_S1x128 c) = row (Host.divf v (broadcastInDim S128 ![] bcast_S_S128 c)) := by
  funext i
  obtain ⟨z, q, rfl⟩ : ∃ (z : Fin 1) (q : Fin 128), i = ix2 z q := ⟨i 0, i 1, eq_ix2 i⟩
  rw [row_apply]
  show FloatOps.hostDivf (row v (ix2 z q)) (broadcastInDim S1x128 ![] bcast_S_S1x128 c (ix2 z q))
    = FloatOps.hostDivf (v (ix1 q)) (broadcastInDim S128 ![] bcast_S_S128 c (ix1 q))
  rw [row_apply, Cert.LibHostReads.splat_apply, Cert.LibHostReads.splat_apply]

/-- Adding a scalar, before or after laying out as a row. -/
theorem row_addf (v : FV S128) (c : FVec Ideal S_ .f32) :
    addf (row v) (broadcastInDim S1x128 ![] bcast_S_S1x128 c) = row (addf v (broadcastInDim S128 ![] bcast_S_S128 c)) := by
  funext i
  obtain ⟨z, q, rfl⟩ : ∃ (z : Fin 1) (q : Fin 128), i = ix2 z q := ⟨i 0, i 1, eq_ix2 i⟩
  rw [row_apply, addf_apply, addf_apply, row_apply, Cert.LibHostReads.splat_apply, Cert.LibHostReads.splat_apply]

/-- The reciprocal square root, before or after laying out as a row. -/
theorem row_rsqrt (v : FV S128) : Host.rsqrt (row v) = row (Host.rsqrt v) := by
  funext i
  obtain ⟨z, q, rfl⟩ : ∃ (z : Fin 1) (q : Fin 128), i = ix2 z q := ⟨i 0, i 1, eq_ix2 i⟩
  rw [row_apply]
  show FloatOps.hostUnary .rsqrt (row v (ix2 z q)) = FloatOps.hostUnary .rsqrt (v (ix1 q))
  rw [row_apply]

/-- A select on one scalar condition against a scalar alternative, before or after laying out as a row. -/
theorem row_select (p : IVec S_ 1) (v : FV S128) (c : FVec Ideal S_ .f32) :
    select (broadcastInDim S1x128 ![] bcast_S_S1x128 p) (row v) (broadcastInDim S1x128 ![] bcast_S_S1x128 c)
      = row (select (broadcastInDim S128 ![] bcast_S_S128 p) v (broadcastInDim S128 ![] bcast_S_S128 c)) := by
  funext i
  obtain ⟨z, q, rfl⟩ : ∃ (z : Fin 1) (q : Fin 128), i = ix2 z q := ⟨i 0, i 1, eq_ix2 i⟩
  rw [row_apply, select_apply, select_apply, row_apply, Cert.LibHostReads.splat_apply, Cert.LibHostReads.splat_apply,
    Cert.LibHostReads.splat_apply, Cert.LibHostReads.splat_apply]

/-- The column means as a row are the row of the column means. -/
theorem meanK_eq (y : FV S100000x128) : meanK y = row (meanR y) := row_divf _ _

/-- The column variances as a row are the row of the column variances. -/
theorem varK_eq (y : FV S100000x128) : varK y = row (varR y) := by
  unfold varK varR
  rw [row_divf, row_select]

/-- Normalise, scale, shift, rectify: the kernel program's is the reference's. -/
theorem bnK_eq (y : FV S100000x128) (g b : FV S128) : bnK y g b = bnR y g b := by
  unfold bnK bnR bnreluH relu
  rw [Cert.ScaleLaw.rowK_eq, Cert.ScaleLaw.rowK_eq, meanK_eq, varK_eq, row_addf, row_rsqrt]

end Cert.BnBridge

end
-- ==== Proof.Bridge.lean ====
/-
  The kernel program and the reference compute one function of their fourteen arguments.

  Layer by layer: a hidden layer of the kernel program is the reference's (the degree factor moves across the weight
  product), each batch normalisation is the reference's (rows for vectors), and the last layer is the reference's
  operation for operation. No hypothesis on the arguments is needed: the only fact used about numbers is that the degree
  normaliser is a nonnegative real, which holds for every integer edge list.
-/
import proofs.«124566_j44289702756373_1_alg».proof.Proof.Spec
import proofs.«124566_j44289702756373_1_alg».proof.Proof.ScaleLaw
import proofs.«124566_j44289702756373_1_alg».proof.Proof.BnBridge

noncomputable section

open scoped BigOperators

namespace Cert.Bridge

open Idealize.ShloMosaic Cert.ReferenceIdeal Cert.Spec

/-- The two programs' results agree on all arguments. -/
theorem kerOut_eq_refOut (a0 : FV S100000x128) (a1 a2 : IV S1600000) (a3 a4 : FV S128x128) (a5 : FV S40x128) (a6 : FV S40)
    (a7 a8 : FV S128x128) (a9 : FV S40x128) (a10 a11 a12 a13 : FV S128) :
    kerOut a0 a1 a2 a3 a4 a5 a6 a7 a8 a9 a10 a11 a12 a13 = refOut a0 a1 a2 a3 a4 a5 a6 a7 a8 a9 a10 a11 a12 a13 := by
  unfold kerOut refOut
  rw [Cert.ScaleLaw.lastK_eq, Cert.BnBridge.bnK_eq, Cert.ScaleLaw.convK_eq, Cert.BnBridge.bnK_eq, Cert.ScaleLaw.convK_eq]

end Cert.Bridge

end
-- ==== Proof.lean ====
/-
  A three-layer graph convolution over 100000 nodes and 1600000 edges: the tiled kernel program against its reference,
  over the extended reals.

  The kernel program and the reference differ in three ways only. (1) In the two hidden layers the kernel program
  scales the aggregated features by the in-degree normaliser BEFORE the weight product and the reference scales the
  product; the normaliser max(degree, 1)^(-1/2) is a nonnegative real for every edge list, and a nonnegative real
  factor moves across a finite sum of extended reals whatever the summands are, so the two agree without any
  hypothesis on the floating-point inputs (Proof/Norm.lean, Proof/ScaleLaw.lean). (2) The batch normalisation's column
  means and variances are rows [1,128] in the kernel program and vectors [128] in the reference; laying a vector out
  as a row commutes with the entrywise operations involved (Proof/BnBridge.lean). (3) The kernel program reshapes where
  the reference broadcasts. Everything else — the degree counts, the gather / scatter-add aggregation, the
  transposes — is the same text on both sides and is never opened (Proof/Spec.lean names it once).

  The kernel program's run: each of its six regions writes a whole-array function of the arrays it finds
  (Proof/RegionsA.lean, Proof/RegionsB.lean: the 5000-row tiles cover the node axis and block row a of tile t is node
  5000 t + a), what each region finds is a host stage of the arguments or an earlier region's output
  (Proof/KerRun.lean), and threading them gives the specification's kerOut (Proof/KerValue.lean). The reference's run
  reads back as refOut stage by stage (Proof/RefRun.lean). kerOut = refOut is Proof/Bridge.lean.
  The word-level program's frame and the idealized one's are the generated frames; the idealization rewrote nothing.
-/
import proofs.«124566_j44289702756373_1_alg».proof.Defs
import proofs.«124566_j44289702756373_1_alg».proof.Proof.Gen.Kernel
import proofs.«124566_j44289702756373_1_alg».proof.Proof.Gen.Kernel.Frame
import proofs.«124566_j44289702756373_1_alg».proof.Proof.Gen.KernelIdeal
import proofs.«124566_j44289702756373_1_alg».proof.Proof.Gen.KernelIdeal.Frame
import proofs.«124566_j44289702756373_1_alg».proof.Proof.Gen.ReferenceIdeal
import proofs.«124566_j44289702756373_1_alg».proof.Proof.Gen.Pre_finite_inputs
import proofs.«124566_j44289702756373_1_alg».proof.Proof.KerRun
import proofs.«124566_j44289702756373_1_alg».proof.Proof.KerValue
import proofs.«124566_j44289702756373_1_alg».proof.Proof.RefRun
import proofs.«124566_j44289702756373_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs, nothing faults, and its arguments end unchanged. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The reference runs and its arguments end unchanged: its run, with the result forgotten. -/
theorem frame_ri : Cert.frame_ReferenceIdeal := fun m ρ _ =>
  (θ_run Cert.ReferenceIdeal.defs _ _).mono (fun _ h c => (h c).2) (Cert.ReferenceIdeal.RefRun.run m ρ)

/-- The idealization rewrote no operation. -/
theorem preserves : Cert.preserves_Kernel_KernelIdeal := trivial

/-- From memories agreeing on the arguments both programs end with the result kerOut of the arguments. -/
theorem algebraic : Cert.algebraic_KernelIdeal_ReferenceIdeal := by
  intro m ρ m' ρ' _ hagree
  refine ⟨fun c => Cert.Spec.kerOut (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12))
      (m ((c.tc : Thread Cert.KernelIdeal.nD Cert.KernelIdeal.τ).loc Cert.KernelIdeal.main_arg13)), ?_, ?_⟩
  · exact (θ_run Cert.KernelIdeal.defs _ _).mono
      (fun r h c => ⟨(h c).1.trans (Cert.KernelIdeal.KerValue.out_value m ρ c), (h c).2⟩)
      (Cert.KernelIdeal.KerRun.run_named m ρ)
  · refine (θ_run Cert.ReferenceIdeal.defs _ _).mono (fun r h c => ⟨(h c).1.trans ?_, (h c).2⟩)
      (Cert.ReferenceIdeal.RefRun.run m' ρ')
    obtain ⟨h0, h1, h2, h3, h4, h5, h6, h7, h8, h9, h10, h11, h12, h13⟩ := hagree c
    rw [h0, h1, h2, h3, h4, h5, h6, h7, h8, h9, h10, h11, h12, h13]
    exact (Cert.Bridge.kerOut_eq_refOut _ _ _ _ _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
